-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) →
    ∃ (v0 : (c : Dev Cert.KernelIdeal.nD) → Buf (Elt Ideal) ((c.tc : Thread Cert.KernelIdeal.nD Cert.KernelIdeal.τ).loc Cert.KernelIdeal.main_v37)) (v1 : (c : Dev Cert.KernelIdeal.nD) → Buf (Elt Ideal) ((c.tc : Thread Cert.KernelIdeal.nD Cert.KernelIdeal.τ).loc Cert.KernelIdeal.main_v20)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v37) = v0 c
          ∧ r.2.mem ((c.tc : Thread Cert.KernelIdeal.nD Cert.KernelIdeal.τ).loc Cert.KernelIdeal.main_v20) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v66) = v0 c
          ∧ r.2.mem ((c.tc : Thread Cert.ReferenceIdeal.nD Cert.ReferenceIdeal.τ).loc Cert.ReferenceIdeal.main_v34) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S1000000x64 : Shape := ⟨2, ![1000000, 64]⟩
abbrev S1000000 : Shape := ⟨1, ![1000000]⟩
abbrev S192x16 : Shape := ⟨2, ![192, 16]⟩
abbrev S16 : Shape := ⟨1, ![16]⟩
abbrev S16x16 : Shape := ⟨2, ![16, 16]⟩
abbrev S16x64 : Shape := ⟨2, ![16, 64]⟩
abbrev S64 : Shape := ⟨1, ![64]⟩
abbrev S128x16 : Shape := ⟨2, ![128, 16]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S1000000x64 : S_.BroadcastsInDim S1000000x64 (![] : Fin 0 → Fin S1000000x64.rank)
  reducesTo_S1000000x64_S_d0_1 : S1000000x64.ReducesTo [0, 1] S_
  bcast_S_S192x16 : S_.BroadcastsInDim S192x16 (![] : Fin 0 → Fin S192x16.rank)
  reducesTo_S192x16_S_d0_1 : S192x16.ReducesTo [0, 1] S_
  bcast_S_S16 : S_.BroadcastsInDim S16 (![] : Fin 0 → Fin S16.rank)
  reducesTo_S16_S_d0 : S16.ReducesTo [0] S_
  bcast_S_S16x16 : S_.BroadcastsInDim S16x16 (![] : Fin 0 → Fin S16x16.rank)
  reducesTo_S16x16_S_d0_1 : S16x16.ReducesTo [0, 1] S_
  bcast_S_S16x64 : S_.BroadcastsInDim S16x64 (![] : Fin 0 → Fin S16x64.rank)
  reducesTo_S16x64_S_d0_1 : S16x64.ReducesTo [0, 1] S_
  bcast_S_S64 : S_.BroadcastsInDim S64 (![] : Fin 0 → Fin S64.rank)
  reducesTo_S64_S_d0 : S64.ReducesTo [0] S_
  bcast_S_S128x16 : S_.BroadcastsInDim S128x16 (![] : Fin 0 → Fin S128x16.rank)
  reducesTo_S128x16_S_d0_1 : S128x16.ReducesTo [0, 1] S_

variable [Facts]

def fn_part4 {F : FTy → Type} [FloatOps F] (main_v63 : IVec S_ 1) (main_v67 : IVec S_ 1) : IVec S_ 1 :=
  let main_v68 : IVec S_ 1 := andi main_v63 main_v67
  main_v68

def fn_part3 {F : FTy → Type} [FloatOps F] (main_arg13 : FVec F S16 .f32) (main_arg14 : FVec F S16x64 .f32) (main_arg15 : FVec F S64 .f32) (main_v48 : IVec S_ 1) (main_v49 : FVec F S16x16 .f32) (main_v50 : FVec F S16x16 .f32) : IVec S_ 1 :=
  let main_v51 : IVec S16x16 1 := cmpf .olt main_v49 main_v50
  let main_c_19 : IVec S_ 1 := constantI S_ 1 1#1
  let main_v52 : IVec S_ 1 := (fun x v => Host.reduce IntOp.andi x v reducesTo_S16x16_S_d0_1 h_S_) main_v51 main_c_19
  let main_v53 : IVec S_ 1 := andi main_v48 main_v52
  let main_v54 : FVec F S16 .f32 := Host.absf main_arg13
  let main_cst_20 : FVec F S_ .f32 := constant S_ .f32 0x7F800000#32
  let main_v55 : FVec F S16 .f32 := broadcastInDim S16 ![] bcast_S_S16 main_cst_20
  let main_v56 : IVec S16 1 := cmpf .olt main_v54 main_v55
  let main_c_21 : IVec S_ 1 := constantI S_ 1 1#1
  let main_v57 : IVec S_ 1 := (fun x v => Host.reduce IntOp.andi x v reducesTo_S16_S_d0 h_S_) main_v56 main_c_21
  let main_v58 : IVec S_ 1 := andi main_v53 main_v57
  let main_v59 : FVec F S16x64 .f32 := Host.absf main_arg14
  let main_cst_22 : FVec F S_ .f32 := constant S_ .f32 0x7F800000#32
  let main_v60 : FVec F S16x64 .f32 := broadcastInDim S16x64 ![] bcast_S_S16x64 main_cst_22
  let main_v61 : IVec S16x64 1 := cmpf .olt main_v59 main_v60
  let main_c_23 : IVec S_ 1 := constantI S_ 1 1#1
  let main_v62 : IVec S_ 1 := (fun x v => Host.reduce IntOp.andi x v reducesTo_S16x64_S_d0_1 h_S_) main_v61 main_c_23
  let main_v63 : IVec S_ 1 := andi main_v58 main_v62
  let main_v64 : FVec F S64 .f32 := Host.absf main_arg15
  let main_cst_24 : FVec F S_ .f32 := constant S_ .f32 0x7F800000#32
  let main_v65 : FVec F S64 .f32 := broadcastInDim S64 ![] bcast_S_S64 main_cst_24
  let main_v66 : IVec S64 1 := cmpf .olt main_v64 main_v65
  let main_c_25 : IVec S_ 1 := constantI S_ 1 1#1
  let main_v67 : IVec S_ 1 := (fun x v => Host.reduce IntOp.andi x v reducesTo_S64_S_d0 h_S_) main_v66 main_c_25
  fn_part4 (F := F) main_v63 main_v67

def fn_part2 {F : FTy → Type} [FloatOps F] (main_arg9 : FVec F S64 .f32) (main_arg10 : FVec F S128x16 .f32) (main_arg11 : FVec F S16 .f32) (main_arg12 : FVec F S16x16 .f32) (main_arg13 : FVec F S16 .f32) (main_arg14 : FVec F S16x64 .f32) (main_arg15 : FVec F S64 .f32) (main_v33 : IVec S_ 1) : IVec S_ 1 :=
  let main_v34 : FVec F S64 .f32 := Host.absf main_arg9
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  let main_v39 : FVec F S128x16 .f32 := Host.absf main_arg10
  let main_cst_14 : FVec F S_ .f32 := constant S_ .f32 0x7F800000#32
  let main_v40 : FVec F S128x16 .f32 := broadcastInDim S128x16 ![] bcast_S_S128x16 main_cst_14
  let main_v41 : IVec S128x16 1 := cmpf .olt main_v39 main_v40
  let main_c_15 : IVec S_ 1 := constantI S_ 1 1#1
  let main_v42 : IVec S_ 1 := (fun x v => Host.reduce IntOp.andi x v reducesTo_S128x16_S_d0_1 h_S_) main_v41 main_c_15
  let main_v43 : IVec S_ 1 := andi main_v38 main_v42
  let main_v44 : FVec F S16 .f32 := Host.absf main_arg11
  let main_cst_16 : FVec F S_ .f32 := constant S_ .f32 0x7F800000#32
  let main_v45 : FVec F S16 .f32 := broadcastInDim S16 ![] bcast_S_S16 main_cst_16
  let main_v46 : IVec S16 1 := cmpf .olt main_v44 main_v45
  let main_c_17 : IVec S_ 1 := constantI S_ 1 1#1
  let main_v47 : IVec S_ 1 := (fun x v => Host.reduce IntOp.andi x v reducesTo_S16_S_d0 h_S_) main_v46 main_c_17
  let main_v48 : IVec S_ 1 := andi main_v43 main_v47
  let main_v49 : FVec F S16x16 .f32 := Host.absf main_arg12
  let main_cst_18 : FVec F S_ .f32 := constant S_ .f32 0x7F800000#32
  let main_v50 : FVec F S16x16 .f32 := broadcastInDim S16x16 ![] bcast_S_S16x16 main_cst_18
  fn_part3 (F := F) main_arg13 main_arg14 main_arg15 main_v48 main_v49 main_v50

def fn_part1 {F : FTy → Type} [FloatOps F] (main_arg6 : FVec F S16x16 .f32) (main_arg7 : FVec F S16 .f32) (main_arg8 : FVec F S16x64 .f32) (main_arg9 : FVec F S64 .f32) (main_arg10 : FVec F S128x16 .f32) (main_arg11 : FVec F S16 .f32) (main_arg12 : FVec F S16x16 .f32) (main_arg13 : FVec F S16 .f32) (main_arg14 : FVec F S16x64 .f32) (main_arg15 : FVec F S64 .f32) (main_v13 : IVec S_ 1) (main_v16 : IVec S16 1) : IVec S_ 1 :=
  let main_c_5 : IVec S_ 1 := constantI S_ 1 1#1
  let main_v17 : IVec S_ 1 := (fun x v => Host.reduce IntOp.andi x v reducesTo_S16_S_d0 h_S_) main_v16 main_c_5
  let main_v18 : IVec S_ 1 := andi main_v13 main_v17
  let main_v19 : FVec F S16x16 .f32 := Host.absf main_arg6
  let main_cst_6 : FVec F S_ .f32 := constant S_ .f32 0x7F800000#32
  let main_v20 : FVec F S16x16 .f32 := broadcastInDim S16x16 ![] bcast_S_S16x16 main_cst_6
  let main_v21 : IVec S16x16 1 := cmpf .olt main_v19 main_v20
  let main_c_7 : IVec S_ 1 := constantI S_ 1 1#1
  let main_v22 : IVec S_ 1 := (fun x v => Host.reduce IntOp.andi x v reducesTo_S16x16_S_d0_1 h_S_) main_v21 main_c_7
  let main_v23 : IVec S_ 1 := andi main_v18 main_v22
  let main_v24 : FVec F S16 .f32 := Host.absf main_arg7
  let main_cst_8 : FVec F S_ .f32 := constant S_ .f32 0x7F800000#32
  let main_v25 : FVec F S16 .f32 := broadcastInDim S16 ![] bcast_S_S16 main_cst_8
  let main_v26 : IVec S16 1 := cmpf .olt main_v24 main_v25
  let main_c_9 : IVec S_ 1 := constantI S_ 1 1#1
  let main_v27 : IVec S_ 1 := (fun x v => Host.reduce IntOp.andi x v reducesTo_S16_S_d0 h_S_) main_v26 main_c_9
  let main_v28 : IVec S_ 1 := andi main_v23 main_v27
  let main_v29 : FVec F S16x64 .f32 := Host.absf main_arg8
  let main_cst_10 : FVec F S_ .f32 := constant S_ .f32 0x7F800000#32
  let main_v30 : FVec F S16x64 .f32 := broadcastInDim S16x64 ![] bcast_S_S16x64 main_cst_10
  let main_v31 : IVec S16x64 1 := cmpf .olt main_v29 main_v30
  let main_c_11 : IVec S_ 1 := constantI S_ 1 1#1
  let main_v32 : IVec S_ 1 := (fun x v => Host.reduce IntOp.andi x v reducesTo_S16x64_S_d0_1 h_S_) main_v31 main_c_11
  let main_v33 : IVec S_ 1 := andi main_v28 main_v32
  fn_part2 (F := F) main_arg9 main_arg10 main_arg11 main_arg12 main_arg13 main_arg14 main_arg15 main_v33

def fn {F : FTy → Type} [FloatOps F] (main_arg0 : FVec F S100000x64 .f32) (main_arg1 : FVec F S1000000x64 .f32) (main_arg2 : IVec S1000000 32) (main_arg3 : IVec S1000000 32) (main_arg4 : FVec F S192x16 .f32) (main_arg5 : FVec F S16 .f32) (main_arg6 : FVec F S16x16 .f32) (main_arg7 : FVec F S16 .f32) (main_arg8 : FVec F S16x64 .f32) (main_arg9 : FVec F S64 .f32) (main_arg10 : FVec F S128x16 .f32) (main_arg11 : FVec F S16 .f32) (main_arg12 : FVec F S16x16 .f32) (main_arg13 : FVec F S16 .f32) (main_arg14 : FVec F S16x64 .f32) (main_arg15 : FVec F S64 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S1000000x64 .f32 := Host.absf main_arg1
  let main_cst_0 : FVec F S_ .f32 := constant S_ .f32 0x7F800000#32
  let main_v5 : FVec F S1000000x64 .f32 := broadcastInDim S1000000x64 ![] bcast_S_S1000000x64 main_cst_0
  let main_v6 : IVec S1000000x64 1 := cmpf .olt main_v4 main_v5
  let main_c_1 : IVec S_ 1 := constantI S_ 1 1#1
  let main_v7 : IVec S_ 1 := (fun x v => Host.reduce IntOp.andi x v reducesTo_S1000000x64_S_d0_1 h_S_) main_v6 main_c_1
  let main_v8 : IVec S_ 1 := andi main_v3 main_v7
  let main_v9 : FVec F S192x16 .f32 := Host.absf main_arg4
  let main_cst_2 : FVec F S_ .f32 := constant S_ .f32 0x7F800000#32
  let main_v10 : FVec F S192x16 .f32 := broadcastInDim S192x16 ![] bcast_S_S192x16 main_cst_2
  let main_v11 : IVec S192x16 1 := cmpf .olt main_v9 main_v10
  let main_c_3 : IVec S_ 1 := constantI S_ 1 1#1
  let main_v12 : IVec S_ 1 := (fun x v => Host.reduce IntOp.andi x v reducesTo_S192x16_S_d0_1 h_S_) main_v11 main_c_3
  let main_v13 : IVec S_ 1 := andi main_v8 main_v12
  let main_v14 : FVec F S16 .f32 := Host.absf main_arg5
  let main_cst_4 : FVec F S_ .f32 := constant S_ .f32 0x7F800000#32
  let main_v15 : FVec F S16 .f32 := broadcastInDim S16 ![] bcast_S_S16 main_cst_4
  let main_v16 : IVec S16 1 := cmpf .olt main_v14 main_v15
  fn_part1 (F := F) main_arg6 main_arg7 main_arg8 main_arg9 main_arg10 main_arg11 main_arg12 main_arg13 main_arg14 main_arg15 main_v13 main_v16
-- ==== Kernel.lean ====
abbrev S100000x64 : Shape := ⟨2, ![100000, 64]⟩
abbrev S1000000x64 : Shape := ⟨2, ![1000000, 64]⟩
abbrev S1000000 : Shape := ⟨1, ![1000000]⟩
abbrev S192x16 : Shape := ⟨2, ![192, 16]⟩
abbrev S16 : Shape := ⟨1, ![16]⟩
abbrev S16x16 : Shape := ⟨2, ![16, 16]⟩
abbrev S16x64 : Shape := ⟨2, ![16, 64]⟩
abbrev S64 : Shape := ⟨1, ![64]⟩
abbrev S128x16 : Shape := ⟨2, ![128, 16]⟩
abbrev S_ : Shape := ⟨0, ![]⟩
abbrev S1000000x1 : Shape := ⟨2, ![1000000, 1]⟩
abbrev S64x16 : Shape := ⟨2, ![64, 16]⟩
abbrev S1x16 : Shape := ⟨2, ![1, 16]⟩
abbrev S1x64 : Shape := ⟨2, ![1, 64]⟩
abbrev S8000x64 : Shape := ⟨2, ![8000, 64]⟩
abbrev S8000x16 : Shape := ⟨2, ![8000, 16]⟩
abbrev S100000x1 : Shape := ⟨2, ![100000, 1]⟩
abbrev S10000x64 : Shape := ⟨2, ![10000, 64]⟩
abbrev S10000x16 : Shape := ⟨2, ![10000, 16]⟩

abbrev nBuf : Space → Nat
  | .hbm => 62
  | .vmem => 29
  | .smem => 0
  | _ => 0

abbrev bufTy : (tb : Table) → Fin (tcTables nBuf tb) → BufTy
  | .hbm, ⟨0, _⟩ => ⟨S100000x64, .f32⟩
  | .hbm, ⟨1, _⟩ => ⟨S1000000x64, .f32⟩
  | .hbm, ⟨2, _⟩ => ⟨S1000000, .i32⟩
  | .hbm, ⟨3, _⟩ => ⟨S1000000, .i32⟩
  | .hbm, ⟨4, _⟩ => ⟨S192x16, .f32⟩
  | .hbm, ⟨5, _⟩ => ⟨S16, .f32⟩
  | .hbm, ⟨6, _⟩ => ⟨S16x16, .f32⟩
  | .hbm, ⟨7, _⟩ => ⟨S16, .f32⟩
  | .hbm, ⟨8, _⟩ => ⟨S16x64, .f32⟩
  | .hbm, ⟨9, _⟩ => ⟨S64, .f32⟩
  | .hbm, ⟨10, _⟩ => ⟨S128x16, .f32⟩
  | .hbm, ⟨11, _⟩ => ⟨S16, .f32⟩
  | .hbm, ⟨12, _⟩ => ⟨S16x16, .f32⟩
  | .hbm, ⟨13, _⟩ => ⟨S16, .f32⟩
  | .hbm, ⟨14, _⟩ => ⟨S16x64, .f32⟩
  | .hbm, ⟨15, _⟩ => ⟨S64, .f32⟩
  | .hbm, ⟨16, _⟩ => ⟨S_, .i32⟩
  | .hbm, ⟨17, _⟩ => ⟨S1000000, .i32⟩
  | .hbm, ⟨18, _⟩ => ⟨S1000000, .i1⟩
  | .hbm, ⟨19, _⟩ => ⟨S_, .i32⟩
  | .hbm, ⟨20, _⟩ => ⟨S1000000, .i32⟩
  | .hbm, ⟨21, _⟩ => ⟨S1000000, .i32⟩
  | .hbm, ⟨22, _⟩ => ⟨S1000000, .i32⟩
  | .hbm, ⟨23, _⟩ => ⟨S1000000x1, .i32⟩
  | .hbm, ⟨24, _⟩ => ⟨S1000000x64, .f32⟩
  | .hbm, ⟨25, _⟩ => ⟨S_, .i32⟩
  | .hbm, ⟨26, _⟩ => ⟨S1000000, .i32⟩
  | .hbm, ⟨27, _⟩ => ⟨S1000000, .i1⟩
  | .hbm, ⟨28, _⟩ => ⟨S_, .i32⟩
  | .hbm, ⟨29, _⟩ => ⟨S1000000, .i32⟩
  | .hbm, ⟨30, _⟩ => ⟨S1000000, .i32⟩
  | .hbm, ⟨31, _⟩ => ⟨S1000000, .i32⟩
  | .hbm, ⟨32, _⟩ => ⟨S1000000x1, .i32⟩
  | .hbm, ⟨33, _⟩ => ⟨S1000000x64, .f32⟩
  | .hbm, ⟨34, _⟩ => ⟨S64x16, .f32⟩
  | .hbm, ⟨35, _⟩ => ⟨S64x16, .f32⟩
  | .hbm, ⟨36, _⟩ => ⟨S64x16, .f32⟩
  | .hbm, ⟨37, _⟩ => ⟨S1x16, .f32⟩
  | .hbm, ⟨38, _⟩ => ⟨S1x16, .f32⟩
  | .hbm, ⟨39, _⟩ => ⟨S1x64, .f32⟩
  | .hbm, ⟨40, _⟩ => ⟨S1000000x64, .f32⟩
  | .hbm, ⟨41, _⟩ => ⟨S_, .f32⟩
  | .hbm, ⟨42, _⟩ => ⟨S100000x64, .f32⟩
  | .hbm, ⟨43, _⟩ => ⟨S1000000x1, .i32⟩
  | .hbm, ⟨44, _⟩ => ⟨S100000x64, .f32⟩
  | .hbm, ⟨45, _⟩ => ⟨S_, .f32⟩
  | .hbm, ⟨46, _⟩ => ⟨S1000000x1, .f32⟩
  | .hbm, ⟨47, _⟩ => ⟨S_, .f32⟩
  | .hbm, ⟨48, _⟩ => ⟨S100000x1, .f32⟩
  | .hbm, ⟨49, _⟩ => ⟨S1000000x1, .i32⟩
  | .hbm, ⟨50, _⟩ => ⟨S100000x1, .f32⟩
  | .hbm, ⟨51, _⟩ => ⟨S_, .f32⟩
  | .hbm, ⟨52, _⟩ => ⟨S100000x1, .f32⟩
  | .hbm, ⟨53, _⟩ => ⟨S100000x1, .f32⟩
  | .hbm, ⟨54, _⟩ => ⟨S100000x64, .f32⟩
  | .hbm, ⟨55, _⟩ => ⟨S100000x64, .f32⟩
  | .hbm, ⟨56, _⟩ => ⟨S64x16, .f32⟩
  | .hbm, ⟨57, _⟩ => ⟨S64x16, .f32⟩
  | .hbm, ⟨58, _⟩ => ⟨S1x16, .f32⟩
  | .hbm, ⟨59, _⟩ => ⟨S1x16, .f32⟩
  | .hbm, ⟨60, _⟩ => ⟨S1x64, .f32⟩
  | .hbm, ⟨61, _⟩ => ⟨S100000x64, .f32⟩
  | .local _ .vmem, ⟨0, _⟩ => ⟨S8000x64, .f32⟩
  | .local _ .vmem, ⟨1, _⟩ => ⟨S8000x64, .f32⟩
  | .local _ .vmem, ⟨2, _⟩ => ⟨S8000x64, .f32⟩
  | .local _ .vmem, ⟨3, _⟩ => ⟨S8000x64, .f32⟩
  | .local _ .vmem, ⟨4, _⟩ => ⟨S8000x64, .f32⟩
  | .local _ .vmem, ⟨5, _⟩ => ⟨S8000x64, .f32⟩
  | .local _ .vmem, ⟨6, _⟩ => ⟨S64x16, .f32⟩
  | .local _ .vmem, ⟨7, _⟩ => ⟨S64x16, .f32⟩
  | .local _ .vmem, ⟨8, _⟩ => ⟨S64x16, .f32⟩
  | .local _ .vmem, ⟨9, _⟩ => ⟨S1x16, .f32⟩
  | .local _ .vmem, ⟨10, _⟩ => ⟨S16x16, .f32⟩
  | .local _ .vmem, ⟨11, _⟩ => ⟨S1x16, .f32⟩
  | .local _ .vmem, ⟨12, _⟩ => ⟨S16x64, .f32⟩
  | .local _ .vmem, ⟨13, _⟩ => ⟨S1x64, .f32⟩
  | .local _ .vmem, ⟨14, _⟩ => ⟨S8000x64, .f32⟩
  | .local _ .vmem, ⟨15, _⟩ => ⟨S8000x64, .f32⟩
  | .local _ .vmem, ⟨16, _⟩ => ⟨S10000x64, .f32⟩
  | .local _ .vmem, ⟨17, _⟩ => ⟨S10000x64, .f32⟩
  | .local _ .vmem, ⟨18, _⟩ => ⟨S10000x64, .f32⟩
  | .local _ .vmem, ⟨19, _⟩ => ⟨S10000x64, .f32⟩
  | .local _ .vmem, ⟨20, _⟩ => ⟨S64x16, .f32⟩
  | .local _ .vmem, ⟨21, _⟩ => ⟨S64x16, .f32⟩
  | .local _ .vmem, ⟨22, _⟩ => ⟨S1x16, .f32⟩
  | .local _ .vmem, ⟨23, _⟩ => ⟨S16x16, .f32⟩
  | .local _ .vmem, ⟨24, _⟩ => ⟨S1x16, .f32⟩
  | .local _ .vmem, ⟨25, _⟩ => ⟨S16x64, .f32⟩
  | .local _ .vmem, ⟨26, _⟩ => ⟨S1x64, .f32⟩
  | .local _ .vmem, ⟨27, _⟩ => ⟨S10000x64, .f32⟩
  | .local _ .vmem, ⟨28, _⟩ => ⟨S10000x64, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  ofTc nBuf bufTy 0 29 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_c : Ref sig .tc := ⟨.hbm, 16, rfl⟩
abbrev main_v0 : Ref sig .tc := ⟨.hbm, 17, rfl⟩
abbrev main_v1 : Ref sig .tc := ⟨.hbm, 18, rfl⟩
abbrev main_c_0 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_c_1 : Ref sig .tc := ⟨.hbm, 25, rfl⟩
abbrev main_v7 : Ref sig .tc := ⟨.hbm, 26, rfl⟩
abbrev main_v8 : Ref sig .tc := ⟨.hbm, 27, rfl⟩
abbrev main_c_2 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_cst : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_cst_3 : Ref sig .tc := ⟨.hbm, 45, rfl⟩
abbrev main_v24 : Ref sig .tc := ⟨.hbm, 46, rfl⟩
abbrev main_cst_4 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_cst_5 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg11_1 : Ref sig .tc := ⟨.vmem, 15, rfl⟩
abbrev cc1_stg0_0 : Ref sig .tc := ⟨.vmem, 16, rfl⟩
abbrev cc1_stg0_1 : Ref sig .tc := ⟨.vmem, 17, rfl⟩
abbrev cc1_stg1_0 : Ref sig .tc := ⟨.vmem, 18, rfl⟩
abbrev cc1_stg1_1 : Ref sig .tc := ⟨.vmem, 19, rfl⟩
abbrev cc1_stg2_0 : Ref sig .tc := ⟨.vmem, 20, rfl⟩
abbrev cc1_stg3_0 : Ref sig .tc := ⟨.vmem, 21, rfl⟩
abbrev cc1_stg4_0 : Ref sig .tc := ⟨.vmem, 22, rfl⟩
abbrev cc1_stg5_0 : Ref sig .tc := ⟨.vmem, 23, rfl⟩
abbrev cc1_stg6_0 : Ref sig .tc := ⟨.vmem, 24, rfl⟩
abbrev cc1_stg7_0 : Ref sig .tc := ⟨.vmem, 25, rfl⟩
abbrev cc1_stg8_0 : Ref sig .tc := ⟨.vmem, 26, rfl⟩
abbrev cc1_stg9_0 : Ref sig .tc := ⟨.vmem, 27, rfl⟩
abbrev cc1_stg9_1 : Ref sig .tc := ⟨.vmem, 28, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem11_1 : DmaSem sig := 15
abbrev cc1_sem0_0 : DmaSem sig := 16
abbrev cc1_sem0_1 : DmaSem sig := 17
abbrev cc1_sem1_0 : DmaSem sig := 18
abbrev cc1_sem1_1 : DmaSem sig := 19
abbrev cc1_sem2_0 : DmaSem sig := 20
abbrev cc1_sem3_0 : DmaSem sig := 21
abbrev cc1_sem4_0 : DmaSem sig := 22
abbrev cc1_sem5_0 : DmaSem sig := 23
abbrev cc1_sem6_0 : DmaSem sig := 24
abbrev cc1_sem7_0 : DmaSem sig := 25
abbrev cc1_sem8_0 : DmaSem sig := 26
abbrev cc1_sem9_0 : DmaSem sig := 27
abbrev cc1_sem9_1 : DmaSem sig := 28

abbrev nD : Nat := 1
abbrev τ : Topo := Topo.v7x

variable {F : FTy → Type} [FloatOps F]

abbrev grid0 : Pipeline.Grid := ⟨1, ![125], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S64x16 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x16 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S64x16 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x16 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S16x16 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x16 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S16x64 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x64 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S8000x64 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S10000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S64x16 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S64x16 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x16 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S16x16 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x16 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S16x64 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S1x64 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 2 → Memref sig .tc .vmem S10000x64 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]

class Facts₀ : Prop where
  bcast_S_S1000000 : S_.BroadcastsInDim S1000000 (![] : Fin 0 → Fin S1000000.rank)
  bcast_S1000000_S1000000x1_0 : S1000000.BroadcastsInDim S1000000x1 (![0] : Fin 1 → Fin S1000000x1.rank)
  slices_S192x16_S64x16_0_0 : S192x16.Slices ![0, 0] S64x16
  slices_S192x16_S64x16_64_0 : S192x16.Slices ![64, 0] S64x16
  slices_S192x16_S64x16_128_0 : S192x16.Slices ![128, 0] S64x16
  shapeCasts_S16_S1x16 : S16.ShapeCasts S1x16
  shapeCasts_S64_S1x64 : S64.ShapeCasts S1x64
  inb_S8000x64_S8000x64_0_0 : ∀ a, (![0, 0] : Fin 2 → Nat) a + S8000x64.size a ≤ S8000x64.size a
  h_S8000x64 : 0 < S8000x64.numel
  bitsLt_bf16_f32 : FTy.bits .bf16 < FTy.bits .f32
  shapeCasts_S8000x64_S8000x64 : S8000x64.ShapeCasts S8000x64
  inb_S64x16_S64x16_0_0 : ∀ a, (![0, 0] : Fin 2 → Nat) a + S64x16.size a ≤ S64x16.size a
  h_S64x16 : 0 < S64x16.numel
  shapeCasts_S64x16_S64x16 : S64x16.ShapeCasts S64x16
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S8000x16 : S1x16.Broadcasts S8000x16
  inb_S16x16_S16x16_0_0 : ∀ a, (![0, 0] : Fin 2 → Nat) a + S16x16.size a ≤ S16x16.size a
  h_S16x16 : 0 < S16x16.numel
  inb_S16x64_S16x64_0_0 : ∀ a, (![0, 0] : Fin 2 → Nat) a + S16x64.size a ≤ S16x64.size a
  h_S16x64 : 0 < S16x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S8000x64 : S1x64.Broadcasts S8000x64
  bcast_S_S100000x64 : S_.BroadcastsInDim S100000x64 (![] : Fin 0 → Fin S100000x64.rank)
  bcast_S_S1000000x1 : S_.BroadcastsInDim S1000000x1 (![] : Fin 0 → Fin S1000000x1.rank)
  bcast_S_S100000x1 : S_.BroadcastsInDim S100000x1 (![] : Fin 0 → Fin S100000x1.rank)
  bcast_S100000x1_S100000x64_0_1 : S100000x1.BroadcastsInDim S100000x64 (![0, 1] : Fin 2 → Fin S100000x64.rank)
  slices_S128x16_S64x16_0_0 : S128x16.Slices ![0, 0] S64x16
  slices_S128x16_S64x16_64_0 : S128x16.Slices ![64, 0] S64x16
  inb_S10000x64_S10000x64_0_0 : ∀ a, (![0, 0] : Fin 2 → Nat) a + S10000x64.size a ≤ S10000x64.size a
  h_S10000x64 : 0 < S10000x64.numel
  shapeCasts_S10000x64_S10000x64 : S10000x64.ShapeCasts S10000x64
  broadcasts_S1x16_S10000x16 : S1x16.Broadcasts S10000x16
  broadcasts_S1x64_S10000x64 : S1x64.Broadcasts S10000x64
  gather_S100000x64_S1000000x1_S1000000x64_1_0_n_n_0_1_164_wf : GatherDims.WF S100000x64 S1000000x1 S1000000x64 [1] [0] [] [0] [] 1 ![1, 64]
  dot_S8000x64_S64x16_S8000x16_1_0_0_1_n_n_wf : DotDims.WF S8000x64 S64x16 S8000x16 [1] [0] [0] [1] [] []
  dot_S8000x16_S16x16_S8000x16_1_0_0_1_n_n_wf : DotDims.WF S8000x16 S16x16 S8000x16 [1] [0] [0] [1] [] []
  dot_S8000x16_S16x64_S8000x64_1_0_0_1_n_n_wf : DotDims.WF S8000x16 S16x64 S8000x64 [1] [0] [0] [1] [] []
  scatter_S100000x64_S1000000x1_S1000000x64_1_0_0_1_wf : ScatterDims.WF S100000x64 S1000000x1 S1000000x64 [1] [0] [0] 1
  scatter_S100000x1_S1000000x1_S1000000x1_1_0_0_1_wf : ScatterDims.WF S100000x1 S1000000x1 S1000000x1 [1] [0] [0] 1
  dot_S10000x64_S64x16_S10000x16_1_0_0_1_n_n_wf : DotDims.WF S10000x64 S64x16 S10000x16 [1] [0] [0] [1] [] []
  dot_S10000x16_S16x16_S10000x16_1_0_0_1_n_n_wf : DotDims.WF S10000x16 S16x16 S10000x16 [1] [0] [0] [1] [] []
  dot_S10000x16_S16x64_S10000x64_1_0_0_1_n_n_wf : DotDims.WF S10000x16 S16x64 S10000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8000x64.size a ≤ S1000000x64.size a
  hwx0_0 : ∀ i : grid0.Coords, EltTy.bits .f32 = 32 ∨ (Rect.block (s := S1000000x64) S8000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8000x64.size a ≤ S1000000x64.size a
  hwx0_1 : ∀ i : grid0.Coords, EltTy.bits .f32 = 32 ∨ (Rect.block (s := S1000000x64) S8000x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8000x64.size a ≤ S1000000x64.size a
  hwx0_2 : ∀ i : grid0.Coords, EltTy.bits .f32 = 32 ∨ (Rect.block (s := S1000000x64) S8000x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x16.size a ≤ S64x16.size a
  hwx0_3 : ∀ i : grid0.Coords, EltTy.bits .f32 = 32 ∨ (Rect.block (s := S64x16) S64x16.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x16.size a ≤ S64x16.size a
  hwx0_4 : ∀ i : grid0.Coords, EltTy.bits .f32 = 32 ∨ (Rect.block (s := S64x16) S64x16.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S64x16.size a ≤ S64x16.size a
  hwx0_5 : ∀ i : grid0.Coords, EltTy.bits .f32 = 32 ∨ (Rect.block (s := S64x16) S64x16.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x16.size a ≤ S1x16.size a
  hwx0_6 : ∀ i : grid0.Coords, EltTy.bits .f32 = 32 ∨ (Rect.block (s := S1x16) S1x16.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S16x16.size a ≤ S16x16.size a
  hwx0_7 : ∀ i : grid0.Coords, EltTy.bits .f32 = 32 ∨ (Rect.block (s := S16x16) S16x16.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x16.size a ≤ S1x16.size a
  hwx0_8 : ∀ i : grid0.Coords, EltTy.bits .f32 = 32 ∨ (Rect.block (s := S1x16) S1x16.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S16x64.size a ≤ S16x64.size a
  hwx0_9 : ∀ i : grid0.Coords, EltTy.bits .f32 = 32 ∨ (Rect.block (s := S16x64) S16x64.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1x64.size a ≤ S1x64.size a
  hwx0_10 : ∀ i : grid0.Coords, EltTy.bits .f32 = 32 ∨ (Rect.block (s := S1x64) S1x64.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S8000x64.size a ≤ S1000000x64.size a
  hwx0_11 : ∀ i : grid0.Coords, EltTy.bits .f32 = 32 ∨ (Rect.block (s := S1000000x64) S8000x64.size (cc0_transform_11 i) (hinb0_11 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x64.size a ≤ S100000x64.size a
  hwx1_0 : ∀ i : grid1.Coords, EltTy.bits .f32 = 32 ∨ (Rect.block (s := S100000x64) S10000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S10000x64.size a ≤ S100000x64.size a
  hwx1_1 : ∀ i : grid1.Coords, EltTy.bits .f32 = 32 ∨ (Rect.block (s := S100000x64) S10000x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x16.size a ≤ S64x16.size a
  hwx1_2 : ∀ i : grid1.Coords, EltTy.bits .f32 = 32 ∨ (Rect.block (s := S64x16) S64x16.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64x16.size a ≤ S64x16.size a
  hwx1_3 : ∀ i : grid1.Coords, EltTy.bits .f32 = 32 ∨ (Rect.block (s := S64x16) S64x16.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x16.size a ≤ S1x16.size a
  hwx1_4 : ∀ i : grid1.Coords, EltTy.bits .f32 = 32 ∨ (Rect.block (s := S1x16) S1x16.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S16x16.size a ≤ S16x16.size a
  hwx1_5 : ∀ i : grid1.Coords, EltTy.bits .f32 = 32 ∨ (Rect.block (s := S16x16) S16x16.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x16.size a ≤ S1x16.size a
  hwx1_6 : ∀ i : grid1.Coords, EltTy.bits .f32 = 32 ∨ (Rect.block (s := S1x16) S1x16.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S16x64.size a ≤ S16x64.size a
  hwx1_7 : ∀ i : grid1.Coords, EltTy.bits .f32 = 32 ∨ (Rect.block (s := S16x64) S16x64.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S1x64.size a ≤ S1x64.size a
  hwx1_8 : ∀ i : grid1.Coords, EltTy.bits .f32 = 32 ∨ (Rect.block (s := S1x64) S1x64.size (cc1_transform_8 i) (hinb1_8 i)).WholeWords (EltTy.packing .f32)
  hstage1_9 : ∀ j, (stage1_9 j).IsWhole
  nbuf1_9 : grid1.bufCount reads1_9 false = 2
  hreads1_9 : ∀ i i' : grid1.Coords, (∀ a, reads1_9 a = true → i a = i' a) → cc1_transform_9 i = cc1_transform_9 i'
  hinb1_9 : ∀ (i : grid1.Coords) a, (cc1_transform_9 i a + 1) * S10000x64.size a ≤ S100000x64.size a
  hwx1_9 : ∀ i : grid1.Coords, EltTy.bits .f32 = 32 ∨ (Rect.block (s := S100000x64) S10000x64.size (cc1_transform_9 i) (hinb1_9 i)).WholeWords (EltTy.packing .f32)

variable [Facts₀]

def gather_S100000x64_S1000000x1_S1000000x64_1_0_n_n_0_1_164 : GatherDims S100000x64 S1000000x1 S1000000x64 where
  offsetDims := [1]
  collapsedSliceDims := [0]
  operandBatchingDims := []
  startIndicesBatchingDims := []
  startIndexMap := [0]
  indexVectorDim := 1
  sliceSizes := ![1, 64]
  wf := gather_S100000x64_S1000000x1_S1000000x64_1_0_n_n_0_1_164_wf
def dot_S8000x64_S64x16_S8000x16_1_0_0_1_n_n : DotDims S8000x64 S64x16 S8000x16 where
  lhsContracting := [1]
  rhsContracting := [0]
  lhsNonContracting := [0]
  rhsNonContracting := [1]
  lhsBatch := []
  rhsBatch := []
  wf := dot_S8000x64_S64x16_S8000x16_1_0_0_1_n_n_wf
def dot_S8000x16_S16x16_S8000x16_1_0_0_1_n_n : DotDims S8000x16 S16x16 S8000x16 where
  lhsContracting := [1]
  rhsContracting := [0]
  lhsNonContracting := [0]
  rhsNonContracting := [1]
  lhsBatch := []
  rhsBatch := []
  wf := dot_S8000x16_S16x16_S8000x16_1_0_0_1_n_n_wf
def dot_S8000x16_S16x64_S8000x64_1_0_0_1_n_n : DotDims S8000x16 S16x64 S8000x64 where
  lhsContracting := [1]
  rhsContracting := [0]
  lhsNonContracting := [0]
  rhsNonContracting := [1]
  lhsBatch := []
  rhsBatch := []
  wf := dot_S8000x16_S16x64_S8000x64_1_0_0_1_n_n_wf
def scatter_S100000x64_S1000000x1_S1000000x64_1_0_0_1 : ScatterDims S100000x64 S1000000x1 S1000000x64 where
  updateWindowDims := [1]
  insertedWindowDims := [0]
  scatterDimsToOperandDims := [0]
  indexVectorDim := 1
  wf := scatter_S100000x64_S1000000x1_S1000000x64_1_0_0_1_wf
def scatter_S100000x1_S1000000x1_S1000000x1_1_0_0_1 : ScatterDims S100000x1 S1000000x1 S1000000x1 where
  updateWindowDims := [1]
  insertedWindowDims := [0]
  scatterDimsToOperandDims := [0]
  indexVectorDim := 1
  wf := scatter_S100000x1_S1000000x1_S1000000x1_1_0_0_1_wf
def dot_S10000x64_S64x16_S10000x16_1_0_0_1_n_n : DotDims S10000x64 S64x16 S10000x16 where
  lhsContracting := [1]
  rhsContracting := [0]
  lhsNonContracting := [0]
  rhsNonContracting := [1]
  lhsBatch := []
  rhsBatch := []
  wf := dot_S10000x64_S64x16_S10000x16_1_0_0_1_n_n_wf
def dot_S10000x16_S16x16_S10000x16_1_0_0_1_n_n : DotDims S10000x16 S16x16 S10000x16 where
  lhsContracting := [1]
  rhsContracting := [0]
  lhsNonContracting := [0]
  rhsNonContracting := [1]
  lhsBatch := []
  rhsBatch := []
  wf := dot_S10000x16_S16x16_S10000x16_1_0_0_1_n_n_wf
def dot_S10000x16_S16x64_S10000x64_1_0_0_1_n_n : DotDims S10000x16 S16x64 S10000x64 where
  lhsContracting := [1]
  rhsContracting := [0]
  lhsNonContracting := [0]
  rhsNonContracting := [1]
  lhsBatch := []
  rhsBatch := []
  wf := dot_S10000x16_S16x64_S10000x64_1_0_0_1_n_n_wf

abbrev win0_0 : Pipeline.Window sig grid0 :=
  Pipeline.Window.ofSpec (Memref.whole main_arg1) S8000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v6) S8000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v13) S8000x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v14) S64x16.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v15) S64x16.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v16) S64x16.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v17) S1x16.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg6) S16x16.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v18) S1x16.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg8) S16x64.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v19) S1x64.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v20) S8000x64.size cc0_transform_11 reads0_11 true false 2 stage0_11 sem0_11
    hrank0 hreads0_11 hinb0_11 nbuf0_11 (Memref.isWhole_whole _) hwx0_11 hstage0_11

abbrev win0 : Fin 12 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | ⟨_ + 12, h⟩ => absurd h (Nat.not_lt.2 (Nat.le_add_left _ _))
abbrev spec0 : Fin 12 → Pipeline.WinSpec sig grid0.rank := fun w => (win0 w).toWinSpec

abbrev win1_0 : Pipeline.Window sig grid1 :=
  Pipeline.Window.ofSpec (Memref.whole main_arg0) S10000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v31) S10000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v32) S64x16.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v33) S64x16.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v34) S1x16.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg12) S16x16.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v35) S1x16.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_arg14) S16x64.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v36) S1x64.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_v37) S10000x64.size cc1_transform_9 reads1_9 true false 2 stage1_9 sem1_9
    hrank1 hreads1_9 hinb1_9 nbuf1_9 (Memref.isWhole_whole _) hwx1_9 hstage1_9

abbrev win1 : Fin 10 → Pipeline.Window sig grid1 := fun | 0 => win1_0 | 1 => win1_1 | 2 => win1_2 | 3 => win1_3 | 4 => win1_4 | 5 => win1_5 | 6 => win1_6 | 7 => win1_7 | 8 => win1_8 | 9 => win1_9 | ⟨_ + 10, h⟩ => absurd h (Nat.not_lt.2 (Nat.le_add_left _ _))
abbrev spec1 : Fin 10 → Pipeline.WinSpec sig grid1.rank := fun w => (win1 w).toWinSpec

class Facts : Prop extends Facts₀ where

variable [Facts]
-- ==== ReferenceIdeal.lean ====
abbrev S100000x64 : Shape := ⟨2, ![100000, 64]⟩
abbrev S1000000x64 : Shape := ⟨2, ![1000000, 64]⟩
abbrev S1000000 : Shape := ⟨1, ![1000000]⟩
abbrev S192x16 : Shape := ⟨2, ![192, 16]⟩
abbrev S16 : Shape := ⟨1, ![16]⟩
abbrev S16x16 : Shape := ⟨2, ![16, 16]⟩
abbrev S16x64 : Shape := ⟨2, ![16, 64]⟩
abbrev S64 : Shape := ⟨1, ![64]⟩
abbrev S128x16 : Shape := ⟨2, ![128, 16]⟩
abbrev S_ : Shape := ⟨0, ![]⟩
abbrev S1000000x1 : Shape := ⟨2, ![1000000, 1]⟩
abbrev S1000000x192 : Shape := ⟨2, ![1000000, 192]⟩
abbrev S1000000x16 : Shape := ⟨2, ![1000000, 16]⟩
abbrev S1x16 : Shape := ⟨2, ![1, 16]⟩
abbrev S1x64 : Shape := ⟨2, ![1, 64]⟩
abbrev S100000x1 : Shape := ⟨2, ![100000, 1]⟩
abbrev S100000x128 : Shape := ⟨2, ![100000, 128]⟩
abbrev S100000x16 : Shape := ⟨2, ![100000, 16]⟩

abbrev nBuf : Space → Nat
  | .hbm => 103
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S1000000x64, .f32⟩
  | .hbm, ⟨2, _⟩ => ⟨S1000000, .i32⟩
  | .hbm, ⟨3, _⟩ => ⟨S1000000, .i32⟩
  | .hbm, ⟨4, _⟩ => ⟨S192x16, .f32⟩
  | .hbm, ⟨5, _⟩ => ⟨S16, .f32⟩
  | .hbm, ⟨6, _⟩ => ⟨S16x16, .f32⟩
  | .hbm, ⟨7, _⟩ => ⟨S16, .f32⟩
  | .hbm, ⟨8, _⟩ => ⟨S16x64, .f32⟩
  | .hbm, ⟨9, _⟩ => ⟨S64, .f32⟩
  | .hbm, ⟨10, _⟩ => ⟨S128x16, .f32⟩
  | .hbm, ⟨11, _⟩ => ⟨S16, .f32⟩
  | .hbm, ⟨12, _⟩ => ⟨S16x16, .f32⟩
  | .hbm, ⟨13, _⟩ => ⟨S16, .f32⟩
  | .hbm, ⟨14, _⟩ => ⟨S16x64, .f32⟩
  | .hbm, ⟨15, _⟩ => ⟨S64, .f32⟩
  | .hbm, ⟨16, _⟩ => ⟨S_, .i32⟩
  | .hbm, ⟨17, _⟩ => ⟨S1000000, .i32⟩
  | .hbm, ⟨18, _⟩ => ⟨S1000000, .i1⟩
  | .hbm, ⟨19, _⟩ => ⟨S_, .i32⟩
  | .hbm, ⟨20, _⟩ => ⟨S1000000, .i32⟩
  | .hbm, ⟨21, _⟩ => ⟨S1000000, .i32⟩
  | .hbm, ⟨22, _⟩ => ⟨S1000000, .i32⟩
  | .hbm, ⟨23, _⟩ => ⟨S1000000x1, .i32⟩
  | .hbm, ⟨24, _⟩ => ⟨S1000000x64, .f32⟩
  | .hbm, ⟨25, _⟩ => ⟨S_, .i32⟩
  | .hbm, ⟨26, _⟩ => ⟨S1000000, .i32⟩
  | .hbm, ⟨27, _⟩ => ⟨S1000000, .i1⟩
  | .hbm, ⟨28, _⟩ => ⟨S_, .i32⟩
  | .hbm, ⟨29, _⟩ => ⟨S1000000, .i32⟩
  | .hbm, ⟨30, _⟩ => ⟨S1000000, .i32⟩
  | .hbm, ⟨31, _⟩ => ⟨S1000000, .i32⟩
  | .hbm, ⟨32, _⟩ => ⟨S1000000x1, .i32⟩
  | .hbm, ⟨33, _⟩ => ⟨S1000000x64, .f32⟩
  | .hbm, ⟨34, _⟩ => ⟨S1000000x192, .f32⟩
  | .hbm, ⟨35, _⟩ => ⟨S1000000x16, .f32⟩
  | .hbm, ⟨36, _⟩ => ⟨S1x16, .f32⟩
  | .hbm, ⟨37, _⟩ => ⟨S1000000x16, .f32⟩
  | .hbm, ⟨38, _⟩ => ⟨S1000000x16, .f32⟩
  | .hbm, ⟨39, _⟩ => ⟨S_, .f32⟩
  | .hbm, ⟨40, _⟩ => ⟨S1000000x16, .f32⟩
  | .hbm, ⟨41, _⟩ => ⟨S1000000x16, .f32⟩
  | .hbm, ⟨42, _⟩ => ⟨S1000000x16, .f32⟩
  | .hbm, ⟨43, _⟩ => ⟨S1x16, .f32⟩
  | .hbm, ⟨44, _⟩ => ⟨S1000000x16, .f32⟩
  | .hbm, ⟨45, _⟩ => ⟨S1000000x16, .f32⟩
  | .hbm, ⟨46, _⟩ => ⟨S_, .f32⟩
  | .hbm, ⟨47, _⟩ => ⟨S1000000x16, .f32⟩
  | .hbm, ⟨48, _⟩ => ⟨S1000000x16, .f32⟩
  | .hbm, ⟨49, _⟩ => ⟨S1000000x64, .f32⟩
  | .hbm, ⟨50, _⟩ => ⟨S1x64, .f32⟩
  | .hbm, ⟨51, _⟩ => ⟨S1000000x64, .f32⟩
  | .hbm, ⟨52, _⟩ => ⟨S1000000x64, .f32⟩
  | .hbm, ⟨53, _⟩ => ⟨S1000000x64, .f32⟩
  | .hbm, ⟨54, _⟩ => ⟨S1000000x64, .f32⟩
  | .hbm, ⟨55, _⟩ => ⟨S_, .f32⟩
  | .hbm, ⟨56, _⟩ => ⟨S1000000x64, .f32⟩
  | .hbm, ⟨57, _⟩ => ⟨S1000000x64, .f32⟩
  | .hbm, ⟨58, _⟩ => ⟨S_, .f32⟩
  | .hbm, ⟨59, _⟩ => ⟨S1000000x64, .f32⟩
  | .hbm, ⟨60, _⟩ => ⟨S1000000x64, .f32⟩
  | .hbm, ⟨61, _⟩ => ⟨S_, .f32⟩
  | .hbm, ⟨62, _⟩ => ⟨S100000x64, .f32⟩
  | .hbm, ⟨63, _⟩ => ⟨S1000000x1, .i32⟩
  | .hbm, ⟨64, _⟩ => ⟨S100000x64, .f32⟩
  | .hbm, ⟨65, _⟩ => ⟨S_, .f32⟩
  | .hbm, ⟨66, _⟩ => ⟨S1000000x1, .f32⟩
  | .hbm, ⟨67, _⟩ => ⟨S_, .f32⟩
  | .hbm, ⟨68, _⟩ => ⟨S100000x1, .f32⟩
  | .hbm, ⟨69, _⟩ => ⟨S1000000x1, .i32⟩
  | .hbm, ⟨70, _⟩ => ⟨S100000x1, .f32⟩
  | .hbm, ⟨71, _⟩ => ⟨S_, .f32⟩
  | .hbm, ⟨72, _⟩ => ⟨S100000x1, .f32⟩
  | .hbm, ⟨73, _⟩ => ⟨S100000x1, .f32⟩
  | .hbm, ⟨74, _⟩ => ⟨S100000x64, .f32⟩
  | .hbm, ⟨75, _⟩ => ⟨S100000x64, .f32⟩
  | .hbm, ⟨76, _⟩ => ⟨S100000x128, .f32⟩
  | .hbm, ⟨77, _⟩ => ⟨S100000x16, .f32⟩
  | .hbm, ⟨78, _⟩ => ⟨S1x16, .f32⟩
  | .hbm, ⟨79, _⟩ => ⟨S100000x16, .f32⟩
  | .hbm, ⟨80, _⟩ => ⟨S100000x16, .f32⟩
  | .hbm, ⟨81, _⟩ => ⟨S_, .f32⟩
  | .hbm, ⟨82, _⟩ => ⟨S100000x16, .f32⟩
  | .hbm, ⟨83, _⟩ => ⟨S100000x16, .f32⟩
  | .hbm, ⟨84, _⟩ => ⟨S100000x16, .f32⟩
  | .hbm, ⟨85, _⟩ => ⟨S1x16, .f32⟩
  | .hbm, ⟨86, _⟩ => ⟨S100000x16, .f32⟩
  | .hbm, ⟨87, _⟩ => ⟨S100000x16, .f32⟩
  | .hbm, ⟨88, _⟩ => ⟨S_, .f32⟩
  | .hbm, ⟨89, _⟩ => ⟨S100000x16, .f32⟩
  | .hbm, ⟨90, _⟩ => ⟨S100000x16, .f32⟩
  | .hbm, ⟨91, _⟩ => ⟨S100000x64, .f32⟩
  | .hbm, ⟨92, _⟩ => ⟨S1x64, .f32⟩
  | .hbm, ⟨93, _⟩ => ⟨S100000x64, .f32⟩
  | .hbm, ⟨94, _⟩ => ⟨S100000x64, .f32⟩
  | .hbm, ⟨95, _⟩ => ⟨S100000x64, .f32⟩
  | .hbm, ⟨96, _⟩ => ⟨S100000x64, .f32⟩
  | .hbm, ⟨97, _⟩ => ⟨S_, .f32⟩
  | .hbm, ⟨98, _⟩ => ⟨S100000x64, .f32⟩
  | .hbm, ⟨99, _⟩ => ⟨S100000x64, .f32⟩
  | .hbm, ⟨100, _⟩ => ⟨S_, .f32⟩
  | .hbm, ⟨101, _⟩ => ⟨S100000x64, .f32⟩
  | .hbm, ⟨102, _⟩ => ⟨S100000x64, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_c : Ref sig .tc := ⟨.hbm, 16, rfl⟩
abbrev main_v0 : Ref sig .tc := ⟨.hbm, 17, rfl⟩
abbrev main_v1 : Ref sig .tc := ⟨.hbm, 18, rfl⟩
abbrev main_c_0 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_c_1 : Ref sig .tc := ⟨.hbm, 25, rfl⟩
abbrev main_v7 : Ref sig .tc := ⟨.hbm, 26, rfl⟩
abbrev main_v8 : Ref sig .tc := ⟨.hbm, 27, rfl⟩
abbrev main_c_2 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_call0_cst : Ref sig .tc := ⟨.hbm, 39, rfl⟩
abbrev main_call0_v0 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_call1_cst : Ref sig .tc := ⟨.hbm, 46, rfl⟩
abbrev main_call1_v0 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_cst : Ref sig .tc := ⟨.hbm, 55, rfl⟩
abbrev main_v31 : Ref sig .tc := ⟨.hbm, 56, rfl⟩
abbrev main_v32 : Ref sig .tc := ⟨.hbm, 57, rfl⟩
abbrev main_cst_3 : Ref sig .tc := ⟨.hbm, 58, rfl⟩
abbrev main_v33 : Ref sig .tc := ⟨.hbm, 59, rfl⟩
abbrev main_v34 : Ref sig .tc := ⟨.hbm, 60, rfl⟩
abbrev main_cst_4 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_cst_5 : Ref sig .tc := ⟨.hbm, 65, rfl⟩
abbrev main_v38 : Ref sig .tc := ⟨.hbm, 66, rfl⟩
abbrev main_cst_6 : Ref sig .tc := ⟨.hbm, 67, rfl⟩
abbrev main_v39 : Ref sig .tc := ⟨.hbm, 68, rfl⟩
abbrev main_v40 : Ref sig .tc := ⟨.hbm, 69, rfl⟩
abbrev main_v41 : Ref sig .tc := ⟨.hbm, 70, rfl⟩
abbrev main_cst_7 : Ref sig .tc := ⟨.hbm, 71, rfl⟩
abbrev main_v42 : Ref sig .tc := ⟨.hbm, 72, rfl⟩
abbrev main_v43 : Ref sig .tc := ⟨.hbm, 73, rfl⟩
abbrev main_v44 : Ref sig .tc := ⟨.hbm, 74, rfl⟩
abbrev main_v45 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_call2_cst : Ref sig .tc := ⟨.hbm, 81, rfl⟩
abbrev main_call2_v0 : Ref sig .tc := ⟨.hbm, 82, rfl⟩
abbrev main_v51 : Ref sig .tc := ⟨.hbm, 83, rfl⟩
abbrev main_v52 : Ref sig .tc := ⟨.hbm, 84, rfl⟩
abbrev main_v53 : Ref sig .tc := ⟨.hbm, 85, rfl⟩
abbrev main_v54 : Ref sig .tc := ⟨.hbm, 86, rfl⟩
abbrev main_v55 : Ref sig .tc := ⟨.hbm, 87, rfl⟩
abbrev main_call3_cst : Ref sig .tc := ⟨.hbm, 88, rfl⟩
abbrev main_call3_v0 : Ref sig .tc := ⟨.hbm, 89, rfl⟩
abbrev main_v56 : Ref sig .tc := ⟨.hbm, 90, rfl⟩
abbrev main_v57 : Ref sig .tc := ⟨.hbm, 91, rfl⟩
abbrev main_v58 : Ref sig .tc := ⟨.hbm, 92, rfl⟩
abbrev main_v59 : Ref sig .tc := ⟨.hbm, 93, rfl⟩
abbrev main_v60 : Ref sig .tc := ⟨.hbm, 94, rfl⟩
abbrev main_v61 : Ref sig .tc := ⟨.hbm, 95, rfl⟩
abbrev main_v62 : Ref sig .tc := ⟨.hbm, 96, rfl⟩
abbrev main_cst_8 : Ref sig .tc := ⟨.hbm, 97, rfl⟩
abbrev main_v63 : Ref sig .tc := ⟨.hbm, 98, rfl⟩
abbrev main_v64 : Ref sig .tc := ⟨.hbm, 99, rfl⟩
abbrev main_cst_9 : Ref sig .tc := ⟨.hbm, 100, rfl⟩
abbrev main_v65 : Ref sig .tc := ⟨.hbm, 101, rfl⟩
abbrev main_v66 : Ref sig .tc := ⟨.hbm, 102, rfl⟩

abbrev nD : Nat := 1
abbrev τ : Topo := Topo.v7x

variable {F : FTy → Type} [FloatOps F]

class Facts₀ : Prop where
  bcast_S_S1000000 : S_.BroadcastsInDim S1000000 (![] : Fin 0 → Fin S1000000.rank)
  bcast_S1000000_S1000000x1_0 : S1000000.BroadcastsInDim S1000000x1 (![0] : Fin 1 → Fin S1000000x1.rank)
  concatenates_S1000000x64_S1000000x64_S1000000x64_S1000000x192_d1 : Shape.Concatenates [S1000000x64, S1000000x64, S1000000x64] S1000000x192 1
  bcast_S16_S1x16_1 : S16.BroadcastsInDim S1x16 (![1] : Fin 1 → Fin S1x16.rank)
  bcast_S1x16_S1000000x16_0_1 : S1x16.BroadcastsInDim S1000000x16 (![0, 1] : Fin 2 → Fin S1000000x16.rank)
  bcast_S_S1000000x16 : S_.BroadcastsInDim S1000000x16 (![] : Fin 0 → Fin S1000000x16.rank)
  bcast_S64_S1x64_1 : S64.BroadcastsInDim S1x64 (![1] : Fin 1 → Fin S1x64.rank)
  bcast_S1x64_S1000000x64_0_1 : S1x64.BroadcastsInDim S1000000x64 (![0, 1] : Fin 2 → Fin S1000000x64.rank)
  bcast_S_S1000000x64 : S_.BroadcastsInDim S1000000x64 (![] : Fin 0 → Fin S1000000x64.rank)
  bcast_S_S100000x64 : S_.BroadcastsInDim S100000x64 (![] : Fin 0 → Fin S100000x64.rank)
  bcast_S_S1000000x1 : S_.BroadcastsInDim S1000000x1 (![] : Fin 0 → Fin S1000000x1.rank)
  bcast_S_S100000x1 : S_.BroadcastsInDim S100000x1 (![] : Fin 0 → Fin S100000x1.rank)
  bcast_S100000x1_S100000x64_0_1 : S100000x1.BroadcastsInDim S100000x64 (![0, 1] : Fin 2 → Fin S100000x64.rank)
  concatenates_S100000x64_S100000x64_S100000x128_d1 : Shape.Concatenates [S100000x64, S100000x64] S100000x128 1
  bcast_S1x16_S100000x16_0_1 : S1x16.BroadcastsInDim S100000x16 (![0, 1] : Fin 2 → Fin S100000x16.rank)
  bcast_S_S100000x16 : S_.BroadcastsInDim S100000x16 (![] : Fin 0 → Fin S100000x16.rank)
  bcast_S1x64_S100000x64_0_1 : S1x64.BroadcastsInDim S100000x64 (![0, 1] : Fin 2 → Fin S100000x64.rank)
  gather_S100000x64_S1000000x1_S1000000x64_1_0_n_n_0_1_164_wf : GatherDims.WF S100000x64 S1000000x1 S1000000x64 [1] [0] [] [0] [] 1 ![1, 64]
  dot_S1000000x192_S192x16_S1000000x16_1_0_0_1_n_n_wf : DotDims.WF S1000000x192 S192x16 S1000000x16 [1] [0] [0] [1] [] []
  dot_S1000000x16_S16x16_S1000000x16_1_0_0_1_n_n_wf : DotDims.WF S1000000x16 S16x16 S1000000x16 [1] [0] [0] [1] [] []
  dot_S1000000x16_S16x64_S1000000x64_1_0_0_1_n_n_wf : DotDims.WF S1000000x16 S16x64 S1000000x64 [1] [0] [0] [1] [] []
  scatter_S100000x64_S1000000x1_S1000000x64_1_0_0_1_wf : ScatterDims.WF S100000x64 S1000000x1 S1000000x64 [1] [0] [0] 1
  scatter_S100000x1_S1000000x1_S1000000x1_1_0_0_1_wf : ScatterDims.WF S100000x1 S1000000x1 S1000000x1 [1] [0] [0] 1
  dot_S100000x128_S128x16_S100000x16_1_0_0_1_n_n_wf : DotDims.WF S100000x128 S128x16 S100000x16 [1] [0] [0] [1] [] []
  dot_S100000x16_S16x16_S100000x16_1_0_0_1_n_n_wf : DotDims.WF S100000x16 S16x16 S100000x16 [1] [0] [0] [1] [] []
  dot_S100000x16_S16x64_S100000x64_1_0_0_1_n_n_wf : DotDims.WF S100000x16 S16x64 S100000x64 [1] [0] [0] [1] [] []

variable [Facts₀]

def gather_S100000x64_S1000000x1_S1000000x64_1_0_n_n_0_1_164 : GatherDims S100000x64 S1000000x1 S1000000x64 where
  offsetDims := [1]
  collapsedSliceDims := [0]
  operandBatchingDims := []
  startIndicesBatchingDims := []
  startIndexMap := [0]
  indexVectorDim := 1
  sliceSizes := ![1, 64]
  wf := gather_S100000x64_S1000000x1_S1000000x64_1_0_n_n_0_1_164_wf
def dot_S1000000x192_S192x16_S1000000x16_1_0_0_1_n_n : DotDims S1000000x192 S192x16 S1000000x16 where
  lhsContracting := [1]
  rhsContracting := [0]
  lhsNonContracting := [0]
  rhsNonContracting := [1]
  lhsBatch := []
  rhsBatch := []
  wf := dot_S1000000x192_S192x16_S1000000x16_1_0_0_1_n_n_wf
def dot_S1000000x16_S16x16_S1000000x16_1_0_0_1_n_n : DotDims S1000000x16 S16x16 S1000000x16 where
  lhsContracting := [1]
  rhsContracting := [0]
  lhsNonContracting := [0]
  rhsNonContracting := [1]
  lhsBatch := []
  rhsBatch := []
  wf := dot_S1000000x16_S16x16_S1000000x16_1_0_0_1_n_n_wf
def dot_S1000000x16_S16x64_S1000000x64_1_0_0_1_n_n : DotDims S1000000x16 S16x64 S1000000x64 where
  lhsContracting := [1]
  rhsContracting := [0]
  lhsNonContracting := [0]
  rhsNonContracting := [1]
  lhsBatch := []
  rhsBatch := []
  wf := dot_S1000000x16_S16x64_S1000000x64_1_0_0_1_n_n_wf
def scatter_S100000x64_S1000000x1_S1000000x64_1_0_0_1 : ScatterDims S100000x64 S1000000x1 S1000000x64 where
  updateWindowDims := [1]
  insertedWindowDims := [0]
  scatterDimsToOperandDims := [0]
  indexVectorDim := 1
  wf := scatter_S100000x64_S1000000x1_S1000000x64_1_0_0_1_wf
def scatter_S100000x1_S1000000x1_S1000000x1_1_0_0_1 : ScatterDims S100000x1 S1000000x1 S1000000x1 where
  updateWindowDims := [1]
  insertedWindowDims := [0]
  scatterDimsToOperandDims := [0]
  indexVectorDim := 1
  wf := scatter_S100000x1_S1000000x1_S1000000x1_1_0_0_1_wf
def dot_S100000x128_S128x16_S100000x16_1_0_0_1_n_n : DotDims S100000x128 S128x16 S100000x16 where
  lhsContracting := [1]
  rhsContracting := [0]
  lhsNonContracting := [0]
  rhsNonContracting := [1]
  lhsBatch := []
  rhsBatch := []
  wf := dot_S100000x128_S128x16_S100000x16_1_0_0_1_n_n_wf
def dot_S100000x16_S16x16_S100000x16_1_0_0_1_n_n : DotDims S100000x16 S16x16 S100000x16 where
  lhsContracting := [1]
  rhsContracting := [0]
  lhsNonContracting := [0]
  rhsNonContracting := [1]
  lhsBatch := []
  rhsBatch := []
  wf := dot_S100000x16_S16x16_S100000x16_1_0_0_1_n_n_wf
def dot_S100000x16_S16x64_S100000x64_1_0_0_1_n_n : DotDims S100000x16 S16x64 S100000x64 where
  lhsContracting := [1]
  rhsContracting := [0]
  lhsNonContracting := [0]
  rhsNonContracting := [1]
  lhsBatch := []
  rhsBatch := []
  wf := dot_S100000x16_S16x64_S100000x64_1_0_0_1_n_n_wf

class Facts : Prop extends Facts₀ where

variable [Facts]
-- ==== Proof.KernelRun.lean ====
/-
  The kernel program's run with its two results named.

  @main is four segments: host operations, the edge kernel's grid, host operations, the node kernel's grid. The run's
  launch theorem ends with every buffer of a core at the contents the fold through the four segments gives (`W4`).
  Read at the node kernel's output buffer that is what its grid's write-backs leave from the region's entry contents;
  read at the edge kernel's output buffer, which nothing after the first region writes, it is what the first grid's
  write-backs leave; read at an argument it is the launch contents.
-/
import proofs.«169925_j12309376270349_1_alg».proof.Proof.Gen.KernelIdeal.Frame

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The node kernel's output buffer ends at what its grid's write-backs leave. -/
theorem W4_node (c : Dev nD) : W4 m ρ c (Proc.devRef .tc main_v37) = (dat1 (V3 m ρ) c).arrAt 9 cfg1.N :=
  W4_arr m ρ c 9

/-- No operation after the first region writes the edge kernel's output buffer: it ends at what the first grid's
    write-backs leave. -/
theorem W4_edge (c : Dev nD) : W4 m ρ c (Proc.devRef .tc main_v20) = (dat0 (V1 m ρ) c).arrAt 11 cfg0.N :=
  calc W4 m ρ c (Proc.devRef .tc main_v20)
    _ = W3 m ρ c (Proc.devRef .tc main_v20) := W4_of_ne m ρ c main_v20 (by decide)
    _ = W2 m ρ c (Proc.devRef .tc main_v20) := StableHlo.after_of_forall_not_mem (b := Proc.devRef .tc main_v20) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = (dat0 (V1 m ρ) c).arrAt 11 cfg0.N := W2_arr m ρ c 11

set_option backward.isDefEq.respectTransparency.types false in
/-- Every weakly fair execution of @main terminates, nothing faulting, with the node stage's result at what the second
    grid leaves, the edge stage's result at what the first grid leaves, and the arguments as launched. -/
theorem run : θ_run defs (onTc (τ := τ) (main (F := F))) ⟨m, fun _ => 0, ρ⟩ (fun r => ∀ c : Dev nD,
      r.2.mem ((c.tc : Thread nD τ).loc main_v37) = (dat1 (V3 m ρ) c).arrAt 9 cfg1.N
      ∧ r.2.mem ((c.tc : Thread nD τ).loc main_v20) = (dat0 (V1 m ρ) c).arrAt 11 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨(h c _ (mem_uc main_v37 (by decide))).trans (W4_node m ρ c),
       (h c _ (mem_uc main_v20 (by decide))).trans (W4_edge m ρ c),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c),
       (h c _ (mem_uc main_arg8 (by decide))).trans (W4_main_arg8 m ρ c),
       (h c _ (mem_uc main_arg9 (by decide))).trans (W4_main_arg9 m ρ c),
       (h c _ (mem_uc main_arg10 (by decide))).trans (W4_main_arg10 m ρ c),
       (h c _ (mem_uc main_arg11 (by decide))).trans (W4_main_arg11 m ρ c),
       (h c _ (mem_uc main_arg12 (by decide))).trans (W4_main_arg12 m ρ c),
       (h c _ (mem_uc main_arg13 (by decide))).trans (W4_main_arg13 m ρ c),
       (h c _ (mem_uc main_arg14 (by decide))).trans (W4_main_arg14 m ρ c),
       (h c _ (mem_uc main_arg15 (by decide))).trans (W4_main_arg15 m ρ c)⟩)

end Cert.KernelIdeal.Run

end
-- ==== Proof.LibPlainDot.lean ====
/-
  A plain matrix product read at an entry.

  For the dimension numbers of an `M×K` by `K×N` product (contract the left operand's axis 1 with the right
  operand's axis 0, no batch axes), a `tpu.matmul` into the zero accumulator, read on the extended reals at the
  entry `(p, q)`, is `∑ k, lhs (p, k) · rhs (k, q)`; so is the host's `dot_general`. Any record with these six lists
  is `DotDims.plain M K N` (the well-formedness field is a proposition), so a printed record is rewritten to it by `rfl`.
-/
import Idealize.ShloMosaic.PureOps.Ideal.Laws
import Idealize.ShloMosaic.Lib.ValueIdx

noncomputable section

namespace Cert.PlainDot

open Idealize.ShloMosaic Idealize.ShloMosaic.ValueIdx
open scoped BigOperators

variable {M K N : Nat}

/-- The left operand's index at result entry `j` and contraction position `k` is `(j 0, k)`. -/
theorem lhsIdx_eq (j : (⟨2, ![M, N]⟩ : Shape).Idx) (k : Fin K) :
    (DotDims.plain M K N).lhsIdx j ((contrEquiv1 (DotDims.plain M K N) K rfl rfl).symm k) = ix2 (j 0) k := by
  have hk := contrEquiv1_symm_val (DotDims.plain M K N) K rfl rfl k
  funext a
  apply Fin.ext
  match a with
  | ⟨0, _⟩ =>
    show ((DotDims.plain M K N).lhsIdx j _ 0).val = (j 0).val
    unfold DotDims.lhsIdx
    rw [dif_neg (show ¬(0 : Fin 2) ∈ (DotDims.plain M K N).lhsBatch from List.not_mem_nil),
      dif_pos (show (0 : Fin 2) ∈ (DotDims.plain M K N).lhsNonContracting from List.mem_singleton.mpr rfl)]
    rfl
  | ⟨1, _⟩ => exact ((DotDims.plain M K N).lhsIdx_val_of_single rfl j _).trans hk

/-- The right operand's index at result entry `j` and contraction position `k` is `(k, j 1)`. -/
theorem rhsIdx_eq (j : (⟨2, ![M, N]⟩ : Shape).Idx) (k : Fin K) :
    (DotDims.plain M K N).rhsIdx j ((contrEquiv1 (DotDims.plain M K N) K rfl rfl).symm k) = ix2 k (j 1) := by
  have hk := contrEquiv1_symm_val (DotDims.plain M K N) K rfl rfl k
  funext a
  apply Fin.ext
  match a with
  | ⟨0, _⟩ => exact ((DotDims.plain M K N).rhsIdx_val_of_single rfl j _).trans hk
  | ⟨1, _⟩ =>
    show ((DotDims.plain M K N).rhsIdx j _ 1).val = (j 1).val
    unfold DotDims.rhsIdx
    rw [dif_neg (show ¬(1 : Fin 2) ∈ (DotDims.plain M K N).rhsBatch from List.not_mem_nil),
      dif_pos (show (1 : Fin 2) ∈ (DotDims.plain M K N).rhsNonContracting from List.mem_singleton.mpr rfl)]
    rfl

/-- The contraction sum of a plain product at `(p, q)` is the sum over `k` of `lhs (p, k) · rhs (k, q)`. -/
theorem contraction_eq (lhs : (⟨2, ![M, K]⟩ : Shape).Idx → EReal) (rhs : (⟨2, ![K, N]⟩ : Shape).Idx → EReal) (p : Fin M) (q : Fin N) :
    (∑ k : (DotDims.plain M K N).contr.Idx, lhs ((DotDims.plain M K N).lhsIdx (ix2 p q) k) * rhs ((DotDims.plain M K N).rhsIdx (ix2 p q) k))
      = ∑ k : Fin K, lhs (ix2 p k) * rhs (ix2 k q) := by
  rw [← Equiv.sum_comp (contrEquiv1 (DotDims.plain M K N) K rfl rfl).symm]
  refine Finset.sum_congr rfl fun k _ => ?_
  rw [lhsIdx_eq, rhsIdx_eq]
  rfl

/-- A `tpu.matmul` of plain dimension numbers into the zero accumulator, at `(p, q)`. -/
theorem matmul_zero_apply (prec : Option ContractPrecision) (lhs : FVec Ideal ⟨2, ![M, K]⟩ .f32) (rhs : FVec Ideal ⟨2, ![K, N]⟩ .f32)
    (p : Fin M) (q : Fin N) :
    FloatOps.matmul (DotDims.plain M K N) prec lhs rhs (constant ⟨2, ![M, N]⟩ .f32 0x00000000#32) (ix2 p q)
      = ∑ k : Fin K, lhs (ix2 p k) * rhs (ix2 k q) := by
  rw [Ideal.matmul_constant_zero_apply]
  exact contraction_eq lhs rhs p q

/-- The host's `dot_general` of plain dimension numbers, at `(p, q)`. -/
theorem dotGeneral_apply (prec : Option ContractPrecision) (sched : HostSchedule) (lhs : FVec Ideal ⟨2, ![M, K]⟩ .f32)
    (rhs : FVec Ideal ⟨2, ![K, N]⟩ .f32) (p : Fin M) (q : Fin N) :
    FloatOps.dotGeneral (DotDims.plain M K N) prec sched lhs rhs (ix2 p q) = ∑ k : Fin K, lhs (ix2 p k) * rhs (ix2 k q) := by
  rw [Ideal.dotGeneral_apply]
  exact contraction_eq lhs rhs p q

end Cert.PlainDot

end
-- ==== Proof.LibKeepdims.lean ====
/-
  Column vectors read at an index: what a keepdims row reduction needs.

  A row reduction that keeps its axis (a sum along the lanes of an [a, b] array, kept as an [a, 1] column and
  spread back over [a, b]) prints as three operations: the lane sum [a, b] → [a], a shape cast [a] → [a, 1] and
  a broadcast [a, 1] → [a, b]. Each is read here at an index written with explicit coordinates:
    • the sum, at p, is ∑_k of the source at (p, k);
    • the cast, at (p, 0), is the vector at p (row-major position p · 1 + 0 = p on both sides);
    • the broadcast, at (p, q), is the column at (p, 0).
  All three are stated for any extents a and b.
-/
import Idealize.ShloMosaic.Lib.Pipeline.Value
import Idealize.ShloMosaic.Lib.ValueIdx
import Idealize.ShloMosaic.PureOps.Ideal.Laws

namespace Keepdims

open Idealize.ShloMosaic Idealize.ShloMosaic.ValueIdx

variable {α : Type}

/-- A vector of length a viewed as an [a, 1] column reads, at (p, z), the vector at p: the column's second
    coordinate can only be 0, so both indices sit at row-major position p. -/
theorem shapeCast_a_a1_apply {a : ℕ} (v : (⟨1, ![a]⟩ : Shape).Idx → α)
    (h : (⟨1, ![a]⟩ : Shape).ShapeCasts ⟨2, ![a, 1]⟩) (p : Fin a) (z : Fin 1) :
    shapeCast ⟨2, ![a, 1]⟩ v h (ix2 p z) = v (ix1 p) := by
  refine shapeCast_apply v h (ix2 p z) (ix1 p) ?_
  rw [Shape.rowMajor_val_one, Shape.rowMajor_val_two]
  show p.val = p.val * 1 + z.val
  have := z.isLt; omega

/-- An [a, 1] column spread over [a, b] reads, at (p, q), the column at (p, 0): the row coordinate is kept
    (also when a = 1, where it can only be 0) and the unit axis is read at 0. -/
theorem broadcastTo_a1_ab_apply {a b : ℕ} (v : (⟨2, ![a, 1]⟩ : Shape).Idx → α)
    (h : (⟨2, ![a, 1]⟩ : Shape).Broadcasts ⟨2, ![a, b]⟩) (p : Fin a) (q : Fin b) :
    broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

/-- The index of an [a, b] array that lies over p of the reduced [a] with lane k put back is (p, k). -/
theorem lift_lane {a b : ℕ} (h : (⟨2, ![a, b]⟩ : Shape).Reduces [1] (⟨1, ![a]⟩ : Shape)) (p : Fin a)
    (k : Fin ((⟨2, ![a, b]⟩ : Shape).size 1)) : h.lift (ix1 p) k = ix2 p (⟨k.val, k.isLt⟩ : Fin b) := by
  funext c; apply Fin.ext
  fin_cases c <;> rfl

/-- On the extended reals the sum of an [a, b] array along its lanes is, at p, the sum over k of the entries
    (p, k): the reduction starts from the zero word, the neutral element of the sum, and there is no rounding
    for the order of the additions to matter. -/
theorem laneSum_apply {a b : ℕ} (src : FVec Ideal ⟨2, ![a, b]⟩ .f32)
    (h : (⟨2, ![a, b]⟩ : Shape).Reduces [1] (⟨1, ![a]⟩ : Shape)) (hφ : FKind.Formats .f32)
    (hacc : (0x00000000#32 : BitVec 32) = 0x00000000#32) (p : Fin a) :
    multiReduction (F := Ideal) .add [1] ⟨1, ![a]⟩ src 0x00000000#32 h hφ hacc (ix1 p) = ∑ k : Fin b, src (ix2 p k) := by
  refine (Ideal.multiReduction_add_single src 0x00000000#32 h hφ hacc (ix1 p)).trans ?_
  exact Finset.sum_congr rfl fun k _ => congrArg src (lift_lane h p k)

end Keepdims
-- ==== Proof.LibRowLayers.lean ====
/-
  Three row-wise layers on the extended reals, each in the form a kernel tile computes it and in the form the host
  computes it, for any extents.

  For an array x : [N, K], a matrix W : [K, C], an array s : [N, C] and a one-row array b : [1, C]:
    • `prod x W`            : entry (i, j) is ∑ k, x (i, k) · W (k, j);
    • `biasRelu s b`        : entry (i, j) is max (s (i, j) + b (0, j)) 0;
    • `biasNormalize ε s b` : with h (i, k) = s (i, k) + b (0, k), entry (i, j) is
                                h (i, j) / max (sqrt (∑ k, h (i, k) · h (i, k))) ε.
  Every entry of each depends on its own row of x (or s) only, so a block of rows of the layer is the layer of that
  block of rows: that is what lets a row-tiled kernel be compared with the host's whole-array program.
  A kernel tile forms the product by a matrix product of bf16-narrowed operands into a zero accumulator (a change
  of format is the identity here), the bias by a broadcast of the row down the tile, the sum of squares by a lane
  sum kept as a column; the host forms them by dot_general, by broadcast_in_dim and by reduce from a zero initial
  value. Each form is shown equal, as a whole array, to the function above. No entry is assumed finite.
-/
import Idealize.ShloMosaic.PureOps.Ideal.Laws
import Idealize.ShloMosaic.Lib.ValueIdx
import Idealize.ShloMosaic.Lib.ValueLayout
import Idealize.ShloMosaic.Lib.Pipeline.Value
import Idealize.ShloMosaic.Lib.KernelVsHost
import Idealize.ShloMosaic.Lib.IdealHost
import proofs.«169925_j12309376270349_1_alg».proof.Proof.LibPlainDot
import proofs.«169925_j12309376270349_1_alg».proof.Proof.LibKeepdims

noncomputable section

namespace RowLayers

open Idealize.ShloMosaic Idealize.ShloMosaic.ValueIdx
open scoped BigOperators

/-! ## The three layers as functions of whole arrays -/

/-- The matrix product x · W. -/
def prod {N K C : Nat} (x : (⟨2, ![N, K]⟩ : Shape).Idx → EReal) (w : (⟨2, ![K, C]⟩ : Shape).Idx → EReal) :
    (⟨2, ![N, C]⟩ : Shape).Idx → EReal :=
  fun i => ∑ k : Fin K, x (ix2 (i 0) k) * w (ix2 k (i 1))

/-- A one-row bias added to every row, clamped below at zero. -/
def biasRelu {N C : Nat} (s : (⟨2, ![N, C]⟩ : Shape).Idx → EReal) (b : (⟨2, ![1, C]⟩ : Shape).Idx → EReal) :
    (⟨2, ![N, C]⟩ : Shape).Idx → EReal :=
  fun i => max (s i + b (ix2 (0 : Fin 1) (i 1))) 0

/-- A one-row bias added to every row, each row then divided by the larger of its Euclidean norm and ε. -/
def biasNormalize {N C : Nat} (ε : EReal) (s : (⟨2, ![N, C]⟩ : Shape).Idx → EReal) (b : (⟨2, ![1, C]⟩ : Shape).Idx → EReal) :
    (⟨2, ![N, C]⟩ : Shape).Idx → EReal :=
  fun i => Ideal.div (s i + b (ix2 (0 : Fin 1) (i 1)))
    (max (Ideal.sqrt (∑ k : Fin C, (s (ix2 (i 0) k) + b (ix2 (0 : Fin 1) k)) * (s (ix2 (i 0) k) + b (ix2 (0 : Fin 1) k)))) ε)

theorem prod_apply {N K C : Nat} (x : (⟨2, ![N, K]⟩ : Shape).Idx → EReal) (w : (⟨2, ![K, C]⟩ : Shape).Idx → EReal)
    (p : Fin N) (q : Fin C) : prod x w (ix2 p q) = ∑ k : Fin K, x (ix2 p k) * w (ix2 k q) := rfl

theorem biasRelu_apply {N C : Nat} (s : (⟨2, ![N, C]⟩ : Shape).Idx → EReal) (b : (⟨2, ![1, C]⟩ : Shape).Idx → EReal)
    (p : Fin N) (q : Fin C) : biasRelu s b (ix2 p q) = max (s (ix2 p q) + b (ix2 (0 : Fin 1) q)) 0 := rfl

theorem biasNormalize_apply {N C : Nat} (ε : EReal) (s : (⟨2, ![N, C]⟩ : Shape).Idx → EReal)
    (b : (⟨2, ![1, C]⟩ : Shape).Idx → EReal) (p : Fin N) (q : Fin C) :
    biasNormalize ε s b (ix2 p q) = Ideal.div (s (ix2 p q) + b (ix2 (0 : Fin 1) q))
      (max (Ideal.sqrt (∑ k : Fin C, (s (ix2 p k) + b (ix2 (0 : Fin 1) k)) * (s (ix2 p k) + b (ix2 (0 : Fin 1) k)))) ε) := rfl

/-! ## A block of rows of a layer is the layer of the block -/

/-- If the block xb holds, at (p, k), the array's row r p, then the product of the block at (p, q) is the
    product of the array at (r p, q). -/
theorem prod_rows {R N K C : Nat} (xb : (⟨2, ![R, K]⟩ : Shape).Idx → EReal) (x : (⟨2, ![N, K]⟩ : Shape).Idx → EReal)
    (w : (⟨2, ![K, C]⟩ : Shape).Idx → EReal) (p : Fin R) (n : Fin N) (q : Fin C)
    (hx : ∀ k : Fin K, xb (ix2 p k) = x (ix2 n k)) : prod xb w (ix2 p q) = prod x w (ix2 n q) := by
  rw [prod_apply, prod_apply]
  exact Finset.sum_congr rfl fun k _ => by rw [hx k]

theorem biasRelu_rows {R N C : Nat} (sb : (⟨2, ![R, C]⟩ : Shape).Idx → EReal) (s : (⟨2, ![N, C]⟩ : Shape).Idx → EReal)
    (b : (⟨2, ![1, C]⟩ : Shape).Idx → EReal) (p : Fin R) (n : Fin N) (q : Fin C)
    (hs : ∀ k : Fin C, sb (ix2 p k) = s (ix2 n k)) : biasRelu sb b (ix2 p q) = biasRelu s b (ix2 n q) := by
  rw [biasRelu_apply, biasRelu_apply, hs q]

theorem biasNormalize_rows {R N C : Nat} (ε : EReal) (sb : (⟨2, ![R, C]⟩ : Shape).Idx → EReal)
    (s : (⟨2, ![N, C]⟩ : Shape).Idx → EReal) (b : (⟨2, ![1, C]⟩ : Shape).Idx → EReal) (p : Fin R) (n : Fin N) (q : Fin C)
    (hs : ∀ k : Fin C, sb (ix2 p k) = s (ix2 n k)) : biasNormalize ε sb b (ix2 p q) = biasNormalize ε s b (ix2 n q) := by
  rw [biasNormalize_apply, biasNormalize_apply, hs q]
  refine congrArg (fun t => Ideal.div _ (max (Ideal.sqrt t) ε)) ?_
  exact Finset.sum_congr rfl fun k _ => by rw [hs k]

/-! ## The forms of a kernel tile -/

/-- The square root of a vector, at an index. -/
theorem sqrt_apply {s : Shape} {φ : FTy} (a : FVec Ideal s φ) (i : s.Idx) : sqrt a i = Ideal.sqrt (a i) := rfl

/-- A matrix product of plain dimension numbers, of operands narrowed to bf16, into the zero accumulator. -/
theorem matmul_tile {R K C : Nat} (d : DotDims ⟨2, ![R, K]⟩ ⟨2, ![K, C]⟩ ⟨2, ![R, C]⟩) (hd : d = DotDims.plain R K C)
    (prec : Option ContractPrecision) (hbits : FTy.bits .bf16 < FTy.bits .f32)
    (x0 : FVec Ideal ⟨2, ![R, K]⟩ .f32) (x1 : FVec Ideal ⟨2, ![K, C]⟩ .f32) :
    matmul d prec (truncf .bf16 x0 hbits) (truncf .bf16 x1 hbits) (constant (F := Ideal) ⟨2, ![R, C]⟩ .f32 0x00000000#32)
      = prod x0 x1 := by
  subst hd
  funext j
  obtain ⟨p, q, rfl⟩ : ∃ (p : Fin R) (q : Fin C), j = ix2 p q := ⟨j 0, j 1, eq_ix2 j⟩
  show FloatOps.matmul (DotDims.plain R K C) prec (truncf .bf16 x0 hbits) (truncf .bf16 x1 hbits)
    (constant ⟨2, ![R, C]⟩ .f32 0x00000000#32) (ix2 p q) = _
  rw [Ideal.matmul_constant_zero_apply]
  refine (Cert.PlainDot.contraction_eq (truncf .bf16 x0 hbits) (truncf .bf16 x1 hbits) p q).trans ?_
  rfl

/-- The row b broadcast down the tile and added, clamped below by the splat of the zero word. -/
theorem biasRelu_tile {R C : Nat} (x0 : FVec Ideal ⟨2, ![R, C]⟩ .f32) (x1 : FVec Ideal ⟨2, ![1, C]⟩ .f32)
    (h0 : (⟨2, ![R, C]⟩ : Shape).ShapeCasts ⟨2, ![R, C]⟩) (h1 : (⟨2, ![1, C]⟩ : Shape).ShapeCasts ⟨2, ![1, C]⟩)
    (hb : (⟨2, ![1, C]⟩ : Shape).Broadcasts ⟨2, ![R, C]⟩) :
    maximumf (addf (shapeCast ⟨2, ![R, C]⟩ x0 h0) (broadcastTo ⟨2, ![R, C]⟩ (shapeCast ⟨2, ![1, C]⟩ x1 h1) hb))
        (broadcast ⟨2, ![R, C]⟩ (Scalar.ofBits (F := Ideal) .f32 0x00000000#32))
      = biasRelu x0 x1 := by
  funext j
  obtain ⟨p, q, rfl⟩ : ∃ (p : Fin R) (q : Fin C), j = ix2 p q := ⟨j 0, j 1, eq_ix2 j⟩
  rw [shapeCast_self x0 h0, shapeCast_self x1 h1, maximumf_apply, addf_apply, broadcast_apply, broadcastTo_1b_ab_apply,
    biasRelu_apply]
  exact congrArg (max _) Ideal.ofBits_zero_f32

/-- The row sum of squares of h = x0 + b kept as a column, its square root clamped below by the splat of the word
    of ε, spread back over the tile, dividing h. -/
theorem biasNormalize_tile {R C : Nat} (εBits : BitVec 32) (x0 : FVec Ideal ⟨2, ![R, C]⟩ .f32) (x1 : FVec Ideal ⟨2, ![1, C]⟩ .f32)
    (h0 : (⟨2, ![R, C]⟩ : Shape).ShapeCasts ⟨2, ![R, C]⟩) (h1 : (⟨2, ![1, C]⟩ : Shape).ShapeCasts ⟨2, ![1, C]⟩)
    (hb : (⟨2, ![1, C]⟩ : Shape).Broadcasts ⟨2, ![R, C]⟩)
    (hred : (⟨2, ![R, C]⟩ : Shape).Reduces [1] (⟨1, ![R]⟩ : Shape)) (hφ : FKind.Formats .f32)
    (hacc : (0x00000000#32 : BitVec 32) = 0x00000000#32)
    (hc : (⟨1, ![R]⟩ : Shape).ShapeCasts ⟨2, ![R, 1]⟩) (hb2 : (⟨2, ![R, 1]⟩ : Shape).Broadcasts ⟨2, ![R, C]⟩) :
    divf (addf (shapeCast ⟨2, ![R, C]⟩ x0 h0) (broadcastTo ⟨2, ![R, C]⟩ (shapeCast ⟨2, ![1, C]⟩ x1 h1) hb))
        (broadcastTo ⟨2, ![R, C]⟩
          (maximumf
            (sqrt (shapeCast ⟨2, ![R, 1]⟩
              (multiReduction (F := Ideal) .add [1] ⟨1, ![R]⟩
                (mulf (addf (shapeCast ⟨2, ![R, C]⟩ x0 h0) (broadcastTo ⟨2, ![R, C]⟩ (shapeCast ⟨2, ![1, C]⟩ x1 h1) hb))
                  (addf (shapeCast ⟨2, ![R, C]⟩ x0 h0) (broadcastTo ⟨2, ![R, C]⟩ (shapeCast ⟨2, ![1, C]⟩ x1 h1) hb)))
                0x00000000#32 hred hφ hacc) hc))
            (broadcast ⟨2, ![R, 1]⟩ (Scalar.ofBits (F := Ideal) .f32 εBits))) hb2)
      = biasNormalize (Ideal.ofBits .f32 εBits) x0 x1 := by
  funext j
  obtain ⟨p, q, rfl⟩ : ∃ (p : Fin R) (q : Fin C), j = ix2 p q := ⟨j 0, j 1, eq_ix2 j⟩
  rw [shapeCast_self x0 h0, shapeCast_self x1 h1, divf_apply, addf_apply, broadcastTo_1b_ab_apply,
    Keepdims.broadcastTo_a1_ab_apply, maximumf_apply, broadcast_apply, sqrt_apply, Keepdims.shapeCast_a_a1_apply,
    Keepdims.laneSum_apply, biasNormalize_apply]
  refine congrArg (fun t => Ideal.div _ (max (Ideal.sqrt t) _)) ?_
  exact Finset.sum_congr rfl fun k _ => by rw [mulf_apply, addf_apply, broadcastTo_1b_ab_apply]

/-! ## The forms of the host -/

/-- The host's dot_general of plain dimension numbers. -/
theorem hostDot {N K C : Nat} (d : DotDims ⟨2, ![N, K]⟩ ⟨2, ![K, C]⟩ ⟨2, ![N, C]⟩) (hd : d = DotDims.plain N K C)
    (x : FVec Ideal ⟨2, ![N, K]⟩ .f32) (w : FVec Ideal ⟨2, ![K, C]⟩ .f32) : Host.dotGeneral d none x w = prod x w := by
  subst hd
  funext j
  obtain ⟨p, q, rfl⟩ : ∃ (p : Fin N) (q : Fin C), j = ix2 p q := ⟨j 0, j 1, eq_ix2 j⟩
  exact Cert.PlainDot.dotGeneral_apply none .single x w p q

/-- The host's bias row spread over the rows and added, clamped below by the zero scalar spread over the array. -/
theorem hostBiasRelu {N C : Nat} (hb : (⟨2, ![1, C]⟩ : Shape).BroadcastsInDim ⟨2, ![N, C]⟩ (![0, 1] : Fin 2 → Fin 2))
    (hz : (⟨0, ![]⟩ : Shape).BroadcastsInDim ⟨2, ![N, C]⟩ (![] : Fin 0 → Fin 2))
    (s : FVec Ideal ⟨2, ![N, C]⟩ .f32) (b : FVec Ideal ⟨2, ![1, C]⟩ .f32) :
    maximumf (addf s (broadcastInDim ⟨2, ![N, C]⟩ ![0, 1] hb b))
        (broadcastInDim ⟨2, ![N, C]⟩ ![] hz (constant (F := Ideal) ⟨0, ![]⟩ .f32 0x00000000#32))
      = biasRelu s b := by
  funext j
  obtain ⟨p, q, rfl⟩ : ∃ (p : Fin N) (q : Fin C), j = ix2 p q := ⟨j 0, j 1, eq_ix2 j⟩
  rw [maximumf_apply, addf_apply, broadcastInDim_oneRow_apply, broadcastInDim_scalar_apply, constant_apply, biasRelu_apply]
  exact congrArg (max _) Ideal.ofBits_zero_f32

/-- A vector spread to an [N, 1] column, at (p, z), is the vector at p. -/
theorem hostColumn_apply {α : Type} {N : Nat} (h : (⟨1, ![N]⟩ : Shape).BroadcastsInDim ⟨2, ![N, 1]⟩ (![0] : Fin 1 → Fin 2))
    (v : (⟨1, ![N]⟩ : Shape).Idx → α) (p : Fin N) (z : Fin 1) :
    broadcastInDim ⟨2, ![N, 1]⟩ ![0] h v (ix2 p z) = v (ix1 p) := by
  refine broadcastInDim_apply ![0] h v (ix2 p z) (ix1 p) fun a => ?_
  match a with
  | ⟨0, _⟩ =>
    show p.val = if N = 1 then 0 else p.val
    split
    · have := p.isLt; omega
    · rfl

/-- An [N, 1] column spread over [N, C], at (p, q), is the column at (p, 0). -/
theorem hostSpread_apply {α : Type} {N C : Nat}
    (h : (⟨2, ![N, 1]⟩ : Shape).BroadcastsInDim ⟨2, ![N, C]⟩ (![0, 1] : Fin 2 → Fin 2))
    (v : (⟨2, ![N, 1]⟩ : Shape).Idx → α) (p : Fin N) (q : Fin C) :
    broadcastInDim ⟨2, ![N, C]⟩ ![0, 1] h v (ix2 p q) = v (ix2 p (0 : Fin 1)) := by
  refine broadcastInDim_apply ![0, 1] h v (ix2 p q) (ix2 p (0 : Fin 1)) fun a => ?_
  match a with
  | ⟨0, _⟩ =>
    show p.val = if N = 1 then 0 else p.val
    split
    · have := p.isLt; omega
    · rfl
  | ⟨1, _⟩ => rfl

/-- The host's sum along the rows of an [N, C] array from an initial scalar, at p. -/
theorem hostRowSum_apply {N C : Nat} (x : FVec Ideal ⟨2, ![N, C]⟩ .f32) (init : (⟨0, ![]⟩ : Shape).Idx → Ideal .f32)
    (hr' : (⟨2, ![N, C]⟩ : Shape).ReducesTo [1] (⟨1, ![N]⟩ : Shape)) (hr : (⟨2, ![N, C]⟩ : Shape).Reduces [1] (⟨1, ![N]⟩ : Shape))
    (hu : 0 < (⟨0, ![]⟩ : Shape).numel) (p : Fin N) :
    Host.reduceAdd x init hr' hu (ix1 p) = init (Shape.Idx.first hu) + ∑ k : Fin C, x (ix2 p k) := by
  rw [hostReduceAdd_apply, Ideal.hostReduceAdd_single hr' hr]
  refine congrArg (_ + ·) ?_
  exact Finset.sum_congr rfl fun k _ => congrArg x (Keepdims.lift_lane hr p k)

/-- The host's square root of a vector, at an index. -/
theorem hostSqrt_apply {s : Shape} {φ : FTy} (a : FVec Ideal s φ) (i : s.Idx) : Host.sqrt a i = Ideal.sqrt (a i) := rfl

/-- The host's row normalisation: h = s + b spread over the rows, the row sums of h · h from the zero scalar made a
    column, its square root clamped below by the scalar ε spread over the column, the column spread over the array,
    dividing h. -/
theorem hostBiasNormalize {N C : Nat} (εBits : BitVec 32)
    (hb : (⟨2, ![1, C]⟩ : Shape).BroadcastsInDim ⟨2, ![N, C]⟩ (![0, 1] : Fin 2 → Fin 2))
    (hr' : (⟨2, ![N, C]⟩ : Shape).ReducesTo [1] (⟨1, ![N]⟩ : Shape)) (hr : (⟨2, ![N, C]⟩ : Shape).Reduces [1] (⟨1, ![N]⟩ : Shape))
    (hu : 0 < (⟨0, ![]⟩ : Shape).numel)
    (hcol : (⟨1, ![N]⟩ : Shape).BroadcastsInDim ⟨2, ![N, 1]⟩ (![0] : Fin 1 → Fin 2))
    (hε : (⟨0, ![]⟩ : Shape).BroadcastsInDim ⟨2, ![N, 1]⟩ (![] : Fin 0 → Fin 2))
    (hsp : (⟨2, ![N, 1]⟩ : Shape).BroadcastsInDim ⟨2, ![N, C]⟩ (![0, 1] : Fin 2 → Fin 2))
    (s : FVec Ideal ⟨2, ![N, C]⟩ .f32) (b : FVec Ideal ⟨2, ![1, C]⟩ .f32) :
    Host.divf (addf s (broadcastInDim ⟨2, ![N, C]⟩ ![0, 1] hb b))
        (broadcastInDim ⟨2, ![N, C]⟩ ![0, 1] hsp
          (maximumf
            (Host.sqrt (broadcastInDim ⟨2, ![N, 1]⟩ ![0] hcol
              (Host.reduceAdd
                (mulf (addf s (broadcastInDim ⟨2, ![N, C]⟩ ![0, 1] hb b)) (addf s (broadcastInDim ⟨2, ![N, C]⟩ ![0, 1] hb b)))
                (constant (F := Ideal) ⟨0, ![]⟩ .f32 0x00000000#32) hr' hu)))
            (broadcastInDim ⟨2, ![N, 1]⟩ ![] hε (constant (F := Ideal) ⟨0, ![]⟩ .f32 εBits))))
      = biasNormalize (Ideal.ofBits .f32 εBits) s b := by
  funext j
  obtain ⟨p, q, rfl⟩ : ∃ (p : Fin N) (q : Fin C), j = ix2 p q := ⟨j 0, j 1, eq_ix2 j⟩
  rw [hostDivf_apply, addf_apply, broadcastInDim_oneRow_apply, hostSpread_apply, maximumf_apply, hostSqrt_apply,
    hostColumn_apply, hostRowSum_apply _ _ hr' hr hu, broadcastInDim_scalar_apply, constant_apply, constant_apply,
    Ideal.ofBits_zero_f32, zero_add, biasNormalize_apply]
  refine congrArg (fun t => Ideal.div _ (max (Ideal.sqrt t) _)) ?_
  exact Finset.sum_congr rfl fun k _ => by rw [mulf_apply, addf_apply, broadcastInDim_oneRow_apply]

/-- A vector reshaped to one row is the vector spread along axis 1 of a one-row array. -/
theorem row_eq {α : Type} {C : Nat} (hc : (⟨1, ![C]⟩ : Shape).ShapeCasts ⟨2, ![1, C]⟩)
    (hb : (⟨1, ![C]⟩ : Shape).BroadcastsInDim ⟨2, ![1, C]⟩ (![1] : Fin 1 → Fin 2)) (b : (⟨1, ![C]⟩ : Shape).Idx → α) :
    shapeCast ⟨2, ![1, C]⟩ b hc = broadcastInDim ⟨2, ![1, C]⟩ ![1] hb b := by
  funext j
  obtain ⟨z, q, rfl⟩ : ∃ (z : Fin 1) (q : Fin C), j = ix2 z q := ⟨j 0, j 1, eq_ix2 j⟩
  have hz : z = 0 := Subsingleton.elim _ _
  subst hz
  rw [shapeCast_a_1a_apply b hc 0 q]
  refine (broadcastInDim_apply ![1] hb b (ix2 (0 : Fin 1) q) (ix1 q) fun a => ?_).symm
  match a with
  | ⟨0, _⟩ =>
    show q.val = if C = 1 then 0 else q.val
    split
    · have := q.isLt; omega
    · rfl

end RowLayers

end
-- ==== Proof.LibRowBias.lean ====
/-
  A one-row bias added to every row of an array, on the extended reals, for any extents.

  For an array s : [N, C] and a one-row array b : [1, C], `biasAdd s b` has entry (i, j) equal to s (i, j) + b (0, j).
  A kernel tile forms it by broadcasting the row down the tile and adding; the host by spreading the row over the rows
  with broadcast_in_dim and adding. Each form equals the function as a whole array. An entry depends on its own row of s
  only, so a block of rows of `biasAdd s b` is `biasAdd` of that block of rows. No entry is assumed finite.
-/
import Idealize.ShloMosaic.PureOps.Ideal.Laws
import Idealize.ShloMosaic.Lib.ValueIdx
import Idealize.ShloMosaic.Lib.ValueLayout
import Idealize.ShloMosaic.Lib.Pipeline.Value
import Idealize.ShloMosaic.Lib.KernelVsHost

noncomputable section

namespace RowBias

open Idealize.ShloMosaic Idealize.ShloMosaic.ValueIdx

/-- A one-row bias added to every row. -/
def biasAdd {N C : Nat} (s : (⟨2, ![N, C]⟩ : Shape).Idx → EReal) (b : (⟨2, ![1, C]⟩ : Shape).Idx → EReal) :
    (⟨2, ![N, C]⟩ : Shape).Idx → EReal :=
  fun i => s i + b (ix2 (0 : Fin 1) (i 1))

theorem biasAdd_apply {N C : Nat} (s : (⟨2, ![N, C]⟩ : Shape).Idx → EReal) (b : (⟨2, ![1, C]⟩ : Shape).Idx → EReal)
    (p : Fin N) (q : Fin C) : biasAdd s b (ix2 p q) = s (ix2 p q) + b (ix2 (0 : Fin 1) q) := rfl

/-- If the block sb holds, at (p, q), the array's entry (n, q), then the biased block at (p, q) is the biased array
    at (n, q). -/
theorem biasAdd_rows {R N C : Nat} (sb : (⟨2, ![R, C]⟩ : Shape).Idx → EReal) (s : (⟨2, ![N, C]⟩ : Shape).Idx → EReal)
    (b : (⟨2, ![1, C]⟩ : Shape).Idx → EReal) (p : Fin R) (n : Fin N) (q : Fin C)
    (hs : sb (ix2 p q) = s (ix2 n q)) : biasAdd sb b (ix2 p q) = biasAdd s b (ix2 n q) := by
  rw [biasAdd_apply, biasAdd_apply, hs]

/-- The form of a kernel tile: the row, cast to its own shape, broadcast down the tile and added. -/
theorem biasAdd_tile {R C : Nat} (y : FVec Ideal ⟨2, ![R, C]⟩ .f32) (x1 : FVec Ideal ⟨2, ![1, C]⟩ .f32)
    (h1 : (⟨2, ![1, C]⟩ : Shape).ShapeCasts ⟨2, ![1, C]⟩) (hb : (⟨2, ![1, C]⟩ : Shape).Broadcasts ⟨2, ![R, C]⟩) :
    addf y (broadcastTo ⟨2, ![R, C]⟩ (shapeCast ⟨2, ![1, C]⟩ x1 h1) hb) = biasAdd y x1 := by
  funext j
  obtain ⟨p, q, rfl⟩ : ∃ (p : Fin R) (q : Fin C), j = ix2 p q := ⟨j 0, j 1, eq_ix2 j⟩
  rw [shapeCast_self x1 h1, addf_apply, broadcastTo_1b_ab_apply, biasAdd_apply]

/-- The form of the host: the row spread over the rows by broadcast_in_dim and added. -/
theorem hostBiasAdd {N C : Nat} (hb : (⟨2, ![1, C]⟩ : Shape).BroadcastsInDim ⟨2, ![N, C]⟩ (![0, 1] : Fin 2 → Fin 2))
    (s : FVec Ideal ⟨2, ![N, C]⟩ .f32) (b : FVec Ideal ⟨2, ![1, C]⟩ .f32) :
    addf s (broadcastInDim ⟨2, ![N, C]⟩ ![0, 1] hb b) = biasAdd s b := by
  funext j
  obtain ⟨p, q, rfl⟩ : ∃ (p : Fin N) (q : Fin C), j = ix2 p q := ⟨j 0, j 1, eq_ix2 j⟩
  rw [addf_apply, broadcastInDim_oneRow_apply, biasAdd_apply]

end RowBias

end
-- ==== Proof.LibPairSum.lean ====
/-
  Sums over a doubled index range, for block-diagonal weights.

  A row of 2d entries times a column of a matrix that carries a d × d block w twice on its diagonal and zeros elsewhere:
  only the d entries that meet the block of the column's half contribute, because a product with zero is zero on the
  extended reals (0 · ±∞ = 0 there) and adding zero changes nothing. No finiteness is used.
-/
import Mathlib

namespace Cert.PairSum

open scoped BigOperators

/-- A sum over 2d consecutive positions is the sum of its two halves. -/
theorem sum_two_halves {M : Type} [AddCommMonoid M] (d : Nat) (f : Fin (d + d) → M) :
    ∑ k : Fin (d + d), f k = (∑ k : Fin d, f (Fin.castAdd d k)) + ∑ k : Fin d, f (Fin.natAdd d k) :=
  Fin.sum_univ_add f

/-- Left half: the second half of the terms vanishes. -/
theorem sum_left (d : Nat) (f : Fin (d + d) → EReal) (g : Fin d → EReal)
    (hl : ∀ k : Fin d, f (Fin.castAdd d k) = g k) (hr : ∀ k : Fin d, f (Fin.natAdd d k) = 0) :
    ∑ k : Fin (d + d), f k = ∑ k : Fin d, g k := by
  rw [sum_two_halves, Finset.sum_congr rfl (fun k _ => hl k), Finset.sum_congr rfl (fun k _ => hr k),
    Finset.sum_const_zero, add_zero]

/-- Right half: the first half of the terms vanishes. -/
theorem sum_right (d : Nat) (f : Fin (d + d) → EReal) (g : Fin d → EReal)
    (hl : ∀ k : Fin d, f (Fin.castAdd d k) = 0) (hr : ∀ k : Fin d, f (Fin.natAdd d k) = g k) :
    ∑ k : Fin (d + d), f k = ∑ k : Fin d, g k := by
  rw [sum_two_halves, Finset.sum_congr rfl (fun k _ => hl k), Finset.sum_congr rfl (fun k _ => hr k),
    Finset.sum_const_zero, zero_add]

/-- A sum over 3d consecutive positions is the sum of its three thirds. -/
theorem sum_three (d : Nat) {M : Type} [AddCommMonoid M] (f : Fin (d + d + d) → M) :
    ∑ k : Fin (d + d + d), f k
      = ((∑ k : Fin d, f (Fin.castAdd d (Fin.castAdd d k))) + ∑ k : Fin d, f (Fin.castAdd d (Fin.natAdd d k)))
        + ∑ k : Fin d, f (Fin.natAdd (d + d) k) := by
  rw [Fin.sum_univ_add, Fin.sum_univ_add]

end Cert.PairSum
-- ==== Proof.LibMlpRows.lean ====
/-
  A three-layer perceptron applied row by row, on the extended reals, for any extents.

  For a first-layer pre-activation s : [N, L] (a matrix product, before its bias), one-row biases b1, b2 : [1, L],
  b3 : [1, C] and weights w2 : [L, L], w3 : [L, C], `tail s b1 w2 b2 w3 b3` is

      logistic (max (max (s + b1) 0 · w2 + b2) 0 · w3 + b3),

  every product a matrix product, every bias added to each row, the logistic function 1 / (1 + e^(-x)) entry by entry.
  Every entry of it depends on its own row of s only, so a block of rows of the result is the result of that block
  of rows (`tail_rows`).

  The first layer's product takes two forms. Over a row-wise concatenation x = [a | b | c] of three arrays of D
  columns and a weight matrix w of D + D + D rows, the product x · w is a · w_a + b · w_b + c · w_c, where w_a, w_b,
  w_c are the three bands of D rows of w (`prod_cat3`; for two pieces `prod_cat2`): a sum over D + D + D consecutive
  positions is the sum of its three thirds, which is associativity of addition and holds for infinite entries too.
  No entry is assumed finite anywhere in this file.

  The logistic function is written by a kernel as one operation and by the host as 1 / (1 + exp (-x)) with the
  ones spread from a scalar; both are `sigmoid` (`sigmoid_tile`, `hostSigmoid`).
-/
import proofs.«169925_j12309376270349_1_alg».proof.Proof.LibRowLayers
import proofs.«169925_j12309376270349_1_alg».proof.Proof.LibRowBias
import proofs.«169925_j12309376270349_1_alg».proof.Proof.LibPairSum

noncomputable section

namespace MlpRows

open Idealize.ShloMosaic Idealize.ShloMosaic.ValueIdx RowLayers RowBias
open scoped BigOperators

/-! ## Sums over consecutive thirds and halves, with the positions named by the caller -/

/-- A sum over K = D + D + D positions is the sum over its three thirds, the thirds' positions given as maps
    whose values are k, D + k and D + D + k. -/
theorem sum_three_at {M : Type} [AddCommMonoid M] {K D : Nat} (hK : K = D + D + D) (f : Fin K → M)
    (ia ib ic : Fin D → Fin K) (ha : ∀ k, (ia k).val = k.val) (hb : ∀ k, (ib k).val = D + k.val)
    (hc : ∀ k, (ic k).val = D + D + k.val) :
    ∑ k : Fin K, f k = ((∑ k : Fin D, f (ia k)) + ∑ k : Fin D, f (ib k)) + ∑ k : Fin D, f (ic k) := by
  subst hK
  rw [Cert.PairSum.sum_three]
  have ea : ∀ k : Fin D, Fin.castAdd D (Fin.castAdd D k) = ia k := fun k => Fin.ext (by rw [ha]; rfl)
  have eb : ∀ k : Fin D, Fin.castAdd D (Fin.natAdd D k) = ib k := fun k => Fin.ext (by rw [hb]; rfl)
  have ec : ∀ k : Fin D, Fin.natAdd (D + D) k = ic k := fun k => Fin.ext (by rw [hc]; rfl)
  simp only [ea, eb, ec]

/-- A sum over K = D + D positions is the sum over its two halves, the halves' positions given as maps whose
    values are k and D + k. -/
theorem sum_two_at {M : Type} [AddCommMonoid M] {K D : Nat} (hK : K = D + D) (f : Fin K → M)
    (ia ib : Fin D → Fin K) (ha : ∀ k, (ia k).val = k.val) (hb : ∀ k, (ib k).val = D + k.val) :
    ∑ k : Fin K, f k = (∑ k : Fin D, f (ia k)) + ∑ k : Fin D, f (ib k) := by
  subst hK
  rw [Cert.PairSum.sum_two_halves]
  have ea : ∀ k : Fin D, Fin.castAdd D k = ia k := fun k => Fin.ext (by rw [ha]; rfl)
  have eb : ∀ k : Fin D, Fin.natAdd D k = ib k := fun k => Fin.ext (by rw [hb]; rfl)
  simp only [ea, eb]

/-! ## The first layer's product as a sum of products -/

/-- a · wa + b · wb + c · wc, entry by entry. -/
def pre3 {N D L : Nat} (a b c : (⟨2, ![N, D]⟩ : Shape).Idx → EReal) (wa wb wc : (⟨2, ![D, L]⟩ : Shape).Idx → EReal) :
    (⟨2, ![N, L]⟩ : Shape).Idx → EReal :=
  fun i => (prod a wa i + prod b wb i) + prod c wc i

/-- a · wa + b · wb, entry by entry. -/
def pre2 {N D L : Nat} (a b : (⟨2, ![N, D]⟩ : Shape).Idx → EReal) (wa wb : (⟨2, ![D, L]⟩ : Shape).Idx → EReal) :
    (⟨2, ![N, L]⟩ : Shape).Idx → EReal :=
  fun i => prod a wa i + prod b wb i

theorem pre3_rows {R N D L : Nat} (ab bb cb : (⟨2, ![R, D]⟩ : Shape).Idx → EReal)
    (a b c : (⟨2, ![N, D]⟩ : Shape).Idx → EReal) (wa wb wc : (⟨2, ![D, L]⟩ : Shape).Idx → EReal)
    (p : Fin R) (n : Fin N) (q : Fin L)
    (ha : ∀ k : Fin D, ab (ix2 p k) = a (ix2 n k)) (hb : ∀ k : Fin D, bb (ix2 p k) = b (ix2 n k))
    (hc : ∀ k : Fin D, cb (ix2 p k) = c (ix2 n k)) :
    pre3 ab bb cb wa wb wc (ix2 p q) = pre3 a b c wa wb wc (ix2 n q) := by
  show (prod ab wa (ix2 p q) + prod bb wb (ix2 p q)) + prod cb wc (ix2 p q)
    = (prod a wa (ix2 n q) + prod b wb (ix2 n q)) + prod c wc (ix2 n q)
  rw [prod_rows ab a wa p n q ha, prod_rows bb b wb p n q hb, prod_rows cb c wc p n q hc]

theorem pre2_rows {R N D L : Nat} (ab bb : (⟨2, ![R, D]⟩ : Shape).Idx → EReal)
    (a b : (⟨2, ![N, D]⟩ : Shape).Idx → EReal) (wa wb : (⟨2, ![D, L]⟩ : Shape).Idx → EReal)
    (p : Fin R) (n : Fin N) (q : Fin L)
    (ha : ∀ k : Fin D, ab (ix2 p k) = a (ix2 n k)) (hb : ∀ k : Fin D, bb (ix2 p k) = b (ix2 n k)) :
    pre2 ab bb wa wb (ix2 p q) = pre2 a b wa wb (ix2 n q) := by
  show prod ab wa (ix2 p q) + prod bb wb (ix2 p q) = prod a wa (ix2 n q) + prod b wb (ix2 n q)
  rw [prod_rows ab a wa p n q ha, prod_rows bb b wb p n q hb]

/-- The product of a row-wise concatenation of three arrays with a matrix is the sum of the three products with the
    matrix's three bands of rows. -/
theorem prod_cat3 {N D L K : Nat} (hK : K = D + D + D)
    (x : (⟨2, ![N, K]⟩ : Shape).Idx → EReal) (a b c : (⟨2, ![N, D]⟩ : Shape).Idx → EReal)
    (w : (⟨2, ![K, L]⟩ : Shape).Idx → EReal) (wa wb wc : (⟨2, ![D, L]⟩ : Shape).Idx → EReal)
    (ia ib ic : Fin D → Fin K) (ha : ∀ k, (ia k).val = k.val) (hb : ∀ k, (ib k).val = D + k.val)
    (hc : ∀ k, (ic k).val = D + D + k.val)
    (hxa : ∀ (p : Fin N) (k : Fin D), x (ix2 p (ia k)) = a (ix2 p k))
    (hxb : ∀ (p : Fin N) (k : Fin D), x (ix2 p (ib k)) = b (ix2 p k))
    (hxc : ∀ (p : Fin N) (k : Fin D), x (ix2 p (ic k)) = c (ix2 p k))
    (hwa : ∀ (k : Fin D) (q : Fin L), w (ix2 (ia k) q) = wa (ix2 k q))
    (hwb : ∀ (k : Fin D) (q : Fin L), w (ix2 (ib k) q) = wb (ix2 k q))
    (hwc : ∀ (k : Fin D) (q : Fin L), w (ix2 (ic k) q) = wc (ix2 k q)) :
    prod x w = pre3 a b c wa wb wc := by
  funext j
  obtain ⟨p, q, rfl⟩ : ∃ (p : Fin N) (q : Fin L), j = ix2 p q := ⟨j 0, j 1, eq_ix2 j⟩
  show prod x w (ix2 p q) = (prod a wa (ix2 p q) + prod b wb (ix2 p q)) + prod c wc (ix2 p q)
  rw [prod_apply, prod_apply, prod_apply, prod_apply,
    sum_three_at hK (fun k => x (ix2 p k) * w (ix2 k q)) ia ib ic ha hb hc]
  simp only [hxa, hxb, hxc, hwa, hwb, hwc]

/-- The product of a row-wise concatenation of two arrays with a matrix is the sum of the two products with the
    matrix's two bands of rows. -/
theorem prod_cat2 {N D L K : Nat} (hK : K = D + D)
    (x : (⟨2, ![N, K]⟩ : Shape).Idx → EReal) (a b : (⟨2, ![N, D]⟩ : Shape).Idx → EReal)
    (w : (⟨2, ![K, L]⟩ : Shape).Idx → EReal) (wa wb : (⟨2, ![D, L]⟩ : Shape).Idx → EReal)
    (ia ib : Fin D → Fin K) (ha : ∀ k, (ia k).val = k.val) (hb : ∀ k, (ib k).val = D + k.val)
    (hxa : ∀ (p : Fin N) (k : Fin D), x (ix2 p (ia k)) = a (ix2 p k))
    (hxb : ∀ (p : Fin N) (k : Fin D), x (ix2 p (ib k)) = b (ix2 p k))
    (hwa : ∀ (k : Fin D) (q : Fin L), w (ix2 (ia k) q) = wa (ix2 k q))
    (hwb : ∀ (k : Fin D) (q : Fin L), w (ix2 (ib k) q) = wb (ix2 k q)) :
    prod x w = pre2 a b wa wb := by
  funext j
  obtain ⟨p, q, rfl⟩ : ∃ (p : Fin N) (q : Fin L), j = ix2 p q := ⟨j 0, j 1, eq_ix2 j⟩
  show prod x w (ix2 p q) = prod a wa (ix2 p q) + prod b wb (ix2 p q)
  rw [prod_apply, prod_apply, prod_apply, sum_two_at hK (fun k => x (ix2 p k) * w (ix2 k q)) ia ib ha hb]
  simp only [hxa, hxb, hwa, hwb]

/-! ## The logistic function entry by entry -/

/-- 1 / (1 + e^(-x)) at every entry. -/
def sigmoid {s : Shape} (x : s.Idx → EReal) : s.Idx → EReal := fun i => Ideal.logistic (x i)

/-- A kernel's one logistic operation. -/
theorem sigmoid_tile {s : Shape} (x : FVec Ideal s .f32) : logistic x = sigmoid x := rfl

/-- The host's 1 / (1 + exp (-x)), the ones spread from the scalar word of 1.0. -/
theorem hostSigmoid {s : Shape} (h1 h2 : (⟨0, ![]⟩ : Shape).BroadcastsInDim s (![] : Fin 0 → Fin s.rank))
    (x : FVec Ideal s .f32) :
    Host.divf (broadcastInDim s ![] h1 (constant (F := Ideal) ⟨0, ![]⟩ .f32 0x3F800000#32))
        (addf (broadcastInDim s ![] h2 (constant (F := Ideal) ⟨0, ![]⟩ .f32 0x3F800000#32)) (Host.exp (Host.negf x)))
      = sigmoid x := by
  funext i
  rw [hostDivf_apply, addf_apply, broadcastInDim_scalar_apply, constant_apply, Ideal.ofBits_one_f32]
  rfl

/-- A kernel tile's bias and clamp when the pre-activation is used as it is: the row, cast to its own shape,
    broadcast down the tile and added, clamped below by the splat of the zero word. -/
theorem biasRelu_tile_plain {R C : Nat} (s : FVec Ideal ⟨2, ![R, C]⟩ .f32) (x1 : FVec Ideal ⟨2, ![1, C]⟩ .f32)
    (h1 : (⟨2, ![1, C]⟩ : Shape).ShapeCasts ⟨2, ![1, C]⟩) (hb : (⟨2, ![1, C]⟩ : Shape).Broadcasts ⟨2, ![R, C]⟩) :
    maximumf (addf s (broadcastTo ⟨2, ![R, C]⟩ (shapeCast ⟨2, ![1, C]⟩ x1 h1) hb))
        (broadcast ⟨2, ![R, C]⟩ (Scalar.ofBits (F := Ideal) .f32 0x00000000#32))
      = biasRelu s x1 := by
  funext j
  obtain ⟨p, q, rfl⟩ : ∃ (p : Fin R) (q : Fin C), j = ix2 p q := ⟨j 0, j 1, eq_ix2 j⟩
  rw [shapeCast_self x1 h1, maximumf_apply, addf_apply, broadcast_apply, broadcastTo_1b_ab_apply, biasRelu_apply]
  exact congrArg (max _) Ideal.ofBits_zero_f32

/-- A matrix product of plain dimension numbers into the zero accumulator whose left operand is narrowed to bf16 and
    whose right operand is cast to its own shape before it is narrowed. -/
theorem matmul_tile_cast {R K C : Nat} (d : DotDims ⟨2, ![R, K]⟩ ⟨2, ![K, C]⟩ ⟨2, ![R, C]⟩) (hd : d = DotDims.plain R K C)
    (prec : Option ContractPrecision) (hbits : FTy.bits .bf16 < FTy.bits .f32)
    (x0 : FVec Ideal ⟨2, ![R, K]⟩ .f32) (x1 : FVec Ideal ⟨2, ![K, C]⟩ .f32)
    (h1 : (⟨2, ![K, C]⟩ : Shape).ShapeCasts ⟨2, ![K, C]⟩) :
    matmul d prec (truncf .bf16 x0 hbits) (truncf .bf16 (shapeCast ⟨2, ![K, C]⟩ x1 h1) hbits)
        (constant (F := Ideal) ⟨2, ![R, C]⟩ .f32 0x00000000#32)
      = prod x0 x1 := by
  rw [shapeCast_self x1 h1]
  exact matmul_tile d hd prec hbits x0 x1

/-- The same with both operands cast to their own shapes before they are narrowed. -/
theorem matmul_tile_cast2 {R K C : Nat} (d : DotDims ⟨2, ![R, K]⟩ ⟨2, ![K, C]⟩ ⟨2, ![R, C]⟩) (hd : d = DotDims.plain R K C)
    (prec : Option ContractPrecision) (hbits : FTy.bits .bf16 < FTy.bits .f32)
    (x0 : FVec Ideal ⟨2, ![R, K]⟩ .f32) (x1 : FVec Ideal ⟨2, ![K, C]⟩ .f32)
    (h0 : (⟨2, ![R, K]⟩ : Shape).ShapeCasts ⟨2, ![R, K]⟩) (h1 : (⟨2, ![K, C]⟩ : Shape).ShapeCasts ⟨2, ![K, C]⟩) :
    matmul d prec (truncf .bf16 (shapeCast ⟨2, ![R, K]⟩ x0 h0) hbits) (truncf .bf16 (shapeCast ⟨2, ![K, C]⟩ x1 h1) hbits)
        (constant (F := Ideal) ⟨2, ![R, C]⟩ .f32 0x00000000#32)
      = prod x0 x1 := by
  rw [shapeCast_self x0 h0, shapeCast_self x1 h1]
  exact matmul_tile d hd prec hbits x0 x1

/-! ## The layers after the first product -/

/-- logistic (max (max (s + b1) 0 · w2 + b2) 0 · w3 + b3). -/
def tail {N L C : Nat} (s : (⟨2, ![N, L]⟩ : Shape).Idx → EReal) (b1 : (⟨2, ![1, L]⟩ : Shape).Idx → EReal)
    (w2 : (⟨2, ![L, L]⟩ : Shape).Idx → EReal) (b2 : (⟨2, ![1, L]⟩ : Shape).Idx → EReal)
    (w3 : (⟨2, ![L, C]⟩ : Shape).Idx → EReal) (b3 : (⟨2, ![1, C]⟩ : Shape).Idx → EReal) :
    (⟨2, ![N, C]⟩ : Shape).Idx → EReal :=
  sigmoid (biasAdd (prod (biasRelu (prod (biasRelu s b1) w2) b2) w3) b3)

/-- If the block sb holds, in its row p, the array's row n, then row p of the block's result is row n of the
    array's result. -/
theorem tail_rows {R N L C : Nat} (sb : (⟨2, ![R, L]⟩ : Shape).Idx → EReal) (s : (⟨2, ![N, L]⟩ : Shape).Idx → EReal)
    (b1 : (⟨2, ![1, L]⟩ : Shape).Idx → EReal) (w2 : (⟨2, ![L, L]⟩ : Shape).Idx → EReal)
    (b2 : (⟨2, ![1, L]⟩ : Shape).Idx → EReal) (w3 : (⟨2, ![L, C]⟩ : Shape).Idx → EReal)
    (b3 : (⟨2, ![1, C]⟩ : Shape).Idx → EReal) (p : Fin R) (n : Fin N) (q : Fin C)
    (hs : ∀ k : Fin L, sb (ix2 p k) = s (ix2 n k)) :
    tail sb b1 w2 b2 w3 b3 (ix2 p q) = tail s b1 w2 b2 w3 b3 (ix2 n q) := by
  show Ideal.logistic (biasAdd (prod (biasRelu (prod (biasRelu sb b1) w2) b2) w3) b3 (ix2 p q))
    = Ideal.logistic (biasAdd (prod (biasRelu (prod (biasRelu s b1) w2) b2) w3) b3 (ix2 n q))
  refine congrArg Ideal.logistic ?_
  refine biasAdd_rows _ _ b3 p n q ?_
  refine prod_rows _ _ w3 p n q fun k => ?_
  refine biasRelu_rows _ _ b2 p n k fun k' => ?_
  refine prod_rows _ _ w2 p n k' fun k'' => ?_
  exact biasRelu_rows sb s b1 p n k'' hs

end MlpRows

end
-- ==== Proof.KernelTiles.lean ====
/-
  What one grid point of each kernel leaves in its output block, as a function of the blocks it loads.

  The edge kernel loads a block of R = 8000 rows of the edge features e, of the gathered source rows hs and of the
  gathered destination rows hd, the three 64-row bands of the first weight matrix, and the remaining weights and
  one-row biases. It stores the whole output block once, with

      logistic (max (max ((e · w1e + hs · w1s) + hd · w1d + b1) 0 · w2 + b2) 0 · w3 + b3),

  every operand of a product narrowed to bf16 first, which changes nothing on the extended reals. So the block left is
  `tail (pre3 e hs hd w1e w1s w1d) b1 w2 b2 w3 b3`. The node kernel does the same over blocks of 10000 rows with two
  inputs: `tail (pre2 n hN w1n w1h) b1 w2 b2 w3 b3`.
-/
import proofs.«169925_j12309376270349_1_alg».proof.Proof.Gen.KernelIdeal.Frame
import proofs.«169925_j12309376270349_1_alg».proof.Proof.LibMlpRows

set_option maxRecDepth 16384

noncomputable section

namespace Cert.KernelIdeal.Tiles

open Idealize.ShloMosaic Idealize.ShloMosaic.ValueIdx Cert.KernelIdeal Cert.KernelIdeal.Gen RowLayers RowBias MlpRows

theorem hz : (![0, 0] : Fin 2 → Nat) = fun _ => 0 := funext fun a => by fin_cases a <;> rfl

/-- The edge kernel's arithmetic on its loaded blocks. -/
theorem edge_payload (v0 v2 v5 : Vec Ideal S8000x64 .f32) (v8 v11 v14 : Vec Ideal S64x16 .f32)
    (v22 : Vec Ideal S1x16 .f32) (v29 : Vec Ideal S16x16 .f32) (v32 : Vec Ideal S1x16 .f32)
    (v39 : Vec Ideal S16x64 .f32) (v42 : Vec Ideal S1x64 .f32) :
    k0_pay1 (F := Ideal) (k0_pay2 v0 v2 v5 v8 v11 v14 v22 v29 v32) v39 v42
      = tail (pre3 v0 v2 v5 v8 v11 v14) v22 v29 v32 v39 v42 := by
  unfold k0_pay1 k0_pay2
  dsimp only
  rw [matmul_tile_cast dot_S8000x64_S64x16_S8000x16_1_0_0_1_n_n rfl none bitsLt_bf16_f32 v0 v8,
    matmul_tile_cast2 dot_S8000x64_S64x16_S8000x16_1_0_0_1_n_n rfl none bitsLt_bf16_f32 v2 v11,
    matmul_tile_cast2 dot_S8000x64_S64x16_S8000x16_1_0_0_1_n_n rfl none bitsLt_bf16_f32 v5 v14]
  rw [biasRelu_tile_plain (addf (addf (prod v0 v8) (prod v2 v11)) (prod v5 v14)) v22]
  rw [matmul_tile dot_S8000x16_S16x16_S8000x16_1_0_0_1_n_n rfl none bitsLt_bf16_f32 _ v29]
  rw [biasRelu_tile_plain _ v32]
  rw [matmul_tile dot_S8000x16_S16x64_S8000x64_1_0_0_1_n_n rfl none bitsLt_bf16_f32 _ v39]
  rw [biasAdd_tile _ v42, sigmoid_tile]
  rfl

/-- The node kernel's arithmetic on its loaded blocks. -/
theorem node_payload (v0 v2 : Vec Ideal S10000x64 .f32) (v5 v8 : Vec Ideal S64x16 .f32)
    (v14 : Vec Ideal S1x16 .f32) (v21 : Vec Ideal S16x16 .f32) (v24 : Vec Ideal S1x16 .f32)
    (v31 : Vec Ideal S16x64 .f32) (v34 : Vec Ideal S1x64 .f32) :
    k1_pay1 (F := Ideal) (k1_pay2 v0 v2 v5 v8 v14 v21 v24 v31) v34
      = tail (pre2 v0 v2 v5 v8) v14 v21 v24 v31 v34 := by
  unfold k1_pay1 k1_pay2
  dsimp only
  rw [matmul_tile_cast dot_S10000x64_S64x16_S10000x16_1_0_0_1_n_n rfl none bitsLt_bf16_f32 v0 v5,
    matmul_tile_cast2 dot_S10000x64_S64x16_S10000x16_1_0_0_1_n_n rfl none bitsLt_bf16_f32 v2 v8]
  rw [biasRelu_tile_plain (addf (prod v0 v5) (prod v2 v8)) v14]
  rw [matmul_tile dot_S10000x16_S16x16_S10000x16_1_0_0_1_n_n rfl none bitsLt_bf16_f32 _ v21]
  rw [biasRelu_tile_plain _ v24]
  rw [matmul_tile dot_S10000x16_S16x64_S10000x64_1_0_0_1_n_n rfl none bitsLt_bf16_f32 _ v31]
  rw [biasAdd_tile _ v34, sigmoid_tile]
  rfl

/-- What the edge kernel's one store leaves in the output block, from the blocks it loads whole. -/
theorem out0_11_eq (x0 x1 x2 : Vec Ideal S8000x64 .f32) (x3 x4 x5 : Vec Ideal S64x16 .f32) (x6 : Vec Ideal S1x16 .f32)
    (x7 : Vec Ideal S16x16 .f32) (x8 : Vec Ideal S1x16 .f32) (x9 : Vec Ideal S16x64 .f32) (x10 : Vec Ideal S1x64 .f32) :
    out0_11 (F := Ideal) x0 x1 x2 x3 x4 x5 x6 x7 x8 x9 x10 = tail (pre3 x0 x1 x2 x3 x4 x5) x6 x7 x8 x9 x10 := by
  unfold out0_11
  rw [View.canon_unit_zero hz]
  simp only [View.ld_unit_zero (S := S8000x64) hz, View.ld_unit_zero (S := S64x16) hz, View.ld_unit_zero (S := S1x16) hz,
    View.ld_unit_zero (S := S16x16) hz, View.ld_unit_zero (S := S16x64) hz, View.ld_unit_zero (S := S1x64) hz]
  exact edge_payload x0 x1 x2 x3 x4 x5 x6 x7 x8 x9 x10

/-- What the node kernel's one store leaves in the output block, from the blocks it loads whole. -/
theorem out1_9_eq (x0 x1 : Vec Ideal S10000x64 .f32) (x2 x3 : Vec Ideal S64x16 .f32) (x4 : Vec Ideal S1x16 .f32)
    (x5 : Vec Ideal S16x16 .f32) (x6 : Vec Ideal S1x16 .f32) (x7 : Vec Ideal S16x64 .f32) (x8 : Vec Ideal S1x64 .f32) :
    out1_9 (F := Ideal) x0 x1 x2 x3 x4 x5 x6 x7 x8 = tail (pre2 x0 x1 x2 x3) x4 x5 x6 x7 x8 := by
  unfold out1_9
  rw [View.canon_unit_zero hz]
  simp only [View.ld_unit_zero (S := S10000x64) hz, View.ld_unit_zero (S := S64x16) hz, View.ld_unit_zero (S := S1x16) hz,
    View.ld_unit_zero (S := S16x16) hz, View.ld_unit_zero (S := S16x64) hz, View.ld_unit_zero (S := S1x64) hz]
  exact node_payload x0 x1 x2 x3 x4 x5 x6 x7 x8

end Cert.KernelIdeal.Tiles

end
-- ==== Proof.Region0.lean ====
/-
  The edge kernel's output array after its grid has run, as one function of the arrays the region finds.

  The grid has 125 points; point t reads rows 8000 t … 8000 t + 7999 of the three row-tiled inputs (edge features,
  gathered source rows, gathered destination rows) and all of each weight and bias array, and writes rows
  8000 t … 8000 t + 7999 of the output. Every entry of the network's result depends on its own row of the inputs only,
  so what point t writes is rows 8000 t … of the network applied to the whole arrays, and the 125 blocks cover the
  output: the array ends holding `tail (pre3 e hs hd w1e w1s w1d) b1 w2 b2 w3 b3` of the whole arrays.
-/
import proofs.«169925_j12309376270349_1_alg».proof.Proof.KernelTiles

set_option maxRecDepth 16384

noncomputable section

namespace Cert.KernelIdeal.Region0

open Idealize.ShloMosaic Idealize.ShloMosaic.ValueIdx Idealize.ShloMosaic.TcCoe Cert.KernelIdeal Cert.KernelIdeal.Gen
open RowLayers RowBias MlpRows Cert.KernelIdeal.Tiles
open Idealize.ShloMosaic.Pipeline (Dat Cfg Window)

variable (V : (c : Dev nD) → (b : Ref sig .tc) → Buf (Elt Ideal) ((c : Thread nD τ).loc b))

/-- The network of the edge stage applied to the whole arrays as the region finds them. -/
def edgeOut (c : Dev nD) : S1000000x64.Idx → EReal :=
  tail (pre3 (V c main_arg1 : S1000000x64.Idx → EReal) (V c main_v6 : S1000000x64.Idx → EReal) (V c main_v13 : S1000000x64.Idx → EReal)
      (V c main_v14 : S64x16.Idx → EReal) (V c main_v15 : S64x16.Idx → EReal) (V c main_v16 : S64x16.Idx → EReal))
    (V c main_v17 : S1x16.Idx → EReal) (V c main_arg6 : S16x16.Idx → EReal) (V c main_v18 : S1x16.Idx → EReal)
    (V c main_arg8 : S16x64.Idx → EReal) (V c main_v19 : S1x64.Idx → EReal)

/-! ## The printed index maps over the grid: the row-tiled windows sit at block (t, 0), the others at block (0, 0) -/

theorem idx_rows0 : ∀ t : Fin cfg0.N, win0_0.index t (0 : Fin 2) = t.val ∧ win0_0.index t (1 : Fin 2) = 0 :=
  (by decide +kernel : ∀ t : Fin grid0.N, _)
theorem idx_rows1 : ∀ t : Fin cfg0.N, win0_1.index t (0 : Fin 2) = t.val ∧ win0_1.index t (1 : Fin 2) = 0 :=
  (by decide +kernel : ∀ t : Fin grid0.N, _)
theorem idx_rows2 : ∀ t : Fin cfg0.N, win0_2.index t (0 : Fin 2) = t.val ∧ win0_2.index t (1 : Fin 2) = 0 :=
  (by decide +kernel : ∀ t : Fin grid0.N, _)
theorem idx_rows11 : ∀ t : Fin cfg0.N, win0_11.index t (0 : Fin 2) = t.val ∧ win0_11.index t (1 : Fin 2) = 0 :=
  (by decide +kernel : ∀ t : Fin grid0.N, _)
theorem idx_whole3 : ∀ t : Fin cfg0.N, win0_3.index t (0 : Fin 2) = 0 ∧ win0_3.index t (1 : Fin 2) = 0 :=
  (by decide +kernel : ∀ t : Fin grid0.N, _)
theorem idx_whole4 : ∀ t : Fin cfg0.N, win0_4.index t (0 : Fin 2) = 0 ∧ win0_4.index t (1 : Fin 2) = 0 :=
  (by decide +kernel : ∀ t : Fin grid0.N, _)
theorem idx_whole5 : ∀ t : Fin cfg0.N, win0_5.index t (0 : Fin 2) = 0 ∧ win0_5.index t (1 : Fin 2) = 0 :=
  (by decide +kernel : ∀ t : Fin grid0.N, _)
theorem idx_whole6 : ∀ t : Fin cfg0.N, win0_6.index t (0 : Fin 2) = 0 ∧ win0_6.index t (1 : Fin 2) = 0 :=
  (by decide +kernel : ∀ t : Fin grid0.N, _)
theorem idx_whole7 : ∀ t : Fin cfg0.N, win0_7.index t (0 : Fin 2) = 0 ∧ win0_7.index t (1 : Fin 2) = 0 :=
  (by decide +kernel : ∀ t : Fin grid0.N, _)
theorem idx_whole8 : ∀ t : Fin cfg0.N, win0_8.index t (0 : Fin 2) = 0 ∧ win0_8.index t (1 : Fin 2) = 0 :=
  (by decide +kernel : ∀ t : Fin grid0.N, _)
theorem idx_whole9 : ∀ t : Fin cfg0.N, win0_9.index t (0 : Fin 2) = 0 ∧ win0_9.index t (1 : Fin 2) = 0 :=
  (by decide +kernel : ∀ t : Fin grid0.N, _)
theorem idx_whole10 : ∀ t : Fin cfg0.N, win0_10.index t (0 : Fin 2) = 0 ∧ win0_10.index t (1 : Fin 2) = 0 :=
  (by decide +kernel : ∀ t : Fin grid0.N, _)

/-! ## A row-tiled input window's block at point t, at (p, k), is the array at (8000 t + p, k) -/

theorem rows0 (c : Dev nD) (t : Fin cfg0.N) (p : Fin 8000) (k : Fin 64) (n : Fin 1000000) (hn : n.val = 8000 * t.val + p.val) :
    (iblk0 V c 0 t : Vec Ideal S8000x64 .f32) (ix2 p k) = (V c main_arg1 : S1000000x64.Idx → EReal) (ix2 n k) := by
  obtain ⟨e0, e1⟩ := idx_rows0 t
  unfold iblk0
  rw [View.read_apply]
  show V c main_arg1 _ = V c main_arg1 _
  congr 1
  funext a
  apply Fin.ext
  match a with
  | ⟨0, _⟩ => show win0_0.index t (0 : Fin 2) * 8000 + 1 * p.val = n.val; rw [e0, hn]; omega
  | ⟨1, _⟩ => show win0_0.index t (1 : Fin 2) * 64 + 1 * k.val = k.val; rw [e1]; omega

theorem rows1 (c : Dev nD) (t : Fin cfg0.N) (p : Fin 8000) (k : Fin 64) (n : Fin 1000000) (hn : n.val = 8000 * t.val + p.val) :
    (iblk0 V c 1 t : Vec Ideal S8000x64 .f32) (ix2 p k) = (V c main_v6 : S1000000x64.Idx → EReal) (ix2 n k) := by
  obtain ⟨e0, e1⟩ := idx_rows1 t
  unfold iblk0
  rw [View.read_apply]
  show V c main_v6 _ = V c main_v6 _
  congr 1
  funext a
  apply Fin.ext
  match a with
  | ⟨0, _⟩ => show win0_1.index t (0 : Fin 2) * 8000 + 1 * p.val = n.val; rw [e0, hn]; omega
  | ⟨1, _⟩ => show win0_1.index t (1 : Fin 2) * 64 + 1 * k.val = k.val; rw [e1]; omega

theorem rows2 (c : Dev nD) (t : Fin cfg0.N) (p : Fin 8000) (k : Fin 64) (n : Fin 1000000) (hn : n.val = 8000 * t.val + p.val) :
    (iblk0 V c 2 t : Vec Ideal S8000x64 .f32) (ix2 p k) = (V c main_v13 : S1000000x64.Idx → EReal) (ix2 n k) := by
  obtain ⟨e0, e1⟩ := idx_rows2 t
  unfold iblk0
  rw [View.read_apply]
  show V c main_v13 _ = V c main_v13 _
  congr 1
  funext a
  apply Fin.ext
  match a with
  | ⟨0, _⟩ => show win0_2.index t (0 : Fin 2) * 8000 + 1 * p.val = n.val; rw [e0, hn]; omega
  | ⟨1, _⟩ => show win0_2.index t (1 : Fin 2) * 64 + 1 * k.val = k.val; rw [e1]; omega

/-! ## A weight or bias window's block at any point is the whole array -/

theorem whole3 (c : Dev nD) (t : Fin cfg0.N) :
    (iblk0 V c 3 t : Vec Ideal S64x16 .f32) = (V c main_v14 : S64x16.Idx → EReal) := by
  obtain ⟨e0, e1⟩ := idx_whole3 t
  unfold iblk0
  funext x
  rw [View.read_apply]
  show V c main_v14 _ = V c main_v14 x
  congr 1
  funext a
  apply Fin.ext
  match a with
  | ⟨0, _⟩ => show win0_3.index t (0 : Fin 2) * 64 + 1 * (x 0).val = (x 0).val; rw [e0]; omega
  | ⟨1, _⟩ => show win0_3.index t (1 : Fin 2) * 16 + 1 * (x 1).val = (x 1).val; rw [e1]; omega

theorem whole4 (c : Dev nD) (t : Fin cfg0.N) :
    (iblk0 V c 4 t : Vec Ideal S64x16 .f32) = (V c main_v15 : S64x16.Idx → EReal) := by
  obtain ⟨e0, e1⟩ := idx_whole4 t
  unfold iblk0
  funext x
  rw [View.read_apply]
  show V c main_v15 _ = V c main_v15 x
  congr 1
  funext a
  apply Fin.ext
  match a with
  | ⟨0, _⟩ => show win0_4.index t (0 : Fin 2) * 64 + 1 * (x 0).val = (x 0).val; rw [e0]; omega
  | ⟨1, _⟩ => show win0_4.index t (1 : Fin 2) * 16 + 1 * (x 1).val = (x 1).val; rw [e1]; omega

theorem whole5 (c : Dev nD) (t : Fin cfg0.N) :
    (iblk0 V c 5 t : Vec Ideal S64x16 .f32) = (V c main_v16 : S64x16.Idx → EReal) := by
  obtain ⟨e0, e1⟩ := idx_whole5 t
  unfold iblk0
  funext x
  rw [View.read_apply]
  show V c main_v16 _ = V c main_v16 x
  congr 1
  funext a
  apply Fin.ext
  match a with
  | ⟨0, _⟩ => show win0_5.index t (0 : Fin 2) * 64 + 1 * (x 0).val = (x 0).val; rw [e0]; omega
  | ⟨1, _⟩ => show win0_5.index t (1 : Fin 2) * 16 + 1 * (x 1).val = (x 1).val; rw [e1]; omega

theorem whole6 (c : Dev nD) (t : Fin cfg0.N) :
    (iblk0 V c 6 t : Vec Ideal S1x16 .f32) = (V c main_v17 : S1x16.Idx → EReal) := by
  obtain ⟨e0, e1⟩ := idx_whole6 t
  unfold iblk0
  funext x
  rw [View.read_apply]
  show V c main_v17 _ = V c main_v17 x
  congr 1
  funext a
  apply Fin.ext
  match a with
  | ⟨0, _⟩ => show win0_6.index t (0 : Fin 2) * 1 + 1 * (x 0).val = (x 0).val; rw [e0]; omega
  | ⟨1, _⟩ => show win0_6.index t (1 : Fin 2) * 16 + 1 * (x 1).val = (x 1).val; rw [e1]; omega

theorem whole7 (c : Dev nD) (t : Fin cfg0.N) :
    (iblk0 V c 7 t : Vec Ideal S16x16 .f32) = (V c main_arg6 : S16x16.Idx → EReal) := by
  obtain ⟨e0, e1⟩ := idx_whole7 t
  unfold iblk0
  funext x
  rw [View.read_apply]
  show V c main_arg6 _ = V c main_arg6 x
  congr 1
  funext a
  apply Fin.ext
  match a with
  | ⟨0, _⟩ => show win0_7.index t (0 : Fin 2) * 16 + 1 * (x 0).val = (x 0).val; rw [e0]; omega
  | ⟨1, _⟩ => show win0_7.index t (1 : Fin 2) * 16 + 1 * (x 1).val = (x 1).val; rw [e1]; omega

theorem whole8 (c : Dev nD) (t : Fin cfg0.N) :
    (iblk0 V c 8 t : Vec Ideal S1x16 .f32) = (V c main_v18 : S1x16.Idx → EReal) := by
  obtain ⟨e0, e1⟩ := idx_whole8 t
  unfold iblk0
  funext x
  rw [View.read_apply]
  show V c main_v18 _ = V c main_v18 x
  congr 1
  funext a
  apply Fin.ext
  match a with
  | ⟨0, _⟩ => show win0_8.index t (0 : Fin 2) * 1 + 1 * (x 0).val = (x 0).val; rw [e0]; omega
  | ⟨1, _⟩ => show win0_8.index t (1 : Fin 2) * 16 + 1 * (x 1).val = (x 1).val; rw [e1]; omega

theorem whole9 (c : Dev nD) (t : Fin cfg0.N) :
    (iblk0 V c 9 t : Vec Ideal S16x64 .f32) = (V c main_arg8 : S16x64.Idx → EReal) := by
  obtain ⟨e0, e1⟩ := idx_whole9 t
  unfold iblk0
  funext x
  rw [View.read_apply]
  show V c main_arg8 _ = V c main_arg8 x
  congr 1
  funext a
  apply Fin.ext
  match a with
  | ⟨0, _⟩ => show win0_9.index t (0 : Fin 2) * 16 + 1 * (x 0).val = (x 0).val; rw [e0]; omega
  | ⟨1, _⟩ => show win0_9.index t (1 : Fin 2) * 64 + 1 * (x 1).val = (x 1).val; rw [e1]; omega

theorem whole10 (c : Dev nD) (t : Fin cfg0.N) :
    (iblk0 V c 10 t : Vec Ideal S1x64 .f32) = (V c main_v19 : S1x64.Idx → EReal) := by
  obtain ⟨e0, e1⟩ := idx_whole10 t
  unfold iblk0
  funext x
  rw [View.read_apply]
  show V c main_v19 _ = V c main_v19 x
  congr 1
  funext a
  apply Fin.ext
  match a with
  | ⟨0, _⟩ => show win0_10.index t (0 : Fin 2) * 1 + 1 * (x 0).val = (x 0).val; rw [e0]; omega
  | ⟨1, _⟩ => show win0_10.index t (1 : Fin 2) * 64 + 1 * (x 1).val = (x 1).val; rw [e1]; omega

/-! ## What a point writes back, and the array after the grid -/

/-- Point t writes back rows 8000 t … 8000 t + 7999 of the network applied to the whole arrays. -/
theorem flushed_eq (c : Dev nD) (t : Fin cfg0.N) :
    (dat0 V c).flushed 11 t = ((cfg0.win 11).blk t).view.read (Elt Ideal) (edgeOut V c) := by
  show (cfg0.win 11).cut (grid0.coords t) ((dat0 V c).after 11 t) = _
  rw [after0_11, out0_11_eq, whole3 V c t, whole4 V c t, whole5 V c t, whole6 V c t, whole7 V c t, whole8 V c t,
    whole9 V c t, whole10 V c t]
  funext y
  obtain ⟨p, q, rfl⟩ : ∃ (p : Fin 8000) (q : Fin 64), y = ix2 p q := ⟨y 0, y 1, eq_ix2 y⟩
  obtain ⟨e0, e1⟩ := idx_rows11 t
  have hN : cfg0.N = 125 := N_0
  have hn : 8000 * t.val + p.val < 1000000 := by have := t.isLt; have := p.isLt; omega
  rw [View.read_apply]
  have he : ((cfg0.win 11).blk t).view.emb (ix2 p q) = ix2 (⟨8000 * t.val + p.val, hn⟩ : Fin 1000000) q := by
    funext a
    apply Fin.ext
    match a with
    | ⟨0, _⟩ => show win0_11.index t (0 : Fin 2) * 8000 + 1 * p.val = 8000 * t.val + p.val; rw [e0]; omega
    | ⟨1, _⟩ => show win0_11.index t (1 : Fin 2) * 64 + 1 * q.val = q.val; rw [e1]; omega
  rw [he]
  unfold edgeOut
  refine tail_rows _ _ _ _ _ _ _ p ⟨_, hn⟩ q fun k => ?_
  exact pre3_rows _ _ _ _ _ _ _ _ _ p ⟨_, hn⟩ k (fun k' => rows0 V c t p k' _ rfl) (fun k' => rows1 V c t p k' _ rfl)
    (fun k' => rows2 V c t p k' _ rfl)

/-- An index of the output array is in point t's block iff each coordinate is in the block's range on its axis. -/
theorem mem_blk (t : Fin cfg0.N) (i : S1000000x64.Idx) :
    i ∈ ((cfg0.win 11).blk t).view.set ↔ ∀ a : Fin 2, win0_11.index t a * S8000x64.size a ≤ (i a).val ∧ (i a).val < win0_11.index t a * S8000x64.size a + S8000x64.size a := by
  show i ∈ ((View.whole main_v20).slice (win0_11.rect t)).set ↔ _
  rw [View.set_slice_whole, Rect.mem_set_unit]
  exact Iff.rfl

/-- Row r of the output array is in the block of point r / 8000. -/
theorem cover (i : S1000000x64.Idx) : ∃ t : Fin cfg0.N, (cfg0.win 11).flush t = true ∧ i ∈ ((cfg0.win 11).blk t).view.set := by
  have hN : cfg0.N = 125 := N_0
  have hi0 : (i 0).val < 1000000 := (i 0).isLt
  have hi1 : (i 1).val < 64 := (i 1).isLt
  refine ⟨⟨(i 0).val / 8000, by omega⟩, flush0_11 _, ?_⟩
  rw [mem_blk]
  obtain ⟨e0, e1⟩ := idx_rows11 ⟨(i 0).val / 8000, by omega⟩
  intro a
  match a with
  | ⟨0, _⟩ => show win0_11.index _ (0 : Fin 2) * 8000 ≤ (i 0).val ∧ (i 0).val < win0_11.index _ (0 : Fin 2) * 8000 + 8000; rw [e0]; show (i 0).val / 8000 * 8000 ≤ (i 0).val ∧ (i 0).val < (i 0).val / 8000 * 8000 + 8000; omega
  | ⟨1, _⟩ => show win0_11.index _ (1 : Fin 2) * 64 ≤ (i 1).val ∧ (i 1).val < win0_11.index _ (1 : Fin 2) * 64 + 64; rw [e1]; omega

/-- The edge kernel's output array after its grid: the network applied to the whole arrays the region finds. -/
theorem final (c : Dev nD) : (dat0 V c).arrAt 11 cfg0.N = edgeOut V c :=
  (dat0 V c).arrAt_eq_of_cover 11 (edgeOut V c) (fun t _ => flushed_eq V c t) (cover)

end Cert.KernelIdeal.Region0

end
-- ==== Proof.Region1.lean ====
/-
  The node kernel's output array after its grid has run, as one function of the arrays the region finds.

  The grid has 10 points; point t reads rows 10000 t … 10000 t + 9999 of the node features and of the aggregated edge
  messages and all of each weight and bias array, and writes the same rows of the output. Every entry of the network's
  result depends on its own row of the two inputs only, so what point t writes is those rows of the network applied to
  the whole arrays, and the 10 blocks cover the output: the array ends holding
  `tail (pre2 n hN w1n w1h) b1 w2 b2 w3 b3` of the whole arrays.
-/
import proofs.«169925_j12309376270349_1_alg».proof.Proof.KernelTiles

set_option maxRecDepth 16384

noncomputable section

namespace Cert.KernelIdeal.Region1

open Idealize.ShloMosaic Idealize.ShloMosaic.ValueIdx Idealize.ShloMosaic.TcCoe Cert.KernelIdeal Cert.KernelIdeal.Gen
open RowLayers RowBias MlpRows Cert.KernelIdeal.Tiles
open Idealize.ShloMosaic.Pipeline (Dat Cfg Window)

variable (V : (c : Dev nD) → (b : Ref sig .tc) → Buf (Elt Ideal) ((c : Thread nD τ).loc b))

/-- The network of the node stage applied to the whole arrays as the region finds them. -/
def nodeOut (c : Dev nD) : S100000x64.Idx → EReal :=
  tail (pre2 (V c main_arg0 : S100000x64.Idx → EReal) (V c main_v31 : S100000x64.Idx → EReal)
      (V c main_v32 : S64x16.Idx → EReal) (V c main_v33 : S64x16.Idx → EReal))
    (V c main_v34 : S1x16.Idx → EReal) (V c main_arg12 : S16x16.Idx → EReal) (V c main_v35 : S1x16.Idx → EReal)
    (V c main_arg14 : S16x64.Idx → EReal) (V c main_v36 : S1x64.Idx → EReal)

/-! ## The printed index maps over the grid: the row-tiled windows sit at block (t, 0), the others at block (0, 0) -/

theorem idx_rows0 : ∀ t : Fin cfg1.N, win1_0.index t (0 : Fin 2) = t.val ∧ win1_0.index t (1 : Fin 2) = 0 :=
  (by decide +kernel : ∀ t : Fin grid1.N, _)
theorem idx_rows1 : ∀ t : Fin cfg1.N, win1_1.index t (0 : Fin 2) = t.val ∧ win1_1.index t (1 : Fin 2) = 0 :=
  (by decide +kernel : ∀ t : Fin grid1.N, _)
theorem idx_rows9 : ∀ t : Fin cfg1.N, win1_9.index t (0 : Fin 2) = t.val ∧ win1_9.index t (1 : Fin 2) = 0 :=
  (by decide +kernel : ∀ t : Fin grid1.N, _)
theorem idx_whole2 : ∀ t : Fin cfg1.N, win1_2.index t (0 : Fin 2) = 0 ∧ win1_2.index t (1 : Fin 2) = 0 :=
  (by decide +kernel : ∀ t : Fin grid1.N, _)
theorem idx_whole3 : ∀ t : Fin cfg1.N, win1_3.index t (0 : Fin 2) = 0 ∧ win1_3.index t (1 : Fin 2) = 0 :=
  (by decide +kernel : ∀ t : Fin grid1.N, _)
theorem idx_whole4 : ∀ t : Fin cfg1.N, win1_4.index t (0 : Fin 2) = 0 ∧ win1_4.index t (1 : Fin 2) = 0 :=
  (by decide +kernel : ∀ t : Fin grid1.N, _)
theorem idx_whole5 : ∀ t : Fin cfg1.N, win1_5.index t (0 : Fin 2) = 0 ∧ win1_5.index t (1 : Fin 2) = 0 :=
  (by decide +kernel : ∀ t : Fin grid1.N, _)
theorem idx_whole6 : ∀ t : Fin cfg1.N, win1_6.index t (0 : Fin 2) = 0 ∧ win1_6.index t (1 : Fin 2) = 0 :=
  (by decide +kernel : ∀ t : Fin grid1.N, _)
theorem idx_whole7 : ∀ t : Fin cfg1.N, win1_7.index t (0 : Fin 2) = 0 ∧ win1_7.index t (1 : Fin 2) = 0 :=
  (by decide +kernel : ∀ t : Fin grid1.N, _)
theorem idx_whole8 : ∀ t : Fin cfg1.N, win1_8.index t (0 : Fin 2) = 0 ∧ win1_8.index t (1 : Fin 2) = 0 :=
  (by decide +kernel : ∀ t : Fin grid1.N, _)

/-! ## A row-tiled input window's block at point t, at (p, k), is the array at (10000 t + p, k) -/

theorem rows0 (c : Dev nD) (t : Fin cfg1.N) (p : Fin 10000) (k : Fin 64) (n : Fin 100000) (hn : n.val = 10000 * t.val + p.val) :
    (iblk1 V c 0 t : Vec Ideal S10000x64 .f32) (ix2 p k) = (V c main_arg0 : S100000x64.Idx → EReal) (ix2 n k) := by
  obtain ⟨e0, e1⟩ := idx_rows0 t
  unfold iblk1
  rw [View.read_apply]
  show V c main_arg0 _ = V c main_arg0 _
  congr 1
  funext a
  apply Fin.ext
  match a with
  | ⟨0, _⟩ => show win1_0.index t (0 : Fin 2) * 10000 + 1 * p.val = n.val; rw [e0, hn]; omega
  | ⟨1, _⟩ => show win1_0.index t (1 : Fin 2) * 64 + 1 * k.val = k.val; rw [e1]; omega

theorem rows1 (c : Dev nD) (t : Fin cfg1.N) (p : Fin 10000) (k : Fin 64) (n : Fin 100000) (hn : n.val = 10000 * t.val + p.val) :
    (iblk1 V c 1 t : Vec Ideal S10000x64 .f32) (ix2 p k) = (V c main_v31 : S100000x64.Idx → EReal) (ix2 n k) := by
  obtain ⟨e0, e1⟩ := idx_rows1 t
  unfold iblk1
  rw [View.read_apply]
  show V c main_v31 _ = V c main_v31 _
  congr 1
  funext a
  apply Fin.ext
  match a with
  | ⟨0, _⟩ => show win1_1.index t (0 : Fin 2) * 10000 + 1 * p.val = n.val; rw [e0, hn]; omega
  | ⟨1, _⟩ => show win1_1.index t (1 : Fin 2) * 64 + 1 * k.val = k.val; rw [e1]; omega

/-! ## A weight or bias window's block at any point is the whole array -/

theorem whole2 (c : Dev nD) (t : Fin cfg1.N) :
    (iblk1 V c 2 t : Vec Ideal S64x16 .f32) = (V c main_v32 : S64x16.Idx → EReal) := by
  obtain ⟨e0, e1⟩ := idx_whole2 t
  unfold iblk1
  funext x
  rw [View.read_apply]
  show V c main_v32 _ = V c main_v32 x
  congr 1
  funext a
  apply Fin.ext
  match a with
  | ⟨0, _⟩ => show win1_2.index t (0 : Fin 2) * 64 + 1 * (x 0).val = (x 0).val; rw [e0]; omega
  | ⟨1, _⟩ => show win1_2.index t (1 : Fin 2) * 16 + 1 * (x 1).val = (x 1).val; rw [e1]; omega

theorem whole3 (c : Dev nD) (t : Fin cfg1.N) :
    (iblk1 V c 3 t : Vec Ideal S64x16 .f32) = (V c main_v33 : S64x16.Idx → EReal) := by
  obtain ⟨e0, e1⟩ := idx_whole3 t
  unfold iblk1
  funext x
  rw [View.read_apply]
  show V c main_v33 _ = V c main_v33 x
  congr 1
  funext a
  apply Fin.ext
  match a with
  | ⟨0, _⟩ => show win1_3.index t (0 : Fin 2) * 64 + 1 * (x 0).val = (x 0).val; rw [e0]; omega
  | ⟨1, _⟩ => show win1_3.index t (1 : Fin 2) * 16 + 1 * (x 1).val = (x 1).val; rw [e1]; omega

theorem whole4 (c : Dev nD) (t : Fin cfg1.N) :
    (iblk1 V c 4 t : Vec Ideal S1x16 .f32) = (V c main_v34 : S1x16.Idx → EReal) := by
  obtain ⟨e0, e1⟩ := idx_whole4 t
  unfold iblk1
  funext x
  rw [View.read_apply]
  show V c main_v34 _ = V c main_v34 x
  congr 1
  funext a
  apply Fin.ext
  match a with
  | ⟨0, _⟩ => show win1_4.index t (0 : Fin 2) * 1 + 1 * (x 0).val = (x 0).val; rw [e0]; omega
  | ⟨1, _⟩ => show win1_4.index t (1 : Fin 2) * 16 + 1 * (x 1).val = (x 1).val; rw [e1]; omega

theorem whole5 (c : Dev nD) (t : Fin cfg1.N) :
    (iblk1 V c 5 t : Vec Ideal S16x16 .f32) = (V c main_arg12 : S16x16.Idx → EReal) := by
  obtain ⟨e0, e1⟩ := idx_whole5 t
  unfold iblk1
  funext x
  rw [View.read_apply]
  show V c main_arg12 _ = V c main_arg12 x
  congr 1
  funext a
  apply Fin.ext
  match a with
  | ⟨0, _⟩ => show win1_5.index t (0 : Fin 2) * 16 + 1 * (x 0).val = (x 0).val; rw [e0]; omega
  | ⟨1, _⟩ => show win1_5.index t (1 : Fin 2) * 16 + 1 * (x 1).val = (x 1).val; rw [e1]; omega

theorem whole6 (c : Dev nD) (t : Fin cfg1.N) :
    (iblk1 V c 6 t : Vec Ideal S1x16 .f32) = (V c main_v35 : S1x16.Idx → EReal) := by
  obtain ⟨e0, e1⟩ := idx_whole6 t
  unfold iblk1
  funext x
  rw [View.read_apply]
  show V c main_v35 _ = V c main_v35 x
  congr 1
  funext a
  apply Fin.ext
  match a with
  | ⟨0, _⟩ => show win1_6.index t (0 : Fin 2) * 1 + 1 * (x 0).val = (x 0).val; rw [e0]; omega
  | ⟨1, _⟩ => show win1_6.index t (1 : Fin 2) * 16 + 1 * (x 1).val = (x 1).val; rw [e1]; omega

theorem whole7 (c : Dev nD) (t : Fin cfg1.N) :
    (iblk1 V c 7 t : Vec Ideal S16x64 .f32) = (V c main_arg14 : S16x64.Idx → EReal) := by
  obtain ⟨e0, e1⟩ := idx_whole7 t
  unfold iblk1
  funext x
  rw [View.read_apply]
  show V c main_arg14 _ = V c main_arg14 x
  congr 1
  funext a
  apply Fin.ext
  match a with
  | ⟨0, _⟩ => show win1_7.index t (0 : Fin 2) * 16 + 1 * (x 0).val = (x 0).val; rw [e0]; omega
  | ⟨1, _⟩ => show win1_7.index t (1 : Fin 2) * 64 + 1 * (x 1).val = (x 1).val; rw [e1]; omega

theorem whole8 (c : Dev nD) (t : Fin cfg1.N) :
    (iblk1 V c 8 t : Vec Ideal S1x64 .f32) = (V c main_v36 : S1x64.Idx → EReal) := by
  obtain ⟨e0, e1⟩ := idx_whole8 t
  unfold iblk1
  funext x
  rw [View.read_apply]
  show V c main_v36 _ = V c main_v36 x
  congr 1
  funext a
  apply Fin.ext
  match a with
  | ⟨0, _⟩ => show win1_8.index t (0 : Fin 2) * 1 + 1 * (x 0).val = (x 0).val; rw [e0]; omega
  | ⟨1, _⟩ => show win1_8.index t (1 : Fin 2) * 64 + 1 * (x 1).val = (x 1).val; rw [e1]; omega

/-! ## What a point writes back, and the array after the grid -/

/-- Point t writes back rows 10000 t … 10000 t + 9999 of the network applied to the whole arrays. -/
theorem flushed_eq (c : Dev nD) (t : Fin cfg1.N) :
    (dat1 V c).flushed 9 t = ((cfg1.win 9).blk t).view.read (Elt Ideal) (nodeOut V c) := by
  show (cfg1.win 9).cut (grid1.coords t) ((dat1 V c).after 9 t) = _
  rw [after1_9, out1_9_eq, whole2 V c t, whole3 V c t, whole4 V c t, whole5 V c t, whole6 V c t, whole7 V c t, whole8 V c t]
  funext y
  obtain ⟨p, q, rfl⟩ : ∃ (p : Fin 10000) (q : Fin 64), y = ix2 p q := ⟨y 0, y 1, eq_ix2 y⟩
  obtain ⟨e0, e1⟩ := idx_rows9 t
  have hN : cfg1.N = 10 := N_1
  have hn : 10000 * t.val + p.val < 100000 := by have := t.isLt; have := p.isLt; omega
  rw [View.read_apply]
  have he : ((cfg1.win 9).blk t).view.emb (ix2 p q) = ix2 (⟨10000 * t.val + p.val, hn⟩ : Fin 100000) q := by
    funext a
    apply Fin.ext
    match a with
    | ⟨0, _⟩ => show win1_9.index t (0 : Fin 2) * 10000 + 1 * p.val = 10000 * t.val + p.val; rw [e0]; omega
    | ⟨1, _⟩ => show win1_9.index t (1 : Fin 2) * 64 + 1 * q.val = q.val; rw [e1]; omega
  rw [he]
  unfold nodeOut
  refine tail_rows _ _ _ _ _ _ _ p ⟨_, hn⟩ q fun k => ?_
  exact pre2_rows _ _ _ _ _ _ p ⟨_, hn⟩ k (fun k' => rows0 V c t p k' _ rfl) (fun k' => rows1 V c t p k' _ rfl)

/-- An index of the output array is in point t's block iff each coordinate is in the block's range on its axis. -/
theorem mem_blk (t : Fin cfg1.N) (i : S100000x64.Idx) :
    i ∈ ((cfg1.win 9).blk t).view.set ↔ ∀ a : Fin 2, win1_9.index t a * S10000x64.size a ≤ (i a).val ∧ (i a).val < win1_9.index t a * S10000x64.size a + S10000x64.size a := by
  show i ∈ ((View.whole main_v37).slice (win1_9.rect t)).set ↔ _
  rw [View.set_slice_whole, Rect.mem_set_unit]
  exact Iff.rfl

/-- Row r of the output array is in the block of point r / 10000. -/
theorem cover (i : S100000x64.Idx) : ∃ t : Fin cfg1.N, (cfg1.win 9).flush t = true ∧ i ∈ ((cfg1.win 9).blk t).view.set := by
  have hN : cfg1.N = 10 := N_1
  have hi0 : (i 0).val < 100000 := (i 0).isLt
  have hi1 : (i 1).val < 64 := (i 1).isLt
  refine ⟨⟨(i 0).val / 10000, by omega⟩, flush1_9 _, ?_⟩
  rw [mem_blk]
  obtain ⟨e0, e1⟩ := idx_rows9 ⟨(i 0).val / 10000, by omega⟩
  intro a
  match a with
  | ⟨0, _⟩ => show win1_9.index _ (0 : Fin 2) * 10000 ≤ (i 0).val ∧ (i 0).val < win1_9.index _ (0 : Fin 2) * 10000 + 10000; rw [e0]; show (i 0).val / 10000 * 10000 ≤ (i 0).val ∧ (i 0).val < (i 0).val / 10000 * 10000 + 10000; omega
  | ⟨1, _⟩ => show win1_9.index _ (1 : Fin 2) * 64 ≤ (i 1).val ∧ (i 1).val < win1_9.index _ (1 : Fin 2) * 64 + 64; rw [e1]; omega

/-- The node kernel's output array after its grid: the network applied to the whole arrays the region finds. -/
theorem final (c : Dev nD) : (dat1 V c).arrAt 9 cfg1.N = nodeOut V c :=
  (dat1 V c).arrAt_eq_of_cover 9 (nodeOut V c) (fun t _ => flushed_eq V c t) (cover)

end Cert.KernelIdeal.Region1

end
-- ==== Proof.HostChains.lean ====
/-
  The host operations around the two kernels, as named functions of the argument arrays.

  `gatherRows x idx` is x[idx] as jax lowers it: an index below zero has the number of rows added (the usual negative
  indexing), the indices are made a column, and the rows are gathered. `meanAgg e dst` is the mean of the edge results
  over each destination node: the rows of e scatter-added into zeros at dst, divided by the larger of one and the count
  of edges with that destination (ones scatter-added into zeros at dst), the count spread over the columns.
  Both are used only as whole functions: the kernel's program and the reference apply the same operations, so the proof
  never looks inside them.
-/
import proofs.«169925_j12309376270349_1_alg».proof.Proof.Gen.KernelIdeal

noncomputable section

namespace Cert.KernelIdeal.Chains

open Idealize.ShloMosaic Cert.KernelIdeal Cert.KernelIdeal.Gen

variable {F : FTy → Type} [FloatOps F]

/-- x[idx], rows of a [100000, 64] table at 1000000 indices, negative indices counted from the end. -/
def gatherRows (x : (⟨S100000x64, .f32⟩ : BufTy).Contents (Elt F)) (idx : (⟨S1000000, .i32⟩ : BufTy).Contents (Elt F)) :
    (⟨S1000000x64, .f32⟩ : BufTy).Contents (Elt F) :=
  Host.gather gather_S100000x64_S1000000x1_S1000000x64_1_0_n_n_0_1_164 x
    (broadcastInDim S1000000x1 ![0] bcast_S1000000_S1000000x1_0
      (select (cmpi .slt idx (broadcastInDim S1000000 ![] bcast_S_S1000000 (constantI S_ 32 0#32)))
        (addi idx (broadcastInDim S1000000 ![] bcast_S_S1000000 (constantI S_ 32 100000#32))) idx))

/-- The mean over incoming edges: segment sums of the edge results divided by max (segment counts) 1. -/
def meanAgg (e : (⟨S1000000x64, .f32⟩ : BufTy).Contents (Elt F)) (dst : (⟨S1000000, .i32⟩ : BufTy).Contents (Elt F)) :
    (⟨S100000x64, .f32⟩ : BufTy).Contents (Elt F) :=
  Host.divf
    (Host.scatterAdd scatter_S100000x64_S1000000x1_S1000000x64_1_0_0_1
      (broadcastInDim S100000x64 ![] bcast_S_S100000x64 (constant S_ .f32 0x00000000#32))
      (broadcastInDim S1000000x1 ![0] bcast_S1000000_S1000000x1_0 dst) e)
    (broadcastInDim S100000x64 ![0, 1] bcast_S100000x1_S100000x64_0_1
      (maximumf
        (Host.scatterAdd scatter_S100000x1_S1000000x1_S1000000x1_1_0_0_1
          (broadcastInDim S100000x1 ![] bcast_S_S100000x1 (constant S_ .f32 0x00000000#32))
          (broadcastInDim S1000000x1 ![0] bcast_S1000000_S1000000x1_0 dst)
          (broadcastInDim S1000000x1 ![] bcast_S_S1000000x1 (constant S_ .f32 0x3F800000#32)))
        (broadcastInDim S100000x1 ![] bcast_S_S100000x1 (constant S_ .f32 0x3F800000#32))))

end Cert.KernelIdeal.Chains

end
-- ==== Proof.HostReads.lean ====
/-
  What each kernel's grid finds in the arrays it reads, in terms of the argument arrays at launch.

  Before the edge kernel the host gathers the source and destination rows of the node features, cuts the first weight
  matrix into its three bands of 64 rows and makes each bias a one-row array; an argument the kernel reads directly is
  as launched. Between the two kernels the host forms the mean of the edge results over each destination node from the
  edge kernel's output array, cuts the node network's first weight matrix into two bands and makes its biases rows.
  No host operation and no grid writes an argument array.
-/
import proofs.«169925_j12309376270349_1_alg».proof.Proof.Gen.KernelIdeal.Frame
import proofs.«169925_j12309376270349_1_alg».proof.Proof.HostChains

set_option maxRecDepth 16384

noncomputable section

namespace Cert.KernelIdeal.Reads

open Idealize.ShloMosaic Idealize.ShloMosaic.TcCoe Idealize.ShloMosaic.StableHlo Idealize.SL.Sem
open Cert.KernelIdeal Cert.KernelIdeal.Gen Cert.KernelIdeal.Chains

variable {F : FTy → Type} [FloatOps F]
variable (m : (ℓ : Loc nD τ sig) → Buf (Elt F) ℓ) (ρ : Dev nD → PrngReg)

/-! ## The first region's entry contents -/

theorem V1_arg1 (c : Dev nD) : (V1 m ρ c main_arg1 : (⟨S1000000x64, .f32⟩ : BufTy).Contents (Elt F))
    = m ((c : Thread nD τ).loc main_arg1) := by
  show StableHlo.after hostOps0 (W0 m ρ c) (Proc.devRef .tc main_arg1) = _
  after_results_simp <;> rfl

theorem V1_v6 (c : Dev nD) : (V1 m ρ c main_v6 : (⟨S1000000x64, .f32⟩ : BufTy).Contents (Elt F))
    = gatherRows (m ((c : Thread nD τ).loc main_arg0)) (m ((c : Thread nD τ).loc main_arg2)) := by
  show StableHlo.after hostOps0 (W0 m ρ c) (Proc.devRef .tc main_v6) = _
  after_results_simp <;> rfl

theorem V1_v13 (c : Dev nD) : (V1 m ρ c main_v13 : (⟨S1000000x64, .f32⟩ : BufTy).Contents (Elt F))
    = gatherRows (m ((c : Thread nD τ).loc main_arg0)) (m ((c : Thread nD τ).loc main_arg3)) := by
  show StableHlo.after hostOps0 (W0 m ρ c) (Proc.devRef .tc main_v13) = _
  after_results_simp <;> rfl

theorem V1_v14 (c : Dev nD) : (V1 m ρ c main_v14 : (⟨S64x16, .f32⟩ : BufTy).Contents (Elt F))
    = extractStridedSlice S64x16 ![0, 0] (m ((c : Thread nD τ).loc main_arg4)) slices_S192x16_S64x16_0_0 := by
  show StableHlo.after hostOps0 (W0 m ρ c) (Proc.devRef .tc main_v14) = _
  after_results_simp <;> rfl

theorem V1_v15 (c : Dev nD) : (V1 m ρ c main_v15 : (⟨S64x16, .f32⟩ : BufTy).Contents (Elt F))
    = extractStridedSlice S64x16 ![64, 0] (m ((c : Thread nD τ).loc main_arg4)) slices_S192x16_S64x16_64_0 := by
  show StableHlo.after hostOps0 (W0 m ρ c) (Proc.devRef .tc main_v15) = _
  after_results_simp <;> rfl

theorem V1_v16 (c : Dev nD) : (V1 m ρ c main_v16 : (⟨S64x16, .f32⟩ : BufTy).Contents (Elt F))
    = extractStridedSlice S64x16 ![128, 0] (m ((c : Thread nD τ).loc main_arg4)) slices_S192x16_S64x16_128_0 := by
  show StableHlo.after hostOps0 (W0 m ρ c) (Proc.devRef .tc main_v16) = _
  after_results_simp <;> rfl

theorem V1_v17 (c : Dev nD) : (V1 m ρ c main_v17 : (⟨S1x16, .f32⟩ : BufTy).Contents (Elt F))
    = shapeCast S1x16 (m ((c : Thread nD τ).loc main_arg5)) shapeCasts_S16_S1x16 := by
  show StableHlo.after hostOps0 (W0 m ρ c) (Proc.devRef .tc main_v17) = _
  after_results_simp <;> rfl

theorem V1_arg6 (c : Dev nD) : (V1 m ρ c main_arg6 : (⟨S16x16, .f32⟩ : BufTy).Contents (Elt F))
    = m ((c : Thread nD τ).loc main_arg6) := by
  show StableHlo.after hostOps0 (W0 m ρ c) (Proc.devRef .tc main_arg6) = _
  after_results_simp <;> rfl

theorem V1_v18 (c : Dev nD) : (V1 m ρ c main_v18 : (⟨S1x16, .f32⟩ : BufTy).Contents (Elt F))
    = shapeCast S1x16 (m ((c : Thread nD τ).loc main_arg7)) shapeCasts_S16_S1x16 := by
  show StableHlo.after hostOps0 (W0 m ρ c) (Proc.devRef .tc main_v18) = _
  after_results_simp <;> rfl

theorem V1_arg8 (c : Dev nD) : (V1 m ρ c main_arg8 : (⟨S16x64, .f32⟩ : BufTy).Contents (Elt F))
    = m ((c : Thread nD τ).loc main_arg8) := by
  show StableHlo.after hostOps0 (W0 m ρ c) (Proc.devRef .tc main_arg8) = _
  after_results_simp <;> rfl

theorem V1_v19 (c : Dev nD) : (V1 m ρ c main_v19 : (⟨S1x64, .f32⟩ : BufTy).Contents (Elt F))
    = shapeCast S1x64 (m ((c : Thread nD τ).loc main_arg9)) shapeCasts_S64_S1x64 := by
  show StableHlo.after hostOps0 (W0 m ρ c) (Proc.devRef .tc main_v19) = _
  after_results_simp <;> rfl

/-! ## An argument array is as launched when the first region is left -/

theorem W2_main_arg0 (c : Dev nD) : W2 m ρ c (Proc.devRef .tc main_arg0) = m ((c : Thread nD τ).loc main_arg0) :=
  (W2_of_ne m ρ c main_arg0 (by decide)).trans
    ((StableHlo.after_of_forall_not_mem (b := Proc.devRef .tc main_arg0) _ _ (List.forall_iff_forall_mem.mp (by
      simp only [hostOps0, List.flatten_cons, List.flatten_nil, List.append_nil, List.cons_append,
      List.nil_append, List.Forall, StableHlo.nullary_writes, StableHlo.unary_writes, StableHlo.binary_writes, StableHlo.ternary_writes,
      StableHlo.quaternary_writes, StableHlo.reshape_writes, StableHlo.binaryIndexed_writes, Finset.mem_singleton]
      repeat' apply And.intro
      all_goals exact StableHlo.devRef_ne_of_ne (by decide)))).trans rfl)

theorem W2_main_arg3 (c : Dev nD) : W2 m ρ c (Proc.devRef .tc main_arg3) = m ((c : Thread nD τ).loc main_arg3) :=
  (W2_of_ne m ρ c main_arg3 (by decide)).trans
    ((StableHlo.after_of_forall_not_mem (b := Proc.devRef .tc main_arg3) _ _ (List.forall_iff_forall_mem.mp (by
      simp only [hostOps0, List.flatten_cons, List.flatten_nil, List.append_nil, List.cons_append,
      List.nil_append, List.Forall, StableHlo.nullary_writes, StableHlo.unary_writes, StableHlo.binary_writes, StableHlo.ternary_writes,
      StableHlo.quaternary_writes, StableHlo.reshape_writes, StableHlo.binaryIndexed_writes, Finset.mem_singleton]
      repeat' apply And.intro
      all_goals exact StableHlo.devRef_ne_of_ne (by decide)))).trans rfl)

theorem W2_main_arg10 (c : Dev nD) : W2 m ρ c (Proc.devRef .tc main_arg10) = m ((c : Thread nD τ).loc main_arg10) :=
  (W2_of_ne m ρ c main_arg10 (by decide)).trans
    ((StableHlo.after_of_forall_not_mem (b := Proc.devRef .tc main_arg10) _ _ (List.forall_iff_forall_mem.mp (by
      simp only [hostOps0, List.flatten_cons, List.flatten_nil, List.append_nil, List.cons_append,
      List.nil_append, List.Forall, StableHlo.nullary_writes, StableHlo.unary_writes, StableHlo.binary_writes, StableHlo.ternary_writes,
      StableHlo.quaternary_writes, StableHlo.reshape_writes, StableHlo.binaryIndexed_writes, Finset.mem_singleton]
      repeat' apply And.intro
      all_goals exact StableHlo.devRef_ne_of_ne (by decide)))).trans rfl)

theorem W2_main_arg11 (c : Dev nD) : W2 m ρ c (Proc.devRef .tc main_arg11) = m ((c : Thread nD τ).loc main_arg11) :=
  (W2_of_ne m ρ c main_arg11 (by decide)).trans
    ((StableHlo.after_of_forall_not_mem (b := Proc.devRef .tc main_arg11) _ _ (List.forall_iff_forall_mem.mp (by
      simp only [hostOps0, List.flatten_cons, List.flatten_nil, List.append_nil, List.cons_append,
      List.nil_append, List.Forall, StableHlo.nullary_writes, StableHlo.unary_writes, StableHlo.binary_writes, StableHlo.ternary_writes,
      StableHlo.quaternary_writes, StableHlo.reshape_writes, StableHlo.binaryIndexed_writes, Finset.mem_singleton]
      repeat' apply And.intro
      all_goals exact StableHlo.devRef_ne_of_ne (by decide)))).trans rfl)

theorem W2_main_arg12 (c : Dev nD) : W2 m ρ c (Proc.devRef .tc main_arg12) = m ((c : Thread nD τ).loc main_arg12) :=
  (W2_of_ne m ρ c main_arg12 (by decide)).trans
    ((StableHlo.after_of_forall_not_mem (b := Proc.devRef .tc main_arg12) _ _ (List.forall_iff_forall_mem.mp (by
      simp only [hostOps0, List.flatten_cons, List.flatten_nil, List.append_nil, List.cons_append,
      List.nil_append, List.Forall, StableHlo.nullary_writes, StableHlo.unary_writes, StableHlo.binary_writes, StableHlo.ternary_writes,
      StableHlo.quaternary_writes, StableHlo.reshape_writes, StableHlo.binaryIndexed_writes, Finset.mem_singleton]
      repeat' apply And.intro
      all_goals exact StableHlo.devRef_ne_of_ne (by decide)))).trans rfl)

theorem W2_main_arg13 (c : Dev nD) : W2 m ρ c (Proc.devRef .tc main_arg13) = m ((c : Thread nD τ).loc main_arg13) :=
  (W2_of_ne m ρ c main_arg13 (by decide)).trans
    ((StableHlo.after_of_forall_not_mem (b := Proc.devRef .tc main_arg13) _ _ (List.forall_iff_forall_mem.mp (by
      simp only [hostOps0, List.flatten_cons, List.flatten_nil, List.append_nil, List.cons_append,
      List.nil_append, List.Forall, StableHlo.nullary_writes, StableHlo.unary_writes, StableHlo.binary_writes, StableHlo.ternary_writes,
      StableHlo.quaternary_writes, StableHlo.reshape_writes, StableHlo.binaryIndexed_writes, Finset.mem_singleton]
      repeat' apply And.intro
      all_goals exact StableHlo.devRef_ne_of_ne (by decide)))).trans rfl)

theorem W2_main_arg14 (c : Dev nD) : W2 m ρ c (Proc.devRef .tc main_arg14) = m ((c : Thread nD τ).loc main_arg14) :=
  (W2_of_ne m ρ c main_arg14 (by decide)).trans
    ((StableHlo.after_of_forall_not_mem (b := Proc.devRef .tc main_arg14) _ _ (List.forall_iff_forall_mem.mp (by
      simp only [hostOps0, List.flatten_cons, List.flatten_nil, List.append_nil, List.cons_append,
      List.nil_append, List.Forall, StableHlo.nullary_writes, StableHlo.unary_writes, StableHlo.binary_writes, StableHlo.ternary_writes,
      StableHlo.quaternary_writes, StableHlo.reshape_writes, StableHlo.binaryIndexed_writes, Finset.mem_singleton]
      repeat' apply And.intro
      all_goals exact StableHlo.devRef_ne_of_ne (by decide)))).trans rfl)

theorem W2_main_arg15 (c : Dev nD) : W2 m ρ c (Proc.devRef .tc main_arg15) = m ((c : Thread nD τ).loc main_arg15) :=
  (W2_of_ne m ρ c main_arg15 (by decide)).trans
    ((StableHlo.after_of_forall_not_mem (b := Proc.devRef .tc main_arg15) _ _ (List.forall_iff_forall_mem.mp (by
      simp only [hostOps0, List.flatten_cons, List.flatten_nil, List.append_nil, List.cons_append,
      List.nil_append, List.Forall, StableHlo.nullary_writes, StableHlo.unary_writes, StableHlo.binary_writes, StableHlo.ternary_writes,
      StableHlo.quaternary_writes, StableHlo.reshape_writes, StableHlo.binaryIndexed_writes, Finset.mem_singleton]
      repeat' apply And.intro
      all_goals exact StableHlo.devRef_ne_of_ne (by decide)))).trans rfl)

/-! ## The second region's entry contents, over the contents the first region leaves -/

theorem V3_arg0_W2 (c : Dev nD) : (V3 m ρ c main_arg0 : (⟨S100000x64, .f32⟩ : BufTy).Contents (Elt F))
    = W2 m ρ c (Proc.devRef .tc main_arg0) := by
  show StableHlo.after hostOps1 (W2 m ρ c) (Proc.devRef .tc main_arg0) = _
  after_results_simp <;> rfl

theorem V3_v31_W2 (c : Dev nD) : (V3 m ρ c main_v31 : (⟨S100000x64, .f32⟩ : BufTy).Contents (Elt F))
    = meanAgg (W2 m ρ c (Proc.devRef .tc main_v20)) (W2 m ρ c (Proc.devRef .tc main_arg3)) := by
  show StableHlo.after hostOps1 (W2 m ρ c) (Proc.devRef .tc main_v31) = _
  after_results_simp <;> rfl

theorem V3_v32_W2 (c : Dev nD) : (V3 m ρ c main_v32 : (⟨S64x16, .f32⟩ : BufTy).Contents (Elt F))
    = extractStridedSlice S64x16 ![0, 0] (W2 m ρ c (Proc.devRef .tc main_arg10)) slices_S128x16_S64x16_0_0 := by
  show StableHlo.after hostOps1 (W2 m ρ c) (Proc.devRef .tc main_v32) = _
  after_results_simp <;> rfl

theorem V3_v33_W2 (c : Dev nD) : (V3 m ρ c main_v33 : (⟨S64x16, .f32⟩ : BufTy).Contents (Elt F))
    = extractStridedSlice S64x16 ![64, 0] (W2 m ρ c (Proc.devRef .tc main_arg10)) slices_S128x16_S64x16_64_0 := by
  show StableHlo.after hostOps1 (W2 m ρ c) (Proc.devRef .tc main_v33) = _
  after_results_simp <;> rfl

theorem V3_v34_W2 (c : Dev nD) : (V3 m ρ c main_v34 : (⟨S1x16, .f32⟩ : BufTy).Contents (Elt F))
    = shapeCast S1x16 (W2 m ρ c (Proc.devRef .tc main_arg11)) shapeCasts_S16_S1x16 := by
  show StableHlo.after hostOps1 (W2 m ρ c) (Proc.devRef .tc main_v34) = _
  after_results_simp <;> rfl

theorem V3_arg12_W2 (c : Dev nD) : (V3 m ρ c main_arg12 : (⟨S16x16, .f32⟩ : BufTy).Contents (Elt F))
    = W2 m ρ c (Proc.devRef .tc main_arg12) := by
  show StableHlo.after hostOps1 (W2 m ρ c) (Proc.devRef .tc main_arg12) = _
  after_results_simp <;> rfl

theorem V3_v35_W2 (c : Dev nD) : (V3 m ρ c main_v35 : (⟨S1x16, .f32⟩ : BufTy).Contents (Elt F))
    = shapeCast S1x16 (W2 m ρ c (Proc.devRef .tc main_arg13)) shapeCasts_S16_S1x16 := by
  show StableHlo.after hostOps1 (W2 m ρ c) (Proc.devRef .tc main_v35) = _
  after_results_simp <;> rfl

theorem V3_arg14_W2 (c : Dev nD) : (V3 m ρ c main_arg14 : (⟨S16x64, .f32⟩ : BufTy).Contents (Elt F))
    = W2 m ρ c (Proc.devRef .tc main_arg14) := by
  show StableHlo.after hostOps1 (W2 m ρ c) (Proc.devRef .tc main_arg14) = _
  after_results_simp <;> rfl

theorem V3_v36_W2 (c : Dev nD) : (V3 m ρ c main_v36 : (⟨S1x64, .f32⟩ : BufTy).Contents (Elt F))
    = shapeCast S1x64 (W2 m ρ c (Proc.devRef .tc main_arg15)) shapeCasts_S64_S1x64 := by
  show StableHlo.after hostOps1 (W2 m ρ c) (Proc.devRef .tc main_v36) = _
  after_results_simp <;> rfl

/-! ## The second region's entry contents, over the launch contents and the first region's output array -/

theorem V3_arg0 (c : Dev nD) : (V3 m ρ c main_arg0 : (⟨S100000x64, .f32⟩ : BufTy).Contents (Elt F))
    = m ((c : Thread nD τ).loc main_arg0) := by
  rw [V3_arg0_W2 m ρ c, W2_main_arg0]

theorem V3_v31 (c : Dev nD) : (V3 m ρ c main_v31 : (⟨S100000x64, .f32⟩ : BufTy).Contents (Elt F))
    = meanAgg ((dat0 (V1 m ρ) c).arrAt 11 cfg0.N) (m ((c : Thread nD τ).loc main_arg3)) := by
  rw [V3_v31_W2 m ρ c, W2_main_arg3, show W2 m ρ c (Proc.devRef .tc main_v20) = (dat0 (V1 m ρ) c).arrAt 11 cfg0.N from W2_arr m ρ c 11]

theorem V3_v32 (c : Dev nD) : (V3 m ρ c main_v32 : (⟨S64x16, .f32⟩ : BufTy).Contents (Elt F))
    = extractStridedSlice S64x16 ![0, 0] (m ((c : Thread nD τ).loc main_arg10)) slices_S128x16_S64x16_0_0 := by
  rw [V3_v32_W2 m ρ c, W2_main_arg10]

theorem V3_v33 (c : Dev nD) : (V3 m ρ c main_v33 : (⟨S64x16, .f32⟩ : BufTy).Contents (Elt F))
    = extractStridedSlice S64x16 ![64, 0] (m ((c : Thread nD τ).loc main_arg10)) slices_S128x16_S64x16_64_0 := by
  rw [V3_v33_W2 m ρ c, W2_main_arg10]

theorem V3_v34 (c : Dev nD) : (V3 m ρ c main_v34 : (⟨S1x16, .f32⟩ : BufTy).Contents (Elt F))
    = shapeCast S1x16 (m ((c : Thread nD τ).loc main_arg11)) shapeCasts_S16_S1x16 := by
  rw [V3_v34_W2 m ρ c, W2_main_arg11]

theorem V3_arg12 (c : Dev nD) : (V3 m ρ c main_arg12 : (⟨S16x16, .f32⟩ : BufTy).Contents (Elt F))
    = m ((c : Thread nD τ).loc main_arg12) := by
  rw [V3_arg12_W2 m ρ c, W2_main_arg12]

theorem V3_v35 (c : Dev nD) : (V3 m ρ c main_v35 : (⟨S1x16, .f32⟩ : BufTy).Contents (Elt F))
    = shapeCast S1x16 (m ((c : Thread nD τ).loc main_arg13)) shapeCasts_S16_S1x16 := by
  rw [V3_v35_W2 m ρ c, W2_main_arg13]

theorem V3_arg14 (c : Dev nD) : (V3 m ρ c main_arg14 : (⟨S16x64, .f32⟩ : BufTy).Contents (Elt F))
    = m ((c : Thread nD τ).loc main_arg14) := by
  rw [V3_arg14_W2 m ρ c, W2_main_arg14]

theorem V3_v36 (c : Dev nD) : (V3 m ρ c main_v36 : (⟨S1x64, .f32⟩ : BufTy).Contents (Elt F))
    = shapeCast S1x64 (m ((c : Thread nD τ).loc main_arg15)) shapeCasts_S64_S1x64 := by
  rw [V3_v36_W2 m ρ c, W2_main_arg15]

end Cert.KernelIdeal.Reads

end
-- ==== Proof.KernelValue.lean ====
/-
  The kernel program's two results as functions of its argument arrays.

  `edgeFn` is the edge stage: the three-layer network applied to each edge's features beside the features of its source
  and destination nodes, the first layer taken as three products with the 64-row bands of its weight matrix.
  `nodeFn` is the node stage: the same kind of network applied to each node's features beside the mean of the edge
  results over the edges that arrive at it, the first layer taken as two products. The run ends with the edge kernel's
  output array at `edgeFn` of the arguments and the node kernel's at `nodeFn` of the arguments and that edge result.
-/
import proofs.«169925_j12309376270349_1_alg».proof.Proof.KernelRun
import proofs.«169925_j12309376270349_1_alg».proof.Proof.Region0
import proofs.«169925_j12309376270349_1_alg».proof.Proof.Region1
import proofs.«169925_j12309376270349_1_alg».proof.Proof.HostReads

set_option maxRecDepth 16384

noncomputable section

namespace Cert.KernelIdeal.Closed

open Idealize.ShloMosaic Idealize.ShloMosaic.ValueIdx Idealize.ShloMosaic.TcCoe Idealize.SL.Sem
open Cert.KernelIdeal Cert.KernelIdeal.Gen Cert.KernelIdeal.Chains Cert.KernelIdeal.Reads
open RowLayers RowBias MlpRows

/-- The edge stage of the arguments: node features, edge features, source and destination indices, and the edge
    network's weights and biases. -/
def edgeFn (nf : S100000x64.Idx → EReal) (ef : S1000000x64.Idx → EReal)
    (src dst : (⟨S1000000, .i32⟩ : BufTy).Contents (Elt Ideal))
    (W1 : S192x16.Idx → EReal) (b1 : S16.Idx → EReal) (W2 : S16x16.Idx → EReal) (b2 : S16.Idx → EReal)
    (W3 : S16x64.Idx → EReal) (b3 : S64.Idx → EReal) : S1000000x64.Idx → EReal :=
  tail (pre3 ef (gatherRows (F := Ideal) nf src) (gatherRows (F := Ideal) nf dst)
      (extractStridedSlice S64x16 ![0, 0] W1 slices_S192x16_S64x16_0_0)
      (extractStridedSlice S64x16 ![64, 0] W1 slices_S192x16_S64x16_64_0)
      (extractStridedSlice S64x16 ![128, 0] W1 slices_S192x16_S64x16_128_0))
    (shapeCast S1x16 b1 shapeCasts_S16_S1x16) W2 (shapeCast S1x16 b2 shapeCasts_S16_S1x16) W3
    (shapeCast S1x64 b3 shapeCasts_S64_S1x64)

/-- The node stage of the node features, the edge stage's result, the destination indices, and the node network's
    weights and biases. -/
def nodeFn (nf : S100000x64.Idx → EReal) (e : S1000000x64.Idx → EReal)
    (dst : (⟨S1000000, .i32⟩ : BufTy).Contents (Elt Ideal))
    (W1 : S128x16.Idx → EReal) (b1 : S16.Idx → EReal) (W2 : S16x16.Idx → EReal) (b2 : S16.Idx → EReal)
    (W3 : S16x64.Idx → EReal) (b3 : S64.Idx → EReal) : S100000x64.Idx → EReal :=
  tail (pre2 nf (meanAgg (F := Ideal) e dst)
      (extractStridedSlice S64x16 ![0, 0] W1 slices_S128x16_S64x16_0_0)
      (extractStridedSlice S64x16 ![64, 0] W1 slices_S128x16_S64x16_64_0))
    (shapeCast S1x16 b1 shapeCasts_S16_S1x16) W2 (shapeCast S1x16 b2 shapeCasts_S16_S1x16) W3
    (shapeCast S1x64 b3 shapeCasts_S64_S1x64)

variable (m : (ℓ : Loc nD τ sig) → Buf (Elt Ideal) ℓ) (ρ : Dev nD → PrngReg)

/-- The edge stage of the launch contents of the arguments. -/
def edgeVal (c : Dev nD) : S1000000x64.Idx → EReal :=
  edgeFn (m ((c : Thread nD τ).loc main_arg0)) (m ((c : Thread nD τ).loc main_arg1)) (m ((c : Thread nD τ).loc main_arg2)) (m ((c : Thread nD τ).loc main_arg3)) (m ((c : Thread nD τ).loc main_arg4))
    (m ((c : Thread nD τ).loc main_arg5)) (m ((c : Thread nD τ).loc main_arg6)) (m ((c : Thread nD τ).loc main_arg7)) (m ((c : Thread nD τ).loc main_arg8)) (m ((c : Thread nD τ).loc main_arg9))

/-- The node stage of the launch contents of the arguments and the edge stage's result. -/
def nodeVal (c : Dev nD) : S100000x64.Idx → EReal :=
  nodeFn (m ((c : Thread nD τ).loc main_arg0)) (edgeVal m c) (m ((c : Thread nD τ).loc main_arg3)) (m ((c : Thread nD τ).loc main_arg10)) (m ((c : Thread nD τ).loc main_arg11))
    (m ((c : Thread nD τ).loc main_arg12)) (m ((c : Thread nD τ).loc main_arg13)) (m ((c : Thread nD τ).loc main_arg14)) (m ((c : Thread nD τ).loc main_arg15))

/-- What the first grid leaves in its output array. -/
theorem edge_final (c : Dev nD) : (dat0 (V1 m ρ) c).arrAt 11 cfg0.N = edgeVal m c := by
  rw [Region0.final (V1 m ρ) c]
  unfold Region0.edgeOut edgeVal edgeFn
  rw [V1_arg1 m ρ c, V1_v6 m ρ c, V1_v13 m ρ c, V1_v14 m ρ c, V1_v15 m ρ c, V1_v16 m ρ c, V1_v17 m ρ c, V1_arg6 m ρ c,
    V1_v18 m ρ c, V1_arg8 m ρ c, V1_v19 m ρ c]

/-- What the second grid leaves in its output array. -/
theorem node_final (c : Dev nD) : (dat1 (V3 m ρ) c).arrAt 9 cfg1.N = nodeVal m c := by
  rw [Region1.final (V3 m ρ) c]
  unfold Region1.nodeOut nodeVal nodeFn
  rw [V3_arg0 m ρ c, V3_v31 m ρ c, edge_final m ρ c, V3_v32 m ρ c, V3_v33 m ρ c, V3_v34 m ρ c, V3_arg12 m ρ c,
    V3_v35 m ρ c, V3_arg14 m ρ c, V3_v36 m ρ c]

/-- Every weakly fair execution of the kernel program terminates, nothing faulting, with the node stage's result and
    the edge stage's result at these functions of the launch contents of the arguments, and the arguments unchanged. -/
theorem run : θ_run defs (onTc (τ := τ) (main (F := Ideal))) ⟨m, fun _ => 0, ρ⟩ (fun r => ∀ c : Dev nD,
      r.2.mem ((c.tc : Thread nD τ).loc main_v37) = nodeVal m c
      ∧ r.2.mem ((c.tc : Thread nD τ).loc main_v20) = edgeVal m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) :=
  (θ_run defs _ _).mono
    (fun r h c => ⟨(h c).1.trans (node_final m ρ c), (h c).2.1.trans (edge_final m ρ c), (h c).2.2⟩)
    (Cert.KernelIdeal.Run.run m ρ)

end Cert.KernelIdeal.Closed

end
-- ==== Proof.LibMlpHost.lean ====
/-
  The host's spelling of the three-layer perceptron over a row-wise concatenation, for any extents.

  The host concatenates its inputs along the columns, x = [a | b | c] (or [a | b]), multiplies by the whole first
  weight matrix with dot_general, adds each bias as a vector made a one-row array and spread over the rows, clamps
  below at a zero scalar spread over the array, and writes the logistic function as 1 / (1 + exp (-x)). As a whole
  array that is `tail` of the sum of the pieces' products with the matrix's bands of rows: `tail (pre3 a b c w_a w_b w_c)
  b1 w2 b2 w3 b3`, the bands cut out of the matrix by unit-stride slices at row offsets 0, D and D + D, each bias a
  vector reshaped to one row. The one law used is that a sum over D + D + D positions is the sum of its thirds.
-/
import proofs.«169925_j12309376270349_1_alg».proof.Proof.LibMlpRows

noncomputable section

namespace MlpRows

open Idealize.ShloMosaic Idealize.ShloMosaic.ValueIdx RowLayers RowBias
open scoped BigOperators

/-- A slice of D rows of a [K, L] matrix at row offset o, at (k, q), is the matrix at (o + k, q). -/
theorem band_apply {K D L : Nat} (o : Nat) (w : (⟨2, ![K, L]⟩ : Shape).Idx → EReal)
    (h : (⟨2, ![K, L]⟩ : Shape).Slices ![o, 0] ⟨2, ![D, L]⟩) (k : Fin D) (q : Fin L) (n : Fin K) (hn : n.val = o + k.val) :
    extractStridedSlice ⟨2, ![D, L]⟩ ![o, 0] w h (ix2 k q) = w (ix2 n q) := by
  refine extractStridedSlice_apply ![o, 0] w h (ix2 k q) (ix2 n q) fun a => ?_
  match a with
  | ⟨0, _⟩ => exact hn
  | ⟨1, _⟩ => show q.val = 0 + q.val; omega

/-- Piece number `i` (0, 1 or 2) of a three-piece concatenation along the columns, at (p, k), read at column
    i · D + k of the whole. -/
theorem cat3_apply {α : Type} {N D K : Nat} (a b c : (⟨2, ![N, D]⟩ : Shape).Idx → α)
    (h : Shape.Concatenates [(⟨2, ![N, D]⟩ : Shape), ⟨2, ![N, D]⟩, ⟨2, ![N, D]⟩] ⟨2, ![N, K]⟩ (1 : Fin 2))
    (p : Fin N) (k : Fin D) (n : Fin K) :
    (n.val = k.val → concatenate ⟨2, ![N, K]⟩ (1 : Fin 2) [⟨⟨2, ![N, D]⟩, a⟩, ⟨⟨2, ![N, D]⟩, b⟩, ⟨⟨2, ![N, D]⟩, c⟩] h (ix2 p n) = a (ix2 p k))
    ∧ (n.val = D + k.val → concatenate ⟨2, ![N, K]⟩ (1 : Fin 2) [⟨⟨2, ![N, D]⟩, a⟩, ⟨⟨2, ![N, D]⟩, b⟩, ⟨⟨2, ![N, D]⟩, c⟩] h (ix2 p n) = b (ix2 p k))
    ∧ (n.val = D + D + k.val → concatenate ⟨2, ![N, K]⟩ (1 : Fin 2) [⟨⟨2, ![N, D]⟩, a⟩, ⟨⟨2, ![N, D]⟩, b⟩, ⟨⟨2, ![N, D]⟩, c⟩] h (ix2 p n) = c (ix2 p k)) := by
  have hi : ∀ bb : Fin 2, bb.cast rfl ≠ (1 : Fin 2) → ((ix2 p k : (⟨2, ![N, D]⟩ : Shape).Idx) bb).val = ((ix2 p n : (⟨2, ![N, K]⟩ : Shape).Idx) (bb.cast rfl)).val := by
    intro bb hb
    match bb with
    | ⟨0, _⟩ => rfl
    | ⟨1, _⟩ => exact absurd rfl hb
  refine ⟨fun hn => ?_, fun hn => ?_, fun hn => ?_⟩
  · exact concatenate_apply_piece (t := ⟨2, ![N, K]⟩) (1 : Fin 2) [⟨⟨2, ![N, D]⟩, a⟩, ⟨⟨2, ![N, D]⟩, b⟩, ⟨⟨2, ![N, D]⟩, c⟩] h (ix2 p n) 0 (by show (0 : Nat) < 3; omega) _ a rfl rfl 0 rfl (ix2 p k) hi
      (by show 0 + k.val = n.val; omega)
  · exact concatenate_apply_piece (t := ⟨2, ![N, K]⟩) (1 : Fin 2) [⟨⟨2, ![N, D]⟩, a⟩, ⟨⟨2, ![N, D]⟩, b⟩, ⟨⟨2, ![N, D]⟩, c⟩] h (ix2 p n) 1 (by show (1 : Nat) < 3; omega) _ b rfl rfl D (by simp) (ix2 p k) hi
      (by show D + k.val = n.val; omega)
  · exact concatenate_apply_piece (t := ⟨2, ![N, K]⟩) (1 : Fin 2) [⟨⟨2, ![N, D]⟩, a⟩, ⟨⟨2, ![N, D]⟩, b⟩, ⟨⟨2, ![N, D]⟩, c⟩] h (ix2 p n) 2 (by show (2 : Nat) < 3; omega) _ c rfl rfl (D + D) (by simp) (ix2 p k) hi
      (by show D + D + k.val = n.val; omega)

/-- The host's network over [a | b | c]. -/
theorem hostMlp_cat3 {N D K L C : Nat} (hK : K = D + D + D) (ob oc : Nat) (hob : D = ob) (hoc : D + D = oc)
    (d1 : DotDims ⟨2, ![N, K]⟩ ⟨2, ![K, L]⟩ ⟨2, ![N, L]⟩) (hd1 : d1 = DotDims.plain N K L)
    (d2 : DotDims ⟨2, ![N, L]⟩ ⟨2, ![L, L]⟩ ⟨2, ![N, L]⟩) (hd2 : d2 = DotDims.plain N L L)
    (d3 : DotDims ⟨2, ![N, L]⟩ ⟨2, ![L, C]⟩ ⟨2, ![N, C]⟩) (hd3 : d3 = DotDims.plain N L C)
    (hone1 hone2 : (⟨0, ![]⟩ : Shape).BroadcastsInDim ⟨2, ![N, C]⟩ (![] : Fin 0 → Fin 2))
    (hzL1 hzL2 : (⟨0, ![]⟩ : Shape).BroadcastsInDim ⟨2, ![N, L]⟩ (![] : Fin 0 → Fin 2))
    (hbL : (⟨2, ![1, L]⟩ : Shape).BroadcastsInDim ⟨2, ![N, L]⟩ (![0, 1] : Fin 2 → Fin 2))
    (hbC : (⟨2, ![1, C]⟩ : Shape).BroadcastsInDim ⟨2, ![N, C]⟩ (![0, 1] : Fin 2 → Fin 2))
    (hrL : (⟨1, ![L]⟩ : Shape).BroadcastsInDim ⟨2, ![1, L]⟩ (![1] : Fin 1 → Fin 2))
    (hrC : (⟨1, ![C]⟩ : Shape).BroadcastsInDim ⟨2, ![1, C]⟩ (![1] : Fin 1 → Fin 2))
    (hcL : (⟨1, ![L]⟩ : Shape).ShapeCasts ⟨2, ![1, L]⟩) (hcC : (⟨1, ![C]⟩ : Shape).ShapeCasts ⟨2, ![1, C]⟩)
    (hcat : Shape.Concatenates [(⟨2, ![N, D]⟩ : Shape), ⟨2, ![N, D]⟩, ⟨2, ![N, D]⟩] ⟨2, ![N, K]⟩ (1 : Fin 2))
    (hsa : (⟨2, ![K, L]⟩ : Shape).Slices ![0, 0] ⟨2, ![D, L]⟩) (hsb : (⟨2, ![K, L]⟩ : Shape).Slices ![ob, 0] ⟨2, ![D, L]⟩)
    (hsc : (⟨2, ![K, L]⟩ : Shape).Slices ![oc, 0] ⟨2, ![D, L]⟩)
    (a b c : FVec Ideal ⟨2, ![N, D]⟩ .f32) (W1 : FVec Ideal ⟨2, ![K, L]⟩ .f32) (W2 : FVec Ideal ⟨2, ![L, L]⟩ .f32) (W3 : FVec Ideal ⟨2, ![L, C]⟩ .f32)
    (b1 b2 : FVec Ideal ⟨1, ![L]⟩ .f32) (b3 : FVec Ideal ⟨1, ![C]⟩ .f32) :
    Host.divf (broadcastInDim ⟨2, ![N, C]⟩ ![] hone1 (constant (F := Ideal) ⟨0, ![]⟩ .f32 0x3F800000#32))
      (addf (broadcastInDim ⟨2, ![N, C]⟩ ![] hone2 (constant (F := Ideal) ⟨0, ![]⟩ .f32 0x3F800000#32))
        (Host.exp (Host.negf
          (addf
            (Host.dotGeneral d3 none
              (maximumf
                (addf
                  (Host.dotGeneral d2 none
                    (maximumf
                      (addf (Host.dotGeneral d1 none (concatenate ⟨2, ![N, K]⟩ (1 : Fin 2) [⟨⟨2, ![N, D]⟩, a⟩, ⟨⟨2, ![N, D]⟩, b⟩, ⟨⟨2, ![N, D]⟩, c⟩] hcat) W1)
                        (broadcastInDim ⟨2, ![N, L]⟩ ![0, 1] hbL (broadcastInDim ⟨2, ![1, L]⟩ ![1] hrL b1)))
                      (broadcastInDim ⟨2, ![N, L]⟩ ![] hzL1 (constant (F := Ideal) ⟨0, ![]⟩ .f32 0x00000000#32)))
                    W2)
                  (broadcastInDim ⟨2, ![N, L]⟩ ![0, 1] hbL (broadcastInDim ⟨2, ![1, L]⟩ ![1] hrL b2)))
                (broadcastInDim ⟨2, ![N, L]⟩ ![] hzL2 (constant (F := Ideal) ⟨0, ![]⟩ .f32 0x00000000#32)))
              W3)
            (broadcastInDim ⟨2, ![N, C]⟩ ![0, 1] hbC (broadcastInDim ⟨2, ![1, C]⟩ ![1] hrC b3))))))
      = tail (pre3 a b c (extractStridedSlice ⟨2, ![D, L]⟩ ![0, 0] W1 hsa) (extractStridedSlice ⟨2, ![D, L]⟩ ![ob, 0] W1 hsb)
          (extractStridedSlice ⟨2, ![D, L]⟩ ![oc, 0] W1 hsc)) (shapeCast ⟨2, ![1, L]⟩ b1 hcL) W2 (shapeCast ⟨2, ![1, L]⟩ b2 hcL) W3 (shapeCast ⟨2, ![1, C]⟩ b3 hcC) := by
  subst hob hoc
  have hKa : ∀ k : Fin D, k.val < K := fun k => by have := k.isLt; omega
  have hKb : ∀ k : Fin D, D + k.val < K := fun k => by have := k.isLt; omega
  have hKc : ∀ k : Fin D, D + D + k.val < K := fun k => by have := k.isLt; omega
  rw [hostSigmoid, hostBiasAdd, hostDot d3 hd3, hostBiasRelu, hostDot d2 hd2, hostBiasRelu, hostDot d1 hd1,
    ← row_eq hcL hrL b1, ← row_eq hcL hrL b2, ← row_eq hcC hrC b3]
  rw [prod_cat3 hK _ a b c W1 (extractStridedSlice ⟨2, ![D, L]⟩ ![0, 0] W1 hsa) (extractStridedSlice ⟨2, ![D, L]⟩ ![D, 0] W1 hsb)
    (extractStridedSlice ⟨2, ![D, L]⟩ ![D + D, 0] W1 hsc)
    (fun k => ⟨k.val, hKa k⟩) (fun k => ⟨D + k.val, hKb k⟩) (fun k => ⟨D + D + k.val, hKc k⟩)
    (fun _ => rfl) (fun _ => rfl) (fun _ => rfl)
    (fun p k => (cat3_apply a b c hcat p k ⟨k.val, hKa k⟩).1 rfl)
    (fun p k => (cat3_apply a b c hcat p k ⟨D + k.val, hKb k⟩).2.1 rfl)
    (fun p k => (cat3_apply a b c hcat p k ⟨D + D + k.val, hKc k⟩).2.2 rfl)
    (fun k q => (band_apply 0 W1 hsa k q ⟨k.val, hKa k⟩ (by show k.val = 0 + k.val; omega)).symm)
    (fun k q => (band_apply D W1 hsb k q ⟨D + k.val, hKb k⟩ rfl).symm)
    (fun k q => (band_apply (D + D) W1 hsc k q ⟨D + D + k.val, hKc k⟩ rfl).symm)]
  rfl

/-- The host's network over [a | b]. -/
theorem hostMlp_cat2 {N D K L C : Nat} (hK : K = D + D) (ob : Nat) (hob : D = ob)
    (d1 : DotDims ⟨2, ![N, K]⟩ ⟨2, ![K, L]⟩ ⟨2, ![N, L]⟩) (hd1 : d1 = DotDims.plain N K L)
    (d2 : DotDims ⟨2, ![N, L]⟩ ⟨2, ![L, L]⟩ ⟨2, ![N, L]⟩) (hd2 : d2 = DotDims.plain N L L)
    (d3 : DotDims ⟨2, ![N, L]⟩ ⟨2, ![L, C]⟩ ⟨2, ![N, C]⟩) (hd3 : d3 = DotDims.plain N L C)
    (hone1 hone2 : (⟨0, ![]⟩ : Shape).BroadcastsInDim ⟨2, ![N, C]⟩ (![] : Fin 0 → Fin 2))
    (hzL1 hzL2 : (⟨0, ![]⟩ : Shape).BroadcastsInDim ⟨2, ![N, L]⟩ (![] : Fin 0 → Fin 2))
    (hbL : (⟨2, ![1, L]⟩ : Shape).BroadcastsInDim ⟨2, ![N, L]⟩ (![0, 1] : Fin 2 → Fin 2))
    (hbC : (⟨2, ![1, C]⟩ : Shape).BroadcastsInDim ⟨2, ![N, C]⟩ (![0, 1] : Fin 2 → Fin 2))
    (hrL : (⟨1, ![L]⟩ : Shape).BroadcastsInDim ⟨2, ![1, L]⟩ (![1] : Fin 1 → Fin 2))
    (hrC : (⟨1, ![C]⟩ : Shape).BroadcastsInDim ⟨2, ![1, C]⟩ (![1] : Fin 1 → Fin 2))
    (hcL : (⟨1, ![L]⟩ : Shape).ShapeCasts ⟨2, ![1, L]⟩) (hcC : (⟨1, ![C]⟩ : Shape).ShapeCasts ⟨2, ![1, C]⟩)
    (hcat : Shape.Concatenates [(⟨2, ![N, D]⟩ : Shape), ⟨2, ![N, D]⟩] ⟨2, ![N, K]⟩ (1 : Fin 2))
    (hsa : (⟨2, ![K, L]⟩ : Shape).Slices ![0, 0] ⟨2, ![D, L]⟩) (hsb : (⟨2, ![K, L]⟩ : Shape).Slices ![ob, 0] ⟨2, ![D, L]⟩)
    (a b : FVec Ideal ⟨2, ![N, D]⟩ .f32) (W1 : FVec Ideal ⟨2, ![K, L]⟩ .f32) (W2 : FVec Ideal ⟨2, ![L, L]⟩ .f32) (W3 : FVec Ideal ⟨2, ![L, C]⟩ .f32)
    (b1 b2 : FVec Ideal ⟨1, ![L]⟩ .f32) (b3 : FVec Ideal ⟨1, ![C]⟩ .f32) :
    Host.divf (broadcastInDim ⟨2, ![N, C]⟩ ![] hone1 (constant (F := Ideal) ⟨0, ![]⟩ .f32 0x3F800000#32))
      (addf (broadcastInDim ⟨2, ![N, C]⟩ ![] hone2 (constant (F := Ideal) ⟨0, ![]⟩ .f32 0x3F800000#32))
        (Host.exp (Host.negf
          (addf
            (Host.dotGeneral d3 none
              (maximumf
                (addf
                  (Host.dotGeneral d2 none
                    (maximumf
                      (addf (Host.dotGeneral d1 none (concatenate ⟨2, ![N, K]⟩ (1 : Fin 2) [⟨⟨2, ![N, D]⟩, a⟩, ⟨⟨2, ![N, D]⟩, b⟩] hcat) W1)
                        (broadcastInDim ⟨2, ![N, L]⟩ ![0, 1] hbL (broadcastInDim ⟨2, ![1, L]⟩ ![1] hrL b1)))
                      (broadcastInDim ⟨2, ![N, L]⟩ ![] hzL1 (constant (F := Ideal) ⟨0, ![]⟩ .f32 0x00000000#32)))
                    W2)
                  (broadcastInDim ⟨2, ![N, L]⟩ ![0, 1] hbL (broadcastInDim ⟨2, ![1, L]⟩ ![1] hrL b2)))
                (broadcastInDim ⟨2, ![N, L]⟩ ![] hzL2 (constant (F := Ideal) ⟨0, ![]⟩ .f32 0x00000000#32)))
              W3)
            (broadcastInDim ⟨2, ![N, C]⟩ ![0, 1] hbC (broadcastInDim ⟨2, ![1, C]⟩ ![1] hrC b3))))))
      = tail (pre2 a b (extractStridedSlice ⟨2, ![D, L]⟩ ![0, 0] W1 hsa) (extractStridedSlice ⟨2, ![D, L]⟩ ![ob, 0] W1 hsb))
          (shapeCast ⟨2, ![1, L]⟩ b1 hcL) W2 (shapeCast ⟨2, ![1, L]⟩ b2 hcL) W3 (shapeCast ⟨2, ![1, C]⟩ b3 hcC) := by
  subst hob
  have hKa : ∀ k : Fin D, k.val < K := fun k => by have := k.isLt; omega
  have hKb : ∀ k : Fin D, D + k.val < K := fun k => by have := k.isLt; omega
  rw [hostSigmoid, hostBiasAdd, hostDot d3 hd3, hostBiasRelu, hostDot d2 hd2, hostBiasRelu, hostDot d1 hd1,
    ← row_eq hcL hrL b1, ← row_eq hcL hrL b2, ← row_eq hcC hrC b3]
  rw [prod_cat2 hK _ a b W1 (extractStridedSlice ⟨2, ![D, L]⟩ ![0, 0] W1 hsa) (extractStridedSlice ⟨2, ![D, L]⟩ ![D, 0] W1 hsb)
    (fun k => ⟨k.val, hKa k⟩) (fun k => ⟨D + k.val, hKb k⟩) (fun _ => rfl) (fun _ => rfl)
    (fun p k => concatenate_pair_apply_left (1 : Fin 2) a b hcat (ix2 p ⟨k.val, hKa k⟩) rfl (ix2 p k) (fun bb => by
      match bb with
      | ⟨0, _⟩ => rfl
      | ⟨1, _⟩ => rfl))
    (fun p k => concatenate_pair_apply_right (1 : Fin 2) a b hcat (ix2 p ⟨D + k.val, hKb k⟩) rfl rfl (ix2 p k) (fun bb hb => by
      match bb with
      | ⟨0, _⟩ => rfl
      | ⟨1, _⟩ => exact absurd rfl hb) (by show k.val + D = D + k.val; omega))
    (fun k q => (band_apply 0 W1 hsa k q ⟨k.val, hKa k⟩ (by show k.val = 0 + k.val; omega)).symm)
    (fun k q => (band_apply D W1 hsb k q ⟨D + k.val, hKb k⟩ rfl).symm)]
  rfl

end MlpRows

end
-- ==== Proof.RefValue.lean ====
/-
  The reference's two results as the same functions of the arguments as the kernel program's.

  The reference concatenates each edge's features with its endpoints' node features, applies the three-layer network
  with the whole 192-row first weight matrix, aggregates the edge results to a mean per destination node, concatenates
  that with the node features and applies the second network with its whole 128-row first weight matrix. A product
  with a concatenation is the sum of the pieces' products with the matrix's bands of rows, so the edge result is
  `edgeFn` of the arguments and the node result is `nodeFn` of the arguments and that edge result: the functions the
  kernel program's two grids leave in its output arrays. The gather of endpoint rows and the mean over incoming edges
  are the same host operations in both programs and are never opened.
-/
import proofs.«169925_j12309376270349_1_alg».proof.Proof.Gen.ReferenceIdeal.Run
import proofs.«169925_j12309376270349_1_alg».proof.Proof.LibMlpHost
import proofs.«169925_j12309376270349_1_alg».proof.Proof.KernelValue

set_option maxRecDepth 16384

noncomputable section

namespace Cert.ReferenceIdeal.RefValue

open Idealize.ShloMosaic Idealize.ShloMosaic.ValueIdx Idealize.ShloMosaic.TcCoe Idealize.SL.Sem
open Cert.ReferenceIdeal Cert.ReferenceIdeal.Gen RowLayers RowBias MlpRows
open Cert.KernelIdeal.Closed (edgeFn nodeFn)

/-- The two programs print the same gather and scatter dimension numbers. -/
theorem gather_rec : gather_S100000x64_S1000000x1_S1000000x64_1_0_n_n_0_1_164
    = Cert.KernelIdeal.gather_S100000x64_S1000000x1_S1000000x64_1_0_n_n_0_1_164 := rfl
theorem scatter_rows_rec : scatter_S100000x64_S1000000x1_S1000000x64_1_0_0_1
    = Cert.KernelIdeal.scatter_S100000x64_S1000000x1_S1000000x64_1_0_0_1 := rfl
theorem scatter_ones_rec : scatter_S100000x1_S1000000x1_S1000000x1_1_0_0_1
    = Cert.KernelIdeal.scatter_S100000x1_S1000000x1_S1000000x1_1_0_0_1 := rfl

/-- The reference's edge result, as its run states it, is the edge stage of the arguments. -/
theorem edge_ref (nf : FVec Ideal S100000x64 .f32) (ef : FVec Ideal S1000000x64 .f32) (src dst : (⟨S1000000, .i32⟩ : BufTy).Contents (Elt Ideal))
    (W1 : FVec Ideal S192x16 .f32) (b1 : FVec Ideal S16 .f32) (W2 : FVec Ideal S16x16 .f32) (b2 : FVec Ideal S16 .f32)
    (W3 : FVec Ideal S16x64 .f32) (b3 : FVec Ideal S64 .f32) :
    (Host.divf (broadcastInDim S1000000x64 ![] bcast_S_S1000000x64 (constant S_ .f32 0x3F800000#32)) (addf (broadcastInDim S1000000x64 ![] bcast_S_S1000000x64 (constant S_ .f32 0x3F800000#32)) (Host.exp (Host.negf (addf (Host.dotGeneral dot_S1000000x16_S16x64_S1000000x64_1_0_0_1_n_n none (maximumf (addf (Host.dotGeneral dot_S1000000x16_S16x16_S1000000x16_1_0_0_1_n_n none (maximumf (addf (Host.dotGeneral dot_S1000000x192_S192x16_S1000000x16_1_0_0_1_n_n none (concatenate S1000000x192 1 [⟨S1000000x64, ef⟩, ⟨S1000000x64, (Host.gather gather_S100000x64_S1000000x1_S1000000x64_1_0_n_n_0_1_164 nf (broadcastInDim S1000000x1 ![0] bcast_S1000000_S1000000x1_0 (select (cmpi .slt src (broadcastInDim S1000000 ![] bcast_S_S1000000 (constantI S_ 32 0#32))) (addi src (broadcastInDim S1000000 ![] bcast_S_S1000000 (constantI S_ 32 100000#32))) src)))⟩, ⟨S1000000x64, (Host.gather gather_S100000x64_S1000000x1_S1000000x64_1_0_n_n_0_1_164 nf (broadcastInDim S1000000x1 ![0] bcast_S1000000_S1000000x1_0 (select (cmpi .slt dst (broadcastInDim S1000000 ![] bcast_S_S1000000 (constantI S_ 32 0#32))) (addi dst (broadcastInDim S1000000 ![] bcast_S_S1000000 (constantI S_ 32 100000#32))) dst)))⟩] concatenates_S1000000x64_S1000000x64_S1000000x64_S1000000x192_d1) W1) (broadcastInDim S1000000x16 ![0, 1] bcast_S1x16_S1000000x16_0_1 (broadcastInDim S1x16 ![1] bcast_S16_S1x16_1 b1))) (broadcastInDim S1000000x16 ![] bcast_S_S1000000x16 (constant S_ .f32 0x00000000#32))) W2) (broadcastInDim S1000000x16 ![0, 1] bcast_S1x16_S1000000x16_0_1 (broadcastInDim S1x16 ![1] bcast_S16_S1x16_1 b2))) (broadcastInDim S1000000x16 ![] bcast_S_S1000000x16 (constant S_ .f32 0x00000000#32))) W3) (broadcastInDim S1000000x64 ![0, 1] bcast_S1x64_S1000000x64_0_1 (broadcastInDim S1x64 ![1] bcast_S64_S1x64_1 b3)))))) : FVec Ideal S1000000x64 .f32)
      = edgeFn nf ef src dst W1 b1 W2 b2 W3 b3 :=
  (hostMlp_cat3 (N := 1000000) (D := 64) (K := 192) (L := 16) (C := 64) (hK := rfl) (ob := 64) (oc := 128) (hob := rfl) (hoc := rfl)
    (d1 := dot_S1000000x192_S192x16_S1000000x16_1_0_0_1_n_n) (hd1 := rfl)
    (d2 := dot_S1000000x16_S16x16_S1000000x16_1_0_0_1_n_n) (hd2 := rfl)
    (d3 := dot_S1000000x16_S16x64_S1000000x64_1_0_0_1_n_n) (hd3 := rfl)
    (hcL := Cert.KernelIdeal.Gen.shapeCasts_S16_S1x16) (hcC := Cert.KernelIdeal.Gen.shapeCasts_S64_S1x64)
    (hsa := Cert.KernelIdeal.Gen.slices_S192x16_S64x16_0_0) (hsb := Cert.KernelIdeal.Gen.slices_S192x16_S64x16_64_0)
    (hsc := Cert.KernelIdeal.Gen.slices_S192x16_S64x16_128_0) ..).trans (by
      unfold edgeFn Cert.KernelIdeal.Chains.gatherRows
      rw [gather_rec])

/-- The reference's node result over a given edge result, as its run states it, is the node stage. -/
theorem node_ref (nf : FVec Ideal S100000x64 .f32) (e : FVec Ideal S1000000x64 .f32) (dst : (⟨S1000000, .i32⟩ : BufTy).Contents (Elt Ideal))
    (W1 : FVec Ideal S128x16 .f32) (b1 : FVec Ideal S16 .f32) (W2 : FVec Ideal S16x16 .f32) (b2 : FVec Ideal S16 .f32)
    (W3 : FVec Ideal S16x64 .f32) (b3 : FVec Ideal S64 .f32) :
    (Host.divf (broadcastInDim S100000x64 ![] bcast_S_S100000x64 (constant S_ .f32 0x3F800000#32)) (addf (broadcastInDim S100000x64 ![] bcast_S_S100000x64 (constant S_ .f32 0x3F800000#32)) (Host.exp (Host.negf (addf (Host.dotGeneral dot_S100000x16_S16x64_S100000x64_1_0_0_1_n_n none (maximumf (addf (Host.dotGeneral dot_S100000x16_S16x16_S100000x16_1_0_0_1_n_n none (maximumf (addf (Host.dotGeneral dot_S100000x128_S128x16_S100000x16_1_0_0_1_n_n none (concatenate S100000x128 1 [⟨S100000x64, nf⟩, ⟨S100000x64, (Host.divf (Host.scatterAdd scatter_S100000x64_S1000000x1_S1000000x64_1_0_0_1 (broadcastInDim S100000x64 ![] bcast_S_S100000x64 (constant S_ .f32 0x00000000#32)) (broadcastInDim S1000000x1 ![0] bcast_S1000000_S1000000x1_0 dst) (e)) (broadcastInDim S100000x64 ![0, 1] bcast_S100000x1_S100000x64_0_1 (maximumf (Host.scatterAdd scatter_S100000x1_S1000000x1_S1000000x1_1_0_0_1 (broadcastInDim S100000x1 ![] bcast_S_S100000x1 (constant S_ .f32 0x00000000#32)) (broadcastInDim S1000000x1 ![0] bcast_S1000000_S1000000x1_0 dst) (broadcastInDim S1000000x1 ![] bcast_S_S1000000x1 (constant S_ .f32 0x3F800000#32))) (broadcastInDim S100000x1 ![] bcast_S_S100000x1 (constant S_ .f32 0x3F800000#32)))))⟩] concatenates_S100000x64_S100000x64_S100000x128_d1) W1) (broadcastInDim S100000x16 ![0, 1] bcast_S1x16_S100000x16_0_1 (broadcastInDim S1x16 ![1] bcast_S16_S1x16_1 b1))) (broadcastInDim S100000x16 ![] bcast_S_S100000x16 (constant S_ .f32 0x00000000#32))) W2) (broadcastInDim S100000x16 ![0, 1] bcast_S1x16_S100000x16_0_1 (broadcastInDim S1x16 ![1] bcast_S16_S1x16_1 b2))) (broadcastInDim S100000x16 ![] bcast_S_S100000x16 (constant S_ .f32 0x00000000#32))) W3) (broadcastInDim S100000x64 ![0, 1] bcast_S1x64_S100000x64_0_1 (broadcastInDim S1x64 ![1] bcast_S64_S1x64_1 b3)))))) : FVec Ideal S100000x64 .f32)
      = nodeFn nf e dst W1 b1 W2 b2 W3 b3 :=
  (hostMlp_cat2 (N := 100000) (D := 64) (K := 128) (L := 16) (C := 64) (hK := rfl) (ob := 64) (hob := rfl)
    (d1 := dot_S100000x128_S128x16_S100000x16_1_0_0_1_n_n) (hd1 := rfl)
    (d2 := dot_S100000x16_S16x16_S100000x16_1_0_0_1_n_n) (hd2 := rfl)
    (d3 := dot_S100000x16_S16x64_S100000x64_1_0_0_1_n_n) (hd3 := rfl)
    (hcL := Cert.KernelIdeal.Gen.shapeCasts_S16_S1x16) (hcC := Cert.KernelIdeal.Gen.shapeCasts_S64_S1x64)
    (hsa := Cert.KernelIdeal.Gen.slices_S128x16_S64x16_0_0) (hsb := Cert.KernelIdeal.Gen.slices_S128x16_S64x16_64_0) ..).trans (by
      unfold nodeFn Cert.KernelIdeal.Chains.meanAgg
      rw [scatter_rows_rec, scatter_ones_rec])

variable (m : (ℓ : Loc nD τ sig) → Buf (Elt Ideal) ℓ)

/-- The reference's node result is the node stage of the arguments and the edge stage of the arguments. -/
theorem node_result (c : Dev nD) : Cert.ReferenceIdeal.Value.res_main_v66 (F := Ideal) m c
    = nodeFn (m ((c.tc : Thread nD τ).loc main_arg0))
        (edgeFn (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)))
        (m ((c.tc : Thread nD τ).loc main_arg3)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) := by
  unfold Cert.ReferenceIdeal.Value.res_main_v66
  rw [edge_ref]
  exact node_ref ..

end Cert.ReferenceIdeal.RefValue

end
-- ==== Proof.lean ====
/-
  A message-passing block on a graph of 100000 nodes and 1000000 edges: every edge's features are updated by a
  three-layer perceptron (two clamped layers of width 16 and a logistic output layer of width 64) applied to the edge's
  features beside the features of its source and destination nodes; every node's features are updated by a second such
  perceptron applied to the node's features beside the mean of the updated edge features over the edges that arrive at it.

  The kernel program gathers the endpoint rows on the host and runs the edge perceptron in a grid of 125 blocks of 8000
  edges, its first layer as three products with the 64-row bands of the 192-row weight matrix; the host forms the means;
  a second grid of 10 blocks of 10000 nodes runs the node perceptron, its first layer as two products with the bands of
  the 128-row matrix. The reference concatenates the inputs and multiplies by the whole matrices.

  On the extended reals the two agree entry by entry, for every input, finite or not:
    • a product with a row-wise concatenation [a | b | c] is a · w_a + b · w_b + c · w_c, because a sum over 192
      consecutive positions is the sum of its three thirds (associativity of addition only);
    • narrowing a product's operands to bf16 changes nothing there, and the kernel's one logistic operation is the
      reference's 1 / (1 + exp (-x));
    • every entry of a perceptron's result depends on its own row of the inputs only, so the rows a grid point writes
      are those rows of the perceptron applied to the whole arrays, and the blocks cover the output;
    • the gather of endpoint rows and the mean over incoming edges are the same host operations in both programs,
      applied to equal arrays.
  The word-level kernel and the idealized one differ in no operation, so the idealization has nothing to preserve.
-/
import proofs.«169925_j12309376270349_1_alg».proof.Defs
import proofs.«169925_j12309376270349_1_alg».proof.Proof.Gen.Kernel
import proofs.«169925_j12309376270349_1_alg».proof.Proof.Gen.Kernel.Skeleton
import proofs.«169925_j12309376270349_1_alg».proof.Proof.Gen.Kernel.Launch
import proofs.«169925_j12309376270349_1_alg».proof.Proof.Gen.Kernel.Points
import proofs.«169925_j12309376270349_1_alg».proof.Proof.Gen.Kernel.Frame
import proofs.«169925_j12309376270349_1_alg».proof.Proof.Gen.KernelIdeal
import proofs.«169925_j12309376270349_1_alg».proof.Proof.Gen.KernelIdeal.Skeleton
import proofs.«169925_j12309376270349_1_alg».proof.Proof.Gen.KernelIdeal.Launch
import proofs.«169925_j12309376270349_1_alg».proof.Proof.Gen.KernelIdeal.Points
import proofs.«169925_j12309376270349_1_alg».proof.Proof.Gen.KernelIdeal.Frame
import proofs.«169925_j12309376270349_1_alg».proof.Proof.Gen.ReferenceIdeal
import proofs.«169925_j12309376270349_1_alg».proof.Proof.Gen.Pre_finite_inputs
import proofs.«169925_j12309376270349_1_alg».proof.Proof.Gen.ReferenceIdeal.Run
import proofs.«169925_j12309376270349_1_alg».proof.Proof.KernelValue
import proofs.«169925_j12309376270349_1_alg».proof.Proof.RefValue
import Idealize.ShloMosaic.Adequacy
import Idealize.ShloMosaic.Init

noncomputable section

namespace Cert.Proof

open Idealize.ShloMosaic Idealize.SL.Sem

/-- The word-level kernel program runs to the end with its arguments unchanged. -/
theorem frame_kernel : Cert.frame_Kernel := fun m ρ _ => Cert.Kernel.Gen.frame m ρ

/-- So does the idealized kernel program. -/
theorem frame_kernelIdeal : Cert.frame_KernelIdeal := fun m ρ _ => Cert.KernelIdeal.Gen.frame m ρ

/-- So does the reference: its run with the two results dropped. -/
theorem frame_referenceIdeal : Cert.frame_ReferenceIdeal := fun m ρ _ =>
  (θ_run Cert.ReferenceIdeal.defs _ _).mono (fun _ h c => (h c).2.2) (Cert.ReferenceIdeal.Value.run (F := Ideal) m ρ)

/-- The idealization rewrote no operation. -/
theorem preserves : Cert.preserves_Kernel_KernelIdeal := trivial

/-- From memories that agree on the arguments, the kernel program's two output arrays end at the node stage and the
    edge stage of the arguments, and so do the reference's two results. -/
theorem algebraic : Cert.algebraic_KernelIdeal_ReferenceIdeal := by
  intro m ρ m' ρ' _ hagree
  refine ⟨fun c => Cert.KernelIdeal.Closed.nodeVal m c, fun c => Cert.KernelIdeal.Closed.edgeVal m c,
    Cert.KernelIdeal.Closed.run m ρ, ?_⟩
  refine (θ_run Cert.ReferenceIdeal.defs _ _).mono (fun _ h c => ?_) (Cert.ReferenceIdeal.Value.run (F := Ideal) m' ρ')
  obtain ⟨a0, a1, a2, a3, a4, a5, a6, a7, a8, a9, a10, a11, a12, a13, a14, a15⟩ := hagree c
  refine ⟨(h c).1.trans ?_, (h c).2.1.trans ?_, (h c).2.2⟩
  · rw [Cert.ReferenceIdeal.RefValue.node_result m' c, a0, a1, a2, a3, a4, a5, a6, a7, a8, a9, a10, a11, a12, a13, a14, a15]
    rfl
  · rw [Cert.ReferenceIdeal.RefValue.edge_ref, a0, a1, a2, a3, a4, a5, a6, a7, a8, a9]
    rfl

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
